-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x32 : Shape := ⟨2, ![6144, 32]⟩
abbrev S6144x32x32 : Shape := ⟨3, ![6144, 32, 32]⟩
abbrev S14x128 : Shape := ⟨2, ![14, 128]⟩
abbrev S128x256 : Shape := ⟨2, ![128, 256]⟩
abbrev S128 : Shape := ⟨1, ![128]⟩
abbrev S128x128 : Shape := ⟨2, ![128, 128]⟩
abbrev S10x128 : Shape := ⟨2, ![10, 128]⟩
abbrev S_ : Shape := ⟨0, ![]⟩

class Facts : Prop where
  bcast_S_S6144x32x32 : S_.BroadcastsInDim S6144x32x32 (![] : Fin 0 → Fin S6144x32x32.rank)
  reducesTo_S6144x32x32_S_d0_1_2 : S6144x32x32.ReducesTo [0, 1, 2] S_
  h_S_ : 0 < S_.numel
  bcast_S_S14x128 : S_.BroadcastsInDim S14x128 (![] : Fin 0 → Fin S14x128.rank)
  reducesTo_S14x128_S_d0_1 : S14x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_

variable [Facts]

def fn_part2 {F : FTy → Type} [FloatOps F] (main_arg8 : FVec F S128 .f32) (main_arg9 : FVec F S10x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S10x128 .f32 := Host.absf main_arg9
  let main_cst_14 : FVec F S_ .f32 := constant S_ .f32 0x7F800000#32
  let main_v40 : FVec F S10x128 .f32 := broadcastInDim S10x128 ![] bcast_S_S10x128 main_cst_14
  let main_v41 : IVec S10x128 1 := cmpf .olt main_v39 main_v40
  let main_c_15 : IVec S_ 1 := constantI S_ 1 1#1
  let main_v42 : IVec S_ 1 := (fun x v => Host.reduce IntOp.andi x v reducesTo_S10x128_S_d0_1 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128 .f32) (main_arg9 : FVec F S10x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : IVec S6144x32 32) (main_arg1 : FVec F S6144x32x32 .f32) (main_arg2 : FVec F S14x128 .f32) (main_arg3 : FVec F S128x256 .f32) (main_arg4 : FVec F S128 .f32) (main_arg5 : FVec F S128x128 .f32) (main_arg6 : FVec F S128 .f32) (main_arg7 : FVec F S128x128 .f32) (main_arg8 : FVec F S128 .f32) (main_arg9 : FVec F S10x128 .f32) : IVec S_ 1 :=
  let main_v0 : FVec F S6144x32x32 .f32 := Host.absf main_arg1
  let main_cst : FVec F S_ .f32 := constant S_ .f32 0x7F800000#32
  let main_v1 : FVec F S6144x32x32 .f32 := broadcastInDim S6144x32x32 ![] bcast_S_S6144x32x32 main_cst
  let main_v2 : IVec S6144x32x32 1 := cmpf .olt main_v0 main_v1
  let main_c : IVec S_ 1 := constantI S_ 1 1#1
  let main_v3 : IVec S_ 1 := (fun x v => Host.reduce IntOp.andi x v reducesTo_S6144x32x32_S_d0_1_2 h_S_) main_v2 main_c
  let main_v4 : FVec F S14x128 .f32 := Host.absf main_arg2
  let main_cst_0 : FVec F S_ .f32 := constant S_ .f32 0x7F800000#32
  let main_v5 : FVec F S14x128 .f32 := broadcastInDim S14x128 ![] bcast_S_S14x128 main_cst_0
  let main_v6 : IVec S14x128 1 := cmpf .olt main_v4 main_v5
  let main_c_1 : IVec S_ 1 := constantI S_ 1 1#1
  let main_v7 : IVec S_ 1 := (fun x v => Host.reduce IntOp.andi x v reducesTo_S14x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S6144x32 : Shape := ⟨2, ![6144, 32]⟩
abbrev S6144x32x32 : Shape := ⟨3, ![6144, 32, 32]⟩
abbrev S14x128 : Shape := ⟨2, ![14, 128]⟩
abbrev S128x256 : Shape := ⟨2, ![128, 256]⟩
abbrev S128 : Shape := ⟨1, ![128]⟩
abbrev S128x128 : Shape := ⟨2, ![128, 128]⟩
abbrev S10x128 : Shape := ⟨2, ![10, 128]⟩
abbrev S_ : Shape := ⟨0, ![]⟩
abbrev S128x10 : Shape := ⟨2, ![128, 10]⟩
abbrev S1 : Shape := ⟨1, ![1]⟩
abbrev S1x128 : Shape := ⟨2, ![1, 128]⟩
abbrev S196608 : Shape := ⟨1, ![196608]⟩
abbrev S196608x1 : Shape := ⟨2, ![196608, 1]⟩
abbrev S1x1 : Shape := ⟨2, ![1, 1]⟩
abbrev S196608x128 : Shape := ⟨2, ![196608, 128]⟩
abbrev S768x128 : Shape := ⟨2, ![768, 128]⟩
abbrev S24x32x32 : Shape := ⟨3, ![24, 32, 32]⟩
abbrev S24576x128 : Shape := ⟨2, ![24576, 128]⟩
abbrev S768x32x1 : Shape := ⟨3, ![768, 32, 1]⟩
abbrev S768x32x128 : Shape := ⟨3, ![768, 32, 128]⟩
abbrev S768x256 : Shape := ⟨2, ![768, 256]⟩
abbrev S24x1x32x128 : Shape := ⟨4, ![24, 1, 32, 128]⟩
abbrev S24x32x32x128 : Shape := ⟨4, ![24, 32, 32, 128]⟩
abbrev S768x1x128 : Shape := ⟨3, ![768, 1, 128]⟩
abbrev S24x32x128 : Shape := ⟨3, ![24, 32, 128]⟩
abbrev S196608x10 : Shape := ⟨2, ![196608, 10]⟩
abbrev S6144x32x10 : Shape := ⟨3, ![6144, 32, 10]⟩
abbrev S6144x1x10 : Shape := ⟨3, ![6144, 1, 10]⟩
abbrev S6144x10 : Shape := ⟨2, ![6144, 10]⟩

abbrev nBuf : Space → Nat
  | .hbm => 59
  | .vmem => 13
  | .smem => 0
  | _ => 0

abbrev bufTy : (tb : Table) → Fin (tcTables nBuf tb) → BufTy
  | .hbm, ⟨0, _⟩ => ⟨S6144x32, .i32⟩
  | .hbm, ⟨1, _⟩ => ⟨S6144x32x32, .f32⟩
  | .hbm, ⟨2, _⟩ => ⟨S14x128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x256, .f32⟩
  | .hbm, ⟨15, _⟩ => ⟨S128x256, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S_, .f32⟩
  | .hbm, ⟨21, _⟩ => ⟨S128x128, .f32⟩
  | .hbm, ⟨22, _⟩ => ⟨S128x10, .f32⟩
  | .hbm, ⟨23, _⟩ => ⟨S_, .i32⟩
  | .hbm, ⟨24, _⟩ => ⟨S1, .i32⟩
  | .hbm, ⟨25, _⟩ => ⟨S128x128, .f32⟩
  | .hbm, ⟨26, _⟩ => ⟨S128x128, .bf16⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S196608, .i32⟩
  | .hbm, ⟨31, _⟩ => ⟨S_, .i32⟩
  | .hbm, ⟨32, _⟩ => ⟨S196608, .i32⟩
  | .hbm, ⟨33, _⟩ => ⟨S196608, .i1⟩
  | .hbm, ⟨34, _⟩ => ⟨S_, .i32⟩
  | .hbm, ⟨35, _⟩ => ⟨S196608, .i32⟩
  | .hbm, ⟨36, _⟩ => ⟨S196608, .i32⟩
  | .hbm, ⟨37, _⟩ => ⟨S196608, .i32⟩
  | .hbm, ⟨38, _⟩ => ⟨S196608x1, .i32⟩
  | .hbm, ⟨39, _⟩ => ⟨S1, .i32⟩
  | .hbm, ⟨40, _⟩ => ⟨S_, .i32⟩
  | .hbm, ⟨41, _⟩ => ⟨S196608x1, .i32⟩
  | .hbm, ⟨42, _⟩ => ⟨S196608x1, .i1⟩
  | .hbm, ⟨43, _⟩ => ⟨S1x1, .i32⟩
  | .hbm, ⟨44, _⟩ => ⟨S196608x1, .i32⟩
  | .hbm, ⟨45, _⟩ => ⟨S196608x1, .i1⟩
  | .hbm, ⟨46, _⟩ => ⟨S196608x1, .i1⟩
  | .hbm, ⟨47, _⟩ => ⟨S_, .i1⟩
  | .hbm, ⟨48, _⟩ => ⟨S196608, .i1⟩
  | .hbm, ⟨49, _⟩ => ⟨S196608x128, .f32⟩
  | .hbm, ⟨50, _⟩ => ⟨S196608x128, .i1⟩
  | .hbm, ⟨51, _⟩ => ⟨S_, .f32⟩
  | .hbm, ⟨52, _⟩ => ⟨S196608x128, .f32⟩
  | .hbm, ⟨53, _⟩ => ⟨S196608x128, .f32⟩
  | .hbm, ⟨54, _⟩ => ⟨S196608x128, .f32⟩
  | .hbm, ⟨55, _⟩ => ⟨S196608x10, .f32⟩
  | .hbm, ⟨56, _⟩ => ⟨S6144x32x10, .f32⟩
  | .hbm, ⟨57, _⟩ => ⟨S6144x1x10, .f32⟩
  | .hbm, ⟨58, _⟩ => ⟨S6144x10, .f32⟩
  | .local _ .vmem, ⟨0, _⟩ => ⟨S768x128, .f32⟩
  | .local _ .vmem, ⟨1, _⟩ => ⟨S768x128, .f32⟩
  | .local _ .vmem, ⟨2, _⟩ => ⟨S24x32x32, .f32⟩
  | .local _ .vmem, ⟨3, _⟩ => ⟨S24x32x32, .f32⟩
  | .local _ .vmem, ⟨4, _⟩ => ⟨S128x256, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S768x128, .f32⟩
  | .local _ .vmem, ⟨12, _⟩ => ⟨S768x128, .f32⟩
  | _, _ => ⟨S6144x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  concatenates_S128x128_S128x128_S128x256_d1 : Shape.Concatenates [S128x128, S128x128] S128x256 1
  bitsLt_bf16_f32 : FTy.bits .bf16 < FTy.bits .f32
  bcast_S_S128x128 : S_.BroadcastsInDim S128x128 (![] : Fin 0 → Fin S128x128.rank)
  transposes_S10x128_S128x10_1_0 : S10x128.Transposes [1, 0] S128x10
  bcast_S_S1 : S_.BroadcastsInDim S1 (![] : Fin 0 → Fin S1.rank)
  shapeCasts_S128_S1x128 : S128.ShapeCasts S1x128
  shapeCasts_S6144x32_S196608 : S6144x32.ShapeCasts S196608
  bcast_S_S196608 : S_.BroadcastsInDim S196608 (![] : Fin 0 → Fin S196608.rank)
  bcast_S196608_S196608x1_0 : S196608.BroadcastsInDim S196608x1 (![0] : Fin 1 → Fin S196608x1.rank)
  bcast_S_S196608x1 : S_.BroadcastsInDim S196608x1 (![] : Fin 0 → Fin S196608x1.rank)
  bcast_S1_S1x1_1 : S1.BroadcastsInDim S1x1 (![1] : Fin 1 → Fin S1x1.rank)
  bcast_S1x1_S196608x1_0_1 : S1x1.BroadcastsInDim S196608x1 (![0, 1] : Fin 2 → Fin S196608x1.rank)
  reducesTo_S196608x1_S196608_d1 : S196608x1.ReducesTo [1] S196608
  h_S_ : 0 < S_.numel
  bcast_S196608_S196608x128_0 : S196608.BroadcastsInDim S196608x128 (![0] : Fin 1 → Fin S196608x128.rank)
  bcast_S_S196608x128 : S_.BroadcastsInDim S196608x128 (![] : Fin 0 → Fin S196608x128.rank)
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S768x128 : S1x128.Broadcasts S768x128
  broadcasts_S1x128_S24576x128 : S1x128.Broadcasts S24576x128
  inb_S24x32x32_S24x32x32_0_0_0 : ∀ a, (![0, 0, 0] : Fin 3 → Nat) a + S24x32x32.size a ≤ S24x32x32.size a
  h_S24x32x32 : 0 < S24x32x32.numel
  shapeCasts_S24x32x32_S768x32x1 : S24x32x32.ShapeCasts S768x32x1
  shapeCasts_S768x32x1_S768x32x1 : S768x32x1.ShapeCasts S768x32x1
  broadcasts_S768x32x1_S768x32x128 : S768x32x1.Broadcasts S768x32x128
  slices_S768x256_o0_0_S768x128 : S768x256.Slices ![0, 0] S768x128
  slices_S768x256_o0_128_S768x128 : S768x256.Slices ![0, 128] S768x128
  shapeCasts_S768x128_S24x1x32x128 : S768x128.ShapeCasts S24x1x32x128
  shapeCasts_S24x1x32x128_S24x1x32x128 : S24x1x32x128.ShapeCasts S24x1x32x128
  broadcasts_S24x1x32x128_S24x32x32x128 : S24x1x32x128.Broadcasts S24x32x32x128
  shapeCasts_S24x32x32x128_S768x32x128 : S24x32x32x128.ShapeCasts S768x32x128
  shapeCasts_S768x128_S768x1x128 : S768x128.ShapeCasts S768x1x128
  broadcasts_S768x1x128_S768x32x128 : S768x1x128.Broadcasts S768x32x128
  shapeCasts_S768x32x128_S24576x128 : S768x32x128.ShapeCasts S24576x128
  shapeCasts_S24576x128_S24x32x32x128 : S24576x128.ShapeCasts S24x32x32x128
  reduces_S24x32x32x128_S24x32x128 : S24x32x32x128.Reduces [1] S24x32x128
  shapeCasts_S24x32x128_S768x128 : S24x32x128.ShapeCasts S768x128
  slices_S196608x128_S196608x10_0_0 : S196608x128.Slices ![0, 0] S196608x10
  shapeCasts_S196608x10_S6144x32x10 : S196608x10.ShapeCasts S6144x32x10
  slices_S6144x32x10_S6144x1x10_0_0_0 : S6144x32x10.Slices ![0, 0, 0] S6144x1x10
  shapeCasts_S6144x1x10_S6144x10 : S6144x1x10.ShapeCasts S6144x10
  scatter_S128x128_S1_S128x10_01_n_1_0_wf : ScatterDims.WF S128x128 S1 S128x10 [0, 1] [] [1] 0
  gather_S14x128_S196608x1_S196608x128_1_0_n_n_0_1_1128_wf : GatherDims.WF S14x128 S196608x1 S196608x128 [1] [0] [] [0] [] 1 ![1, 128]
  dot_S768x128_S128x256_S768x256_1_0_0_1_n_n_wf : DotDims.WF S768x128 S128x256 S768x256 [1] [0] [0] [1] [] []
  dot_S24576x128_S128x128_S24576x128_1_0_0_1_n_n_wf : DotDims.WF S24576x128 S128x128 S24576x128 [1] [0] [0] [1] [] []
  dot_S768x128_S128x128_S768x128_1_0_0_1_n_n_wf : DotDims.WF S768x128 S128x128 S768x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x128.size a ≤ S196608x128.size a
  hwx0_0 : ∀ i : grid0.Coords, EltTy.bits .f32 = 32 ∨ (Rect.block (s := S196608x128) S768x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x32x32.size a ≤ S6144x32x32.size a
  hwx0_1 : ∀ i : grid0.Coords, EltTy.bits .f32 = 32 ∨ (Rect.block (s := S6144x32x32) S24x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S768x128.size a ≤ S196608x128.size a
  hwx0_9 : ∀ i : grid0.Coords, EltTy.bits .f32 = 32 ∨ (Rect.block (s := S196608x128) S768x128.size (cc0_transform_9 i) (hinb0_9 i)).WholeWords (EltTy.packing .f32)

variable [Facts₀]

def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def gather_S14x128_S196608x1_S196608x128_1_0_n_n_0_1_1128 : GatherDims S14x128 S196608x1 S196608x128 where
  offsetDims := [1]
  collapsedSliceDims := [0]
  operandBatchingDims := []
  startIndicesBatchingDims := []
  startIndexMap := [0]
  indexVectorDim := 1
  sliceSizes := ![1, 128]
  wf := gather_S14x128_S196608x1_S196608x128_1_0_n_n_0_1_1128_wf
def dot_S768x128_S128x256_S768x256_1_0_0_1_n_n : DotDims S768x128 S128x256 S768x256 where
  lhsContracting := [1]
  rhsContracting := [0]
  lhsNonContracting := [0]
  rhsNonContracting := [1]
  lhsBatch := []
  rhsBatch := []
  wf := dot_S768x128_S128x256_S768x256_1_0_0_1_n_n_wf
def dot_S24576x128_S128x128_S24576x128_1_0_0_1_n_n : DotDims S24576x128 S128x128 S24576x128 where
  lhsContracting := [1]
  rhsContracting := [0]
  lhsNonContracting := [0]
  rhsNonContracting := [1]
  lhsBatch := []
  rhsBatch := []
  wf := dot_S24576x128_S128x128_S24576x128_1_0_0_1_n_n_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf

abbrev win0_0 : Pipeline.Window sig grid0 :=
  Pipeline.Window.ofSpec (Memref.whole main_v19) S768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S768x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S6144x32 : Shape := ⟨2, ![6144, 32]⟩
abbrev S6144x32x32 : Shape := ⟨3, ![6144, 32, 32]⟩
abbrev S14x128 : Shape := ⟨2, ![14, 128]⟩
abbrev S128x256 : Shape := ⟨2, ![128, 256]⟩
abbrev S128 : Shape := ⟨1, ![128]⟩
abbrev S128x128 : Shape := ⟨2, ![128, 128]⟩
abbrev S10x128 : Shape := ⟨2, ![10, 128]⟩
abbrev S_ : Shape := ⟨0, ![]⟩
abbrev S6144x32x1 : Shape := ⟨3, ![6144, 32, 1]⟩
abbrev S1 : Shape := ⟨1, ![1]⟩
abbrev S1x1x1 : Shape := ⟨3, ![1, 1, 1]⟩
abbrev S6144x32x128 : Shape := ⟨3, ![6144, 32, 128]⟩
abbrev S196608x128 : Shape := ⟨2, ![196608, 128]⟩
abbrev S196608x32 : Shape := ⟨2, ![196608, 32]⟩
abbrev S196608 : Shape := ⟨1, ![196608]⟩
abbrev S196608x1 : Shape := ⟨2, ![196608, 1]⟩
abbrev S32 : Shape := ⟨1, ![32]⟩
abbrev S1x32 : Shape := ⟨2, ![1, 32]⟩
abbrev S196608x32x1 : Shape := ⟨3, ![196608, 32, 1]⟩
abbrev S196608x1x32 : Shape := ⟨3, ![196608, 1, 32]⟩
abbrev S196608x32x32 : Shape := ⟨3, ![196608, 32, 32]⟩
abbrev S196608x1024 : Shape := ⟨2, ![196608, 1024]⟩
abbrev S1x128 : Shape := ⟨2, ![1, 128]⟩
abbrev S128x10 : Shape := ⟨2, ![128, 10]⟩
abbrev S32x128 : Shape := ⟨2, ![32, 128]⟩
abbrev S32x1024 : Shape := ⟨2, ![32, 1024]⟩
abbrev S1024x128 : Shape := ⟨2, ![1024, 128]⟩
abbrev S1x1x32x128 : Shape := ⟨4, ![1, 1, 32, 128]⟩
abbrev S1x32x32x128 : Shape := ⟨4, ![1, 32, 32, 128]⟩
abbrev S32x32x128 : Shape := ⟨3, ![32, 32, 128]⟩
abbrev S32x1x128 : Shape := ⟨3, ![32, 1, 128]⟩
abbrev S196608x10 : Shape := ⟨2, ![196608, 10]⟩
abbrev S6144x32x10 : Shape := ⟨3, ![6144, 32, 10]⟩
abbrev S6144x1x10 : Shape := ⟨3, ![6144, 1, 10]⟩
abbrev S6144x10 : Shape := ⟨2, ![6144, 10]⟩

abbrev nBuf : Space → Nat
  | .hbm => 92
  | .vmem => 14
  | .smem => 0
  | _ => 0

abbrev bufTy : (tb : Table) → Fin (tcTables nBuf tb) → BufTy
  | .hbm, ⟨0, _⟩ => ⟨S6144x32, .i32⟩
  | .hbm, ⟨1, _⟩ => ⟨S6144x32x32, .f32⟩
  | .hbm, ⟨2, _⟩ => ⟨S14x128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S_, .i32⟩
  | .hbm, ⟨11, _⟩ => ⟨S6144x32, .i32⟩
  | .hbm, ⟨12, _⟩ => ⟨S6144x32, .i1⟩
  | .hbm, ⟨13, _⟩ => ⟨S_, .i32⟩
  | .hbm, ⟨14, _⟩ => ⟨S6144x32, .i32⟩
  | .hbm, ⟨15, _⟩ => ⟨S6144x32, .i32⟩
  | .hbm, ⟨16, _⟩ => ⟨S6144x32, .i32⟩
  | .hbm, ⟨17, _⟩ => ⟨S6144x32x1, .i32⟩
  | .hbm, ⟨18, _⟩ => ⟨S1, .i32⟩
  | .hbm, ⟨19, _⟩ => ⟨S_, .i32⟩
  | .hbm, ⟨20, _⟩ => ⟨S6144x32x1, .i32⟩
  | .hbm, ⟨21, _⟩ => ⟨S6144x32x1, .i1⟩
  | .hbm, ⟨22, _⟩ => ⟨S1x1x1, .i32⟩
  | .hbm, ⟨23, _⟩ => ⟨S6144x32x1, .i32⟩
  | .hbm, ⟨24, _⟩ => ⟨S6144x32x1, .i1⟩
  | .hbm, ⟨25, _⟩ => ⟨S6144x32x1, .i1⟩
  | .hbm, ⟨26, _⟩ => ⟨S_, .i1⟩
  | .hbm, ⟨27, _⟩ => ⟨S6144x32, .i1⟩
  | .hbm, ⟨28, _⟩ => ⟨S6144x32x128, .f32⟩
  | .hbm, ⟨29, _⟩ => ⟨S6144x32x128, .i1⟩
  | .hbm, ⟨30, _⟩ => ⟨S_, .f32⟩
  | .hbm, ⟨31, _⟩ => ⟨S6144x32x128, .f32⟩
  | .hbm, ⟨32, _⟩ => ⟨S6144x32x128, .f32⟩
  | .hbm, ⟨33, _⟩ => ⟨S196608x128, .f32⟩
  | .hbm, ⟨34, _⟩ => ⟨S6144x32x32, .f32⟩
  | .hbm, ⟨35, _⟩ => ⟨S196608x32, .f32⟩
  | .hbm, ⟨36, _⟩ => ⟨S196608, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S196608, .i32⟩
  | .hbm, ⟨44, _⟩ => ⟨S196608, .i32⟩
  | .hbm, ⟨45, _⟩ => ⟨S_, .i32⟩
  | .hbm, ⟨46, _⟩ => ⟨S196608, .i32⟩
  | .hbm, ⟨47, _⟩ => ⟨S196608, .i1⟩
  | .hbm, ⟨48, _⟩ => ⟨S_, .i32⟩
  | .hbm, ⟨49, _⟩ => ⟨S196608, .i32⟩
  | .hbm, ⟨50, _⟩ => ⟨S196608, .i1⟩
  | .hbm, ⟨51, _⟩ => ⟨S_, .i32⟩
  | .hbm, ⟨52, _⟩ => ⟨S_, .i1⟩
  | .hbm, ⟨53, _⟩ => ⟨S196608, .i1⟩
  | .hbm, ⟨54, _⟩ => ⟨S196608, .i1⟩
  | .hbm, ⟨55, _⟩ => ⟨S196608, .i1⟩
  | .hbm, ⟨56, _⟩ => ⟨S196608, .i32⟩
  | .hbm, ⟨57, _⟩ => ⟨S196608, .i32⟩
  | .hbm, ⟨58, _⟩ => ⟨S196608, .i32⟩
  | .hbm, ⟨59, _⟩ => ⟨S196608x1, .i32⟩
  | .hbm, ⟨60, _⟩ => ⟨S32, .i32⟩
  | .hbm, ⟨61, _⟩ => ⟨S1x32, .i32⟩
  | .hbm, ⟨62, _⟩ => ⟨S196608x32, .i32⟩
  | .hbm, ⟨63, _⟩ => ⟨S196608x32, .i32⟩
  | .hbm, ⟨64, _⟩ => ⟨S196608x32, .i1⟩
  | .hbm, ⟨65, _⟩ => ⟨S196608x32, .f32⟩
  | .hbm, ⟨66, _⟩ => ⟨S196608x32x1, .f32⟩
  | .hbm, ⟨67, _⟩ => ⟨S196608x1x32, .f32⟩
  | .hbm, ⟨68, _⟩ => ⟨S196608x32x32, .f32⟩
  | .hbm, ⟨69, _⟩ => ⟨S196608x32x32, .f32⟩
  | .hbm, ⟨70, _⟩ => ⟨S196608x32x32, .f32⟩
  | .hbm, ⟨71, _⟩ => ⟨S196608x1024, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S128x128, .f32⟩
  | .hbm, ⟨78, _⟩ => ⟨S1x128, .f32⟩
  | .hbm, ⟨79, _⟩ => ⟨S128x128, .f32⟩
  | .hbm, ⟨80, _⟩ => ⟨S1x128, .f32⟩
  | .hbm, ⟨81, _⟩ => ⟨S_, .f32⟩
  | .hbm, ⟨82, _⟩ => ⟨S128x128, .f32⟩
  | .hbm, ⟨83, _⟩ => ⟨S128x10, .f32⟩
  | .hbm, ⟨84, _⟩ => ⟨S_, .i32⟩
  | .hbm, ⟨85, _⟩ => ⟨S1, .i32⟩
  | .hbm, ⟨86, _⟩ => ⟨S128x128, .f32⟩
  | .hbm, ⟨87, _⟩ => ⟨S196608x128, .f32⟩
  | .hbm, ⟨88, _⟩ => ⟨S196608x10, .f32⟩
  | .hbm, ⟨89, _⟩ => ⟨S6144x32x10, .f32⟩
  | .hbm, ⟨90, _⟩ => ⟨S6144x1x10, .f32⟩
  | .hbm, ⟨91, _⟩ => ⟨S6144x10, .f32⟩
  | .local _ .vmem, ⟨0, _⟩ => ⟨S32x128, .f32⟩
  | .local _ .vmem, ⟨1, _⟩ => ⟨S32x128, .f32⟩
  | .local _ .vmem, ⟨2, _⟩ => ⟨S32x1024, .f32⟩
  | .local _ .vmem, ⟨3, _⟩ => ⟨S32x1024, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S32x128, .f32⟩
  | .local _ .vmem, ⟨13, _⟩ => ⟨S32x128, .f32⟩
  | _, _ => ⟨S6144x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_c : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![6144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S6144x32 : S_.BroadcastsInDim S6144x32 (![] : Fin 0 → Fin S6144x32.rank)
  bcast_S6144x32_S6144x32x1_0_1 : S6144x32.BroadcastsInDim S6144x32x1 (![0, 1] : Fin 2 → Fin S6144x32x1.rank)
  bcast_S_S6144x32x1 : S_.BroadcastsInDim S6144x32x1 (![] : Fin 0 → Fin S6144x32x1.rank)
  bcast_S1_S1x1x1_2 : S1.BroadcastsInDim S1x1x1 (![2] : Fin 1 → Fin S1x1x1.rank)
  bcast_S1x1x1_S6144x32x1_0_1_2 : S1x1x1.BroadcastsInDim S6144x32x1 (![0, 1, 2] : Fin 3 → Fin S6144x32x1.rank)
  reducesTo_S6144x32x1_S6144x32_d2 : S6144x32x1.ReducesTo [2] S6144x32
  h_S_ : 0 < S_.numel
  bcast_S6144x32_S6144x32x128_0_1 : S6144x32.BroadcastsInDim S6144x32x128 (![0, 1] : Fin 2 → Fin S6144x32x128.rank)
  bcast_S_S6144x32x128 : S_.BroadcastsInDim S6144x32x128 (![] : Fin 0 → Fin S6144x32x128.rank)
  shapeCasts_S6144x32x128_S196608x128 : S6144x32x128.ShapeCasts S196608x128
  transposes_S6144x32x32_S6144x32x32_0_2_1 : S6144x32x32.Transposes [0, 2, 1] S6144x32x32
  shapeCasts_S6144x32x32_S196608x32 : S6144x32x32.ShapeCasts S196608x32
  bcast_S_S196608 : S_.BroadcastsInDim S196608 (![] : Fin 0 → Fin S196608.rank)
  bcast_S196608_S196608x1_0 : S196608.BroadcastsInDim S196608x1 (![0] : Fin 1 → Fin S196608x1.rank)
  bcast_S32_S1x32_1 : S32.BroadcastsInDim S1x32 (![1] : Fin 1 → Fin S1x32.rank)
  bcast_S196608x1_S196608x32_0_1 : S196608x1.BroadcastsInDim S196608x32 (![0, 1] : Fin 2 → Fin S196608x32.rank)
  bcast_S1x32_S196608x32_0_1 : S1x32.BroadcastsInDim S196608x32 (![0, 1] : Fin 2 → Fin S196608x32.rank)
  bcast_S196608x32_S196608x32x1_0_1 : S196608x32.BroadcastsInDim S196608x32x1 (![0, 1] : Fin 2 → Fin S196608x32x1.rank)
  bcast_S196608x32_S196608x1x32_0_2 : S196608x32.BroadcastsInDim S196608x1x32 (![0, 2] : Fin 2 → Fin S196608x1x32.rank)
  bcast_S196608x32x1_S196608x32x32_0_1_2 : S196608x32x1.BroadcastsInDim S196608x32x32 (![0, 1, 2] : Fin 3 → Fin S196608x32x32.rank)
  bcast_S196608x1x32_S196608x32x32_0_1_2 : S196608x1x32.BroadcastsInDim S196608x32x32 (![0, 1, 2] : Fin 3 → Fin S196608x32x32.rank)
  shapeCasts_S196608x32x32_S196608x1024 : S196608x32x32.ShapeCasts S196608x1024
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  bcast_S_S128x128 : S_.BroadcastsInDim S128x128 (![] : Fin 0 → Fin S128x128.rank)
  transposes_S10x128_S128x10_1_0 : S10x128.Transposes [1, 0] S128x10
  bcast_S_S1 : S_.BroadcastsInDim S1 (![] : Fin 0 → Fin S1.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  broadcasts_S1x128_S1024x128 : S1x128.Broadcasts S1024x128
  shapeCasts_S32x128_S1x1x32x128 : S32x128.ShapeCasts S1x1x32x128
  shapeCasts_S1x1x32x128_S1x1x32x128 : S1x1x32x128.ShapeCasts S1x1x32x128
  broadcasts_S1x1x32x128_S1x32x32x128 : S1x1x32x128.Broadcasts S1x32x32x128
  shapeCasts_S1x32x32x128_S32x32x128 : S1x32x32x128.ShapeCasts S32x32x128
  shapeCasts_S32x128_S32x1x128 : S32x128.ShapeCasts S32x1x128
  broadcasts_S32x1x128_S32x32x128 : S32x1x128.Broadcasts S32x32x128
  shapeCasts_S32x32x128_S1024x128 : S32x32x128.ShapeCasts S1024x128
  slices_S196608x128_S196608x10_0_0 : S196608x128.Slices ![0, 0] S196608x10
  shapeCasts_S196608x10_S6144x32x10 : S196608x10.ShapeCasts S6144x32x10
  slices_S6144x32x10_S6144x1x10_0_0_0 : S6144x32x10.Slices ![0, 0, 0] S6144x1x10
  shapeCasts_S6144x1x10_S6144x10 : S6144x1x10.ShapeCasts S6144x10
  gather_S14x128_S6144x32x1_S6144x32x128_2_0_n_n_0_2_1128_wf : GatherDims.WF S14x128 S6144x32x1 S6144x32x128 [2] [0] [] [0] [] 2 ![1, 128]
  scatter_S128x128_S1_S128x10_01_n_1_0_wf : ScatterDims.WF S128x128 S1 S128x10 [0, 1] [] [1] 0
  dot_S32x128_S128x128_S32x128_1_0_0_1_n_n_wf : DotDims.WF S32x128 S128x128 S32x128 [1] [0] [0] [1] [] []
  dot_S1024x128_S128x128_S1024x128_1_0_0_1_n_n_wf : DotDims.WF S1024x128 S128x128 S1024x128 [1] [0] [0] [1] [] []
  dot_S32x1024_S1024x128_S32x128_1_0_0_1_n_n_wf : DotDims.WF S32x1024 S1024x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S196608x128.size a
  hwx0_0 : ∀ i : grid0.Coords, EltTy.bits .f32 = 32 ∨ (Rect.block (s := S196608x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S196608x1024.size a
  hwx0_1 : ∀ i : grid0.Coords, EltTy.bits .f32 = 32 ∨ (Rect.block (s := S196608x1024) S32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128.size a ≤ S196608x128.size a
  hwx0_10 : ∀ i : grid0.Coords, EltTy.bits .f32 = 32 ∨ (Rect.block (s := S196608x128) S32x128.size (cc0_transform_10 i) (hinb0_10 i)).WholeWords (EltTy.packing .f32)

variable [Facts₀]

def gather_S14x128_S6144x32x1_S6144x32x128_2_0_n_n_0_2_1128 : GatherDims S14x128 S6144x32x1 S6144x32x128 where
  offsetDims := [2]
  collapsedSliceDims := [0]
  operandBatchingDims := []
  startIndicesBatchingDims := []
  startIndexMap := [0]
  indexVectorDim := 2
  sliceSizes := ![1, 128]
  wf := gather_S14x128_S6144x32x1_S6144x32x128_2_0_n_n_0_2_1128_wf
def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf

abbrev win0_0 : Pipeline.Window sig grid0 :=
  Pipeline.Window.ofSpec (Memref.whole main_v1) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S32x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== Proof.KLayout.lean ====
/-
  The kernel body's layout operations and matrix products read at an index.

  A block of the kernel holds 24 graphs: row 32·g + i of a [768, 128] array is node i of graph g, and row
  32·(32·g + j) + i of a [24576, 128] array is the ordered pair (sender j, receiver i) of graph g.  Every reshape below
  keeps the row-major position, so it only regroups these coordinates; every broadcast repeats an array along a new
  pair axis.  A matrix product into a zero accumulator is, entry by entry, the plain finite sum over the contracted axis.
-/
import proofs.«173531_g2000002686688254_pallaspilot1_98_21_alg».proof.KernelIdeal
import proofs.«173531_g2000002686688254_pallaspilot1_98_21_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Layout

open Idealize.ShloMosaic Idealize.ShloMosaic.ValueIdx Cert.KernelIdeal
open Cert.KernelIdeal.Facts₀ Cert.KernelIdeal.Facts

variable {α : Type}

/-- Node row 32·g + i of a block. -/
abbrev nodeRow (g : Fin 24) (i : Fin 32) : Fin 768 := ⟨32 * g.val + i.val, by omega⟩

/-- Pair row 32·r + i of a block, for a sender's node row r and a receiver i. -/
abbrev pairRow (r : Fin 768) (i : Fin 32) : Fin 24576 := ⟨32 * r.val + i.val, by omega⟩

/-! ## Reshapes -/

theorem cast_nodes_to_graphs (v : S768x128.Idx → α) (g : Fin 24) (u : Fin 1) (i : Fin 32) (d : Fin 128) :
    shapeCast S24x1x32x128 v shapeCasts_S768x128_S24x1x32x128 (ix4 g u i d) = v (ix2 (nodeRow g i) d) :=
  shapeCast_apply v _ _ _ (by
    have hu : u.val = 0 := by omega
    rw [Shape.rowMajor_val_four, Shape.rowMajor_val_two]
    show (32 * g.val + i.val) * 128 + d.val = ((g.val * 1 + u.val) * 32 + i.val) * 128 + d.val
    rw [hu]; omega)

theorem cast_graphPairs_to_rows (v : S24x32x32x128.Idx → α) (g : Fin 24) (j i : Fin 32) (d : Fin 128) :
    shapeCast S768x32x128 v shapeCasts_S24x32x32x128_S768x32x128 (ix3 (nodeRow g j) i d) = v (ix4 g j i d) :=
  shapeCast_apply v _ _ _ (by
    rw [Shape.rowMajor_val_four, Shape.rowMajor_val_three]
    show ((g.val * 32 + j.val) * 32 + i.val) * 128 + d.val = ((32 * g.val + j.val) * 32 + i.val) * 128 + d.val
    omega)

theorem cast_rows_unit (v : S768x128.Idx → α) (r : Fin 768) (u : Fin 1) (d : Fin 128) :
    shapeCast S768x1x128 v shapeCasts_S768x128_S768x1x128 (ix3 r u d) = v (ix2 r d) :=
  shapeCast_apply v _ _ _ (by
    have hu : u.val = 0 := by omega
    rw [Shape.rowMajor_val_three, Shape.rowMajor_val_two]
    show r.val * 128 + d.val = (r.val * 1 + u.val) * 128 + d.val
    rw [hu]; omega)

theorem cast_rowPairs_flat (v : S768x32x128.Idx → α) (r : Fin 768) (i : Fin 32) (d : Fin 128) :
    shapeCast S24576x128 v shapeCasts_S768x32x128_S24576x128 (ix2 (pairRow r i) d) = v (ix3 r i d) :=
  shapeCast_apply v _ _ _ (by
    rw [Shape.rowMajor_val_three, Shape.rowMajor_val_two]
    show (r.val * 32 + i.val) * 128 + d.val = (32 * r.val + i.val) * 128 + d.val
    omega)

theorem cast_flat_graphPairs (v : S24576x128.Idx → α) (g : Fin 24) (j i : Fin 32) (d : Fin 128) :
    shapeCast S24x32x32x128 v shapeCasts_S24576x128_S24x32x32x128 (ix4 g j i d) = v (ix2 (pairRow (nodeRow g j) i) d) :=
  shapeCast_apply v _ _ _ (by
    rw [Shape.rowMajor_val_four, Shape.rowMajor_val_two]
    show (32 * (32 * g.val + j.val) + i.val) * 128 + d.val = ((g.val * 32 + j.val) * 32 + i.val) * 128 + d.val
    omega)

theorem cast_graphs_to_nodes (v : S24x32x128.Idx → α) (g : Fin 24) (i : Fin 32) (d : Fin 128) :
    shapeCast S768x128 v shapeCasts_S24x32x128_S768x128 (ix2 (nodeRow g i) d) = v (ix3 g i d) :=
  shapeCast_apply v _ _ _ (by
    rw [Shape.rowMajor_val_three, Shape.rowMajor_val_two]
    show (g.val * 32 + i.val) * 128 + d.val = (32 * g.val + i.val) * 128 + d.val
    omega)

theorem cast_adj_rows (v : S24x32x32.Idx → α) (g : Fin 24) (j i : Fin 32) (u : Fin 1) :
    shapeCast S768x32x1 v shapeCasts_S24x32x32_S768x32x1 (ix3 (nodeRow g j) i u) = v (ix3 g j i) :=
  shapeCast_apply v _ _ _ (by
    have hu : u.val = 0 := by omega
    rw [Shape.rowMajor_val_three, Shape.rowMajor_val_three]
    show (g.val * 32 + j.val) * 32 + i.val = ((32 * g.val + j.val) * 32 + i.val) * 1 + u.val
    rw [hu]; omega)

/-! ## Broadcasts -/

theorem bcast_over_senders (v : S24x1x32x128.Idx → α) (g : Fin 24) (j i : Fin 32) (d : Fin 128) :
    broadcastTo S24x32x32x128 v broadcasts_S24x1x32x128_S24x32x32x128 (ix4 g j i d) = v (ix4 g (0 : Fin 1) i d) := by
  refine broadcastTo_apply v _ (ix4 g j i d) (ix4 g (0 : Fin 1) i d) fun ax => ?_
  match ax with
  | ⟨0, _⟩ => rfl
  | ⟨1, _⟩ => rfl
  | ⟨2, _⟩ => rfl
  | ⟨3, _⟩ => rfl

theorem bcast_over_receivers (v : S768x1x128.Idx → α) (r : Fin 768) (i : Fin 32) (d : Fin 128) :
    broadcastTo S768x32x128 v broadcasts_S768x1x128_S768x32x128 (ix3 r i d) = v (ix3 r (0 : Fin 1) d) := by
  refine broadcastTo_apply v _ (ix3 r i d) (ix3 r (0 : Fin 1) d) fun ax => ?_
  match ax with
  | ⟨0, _⟩ => rfl
  | ⟨1, _⟩ => rfl
  | ⟨2, _⟩ => rfl

theorem bcast_over_lanes (v : S768x32x1.Idx → α) (r : Fin 768) (i : Fin 32) (d : Fin 128) :
    broadcastTo S768x32x128 v broadcasts_S768x32x1_S768x32x128 (ix3 r i d) = v (ix3 r i (0 : Fin 1)) := by
  refine broadcastTo_apply v _ (ix3 r i d) (ix3 r i (0 : Fin 1)) fun ax => ?_
  match ax with
  | ⟨0, _⟩ => rfl
  | ⟨1, _⟩ => rfl
  | ⟨2, _⟩ => rfl

theorem bcast_bias_nodes (v : S1x128.Idx → α) (r : Fin 768) (c : Fin 128) :
    broadcastTo S768x128 v broadcasts_S1x128_S768x128 (ix2 r c) = v (ix2 (0 : Fin 1) c) :=
  broadcastTo_1b_ab_apply v _ r c

theorem bcast_bias_pairs (v : S1x128.Idx → α) (r : Fin 24576) (c : Fin 128) :
    broadcastTo S24576x128 v broadcasts_S1x128_S24576x128 (ix2 r c) = v (ix2 (0 : Fin 1) c) :=
  broadcastTo_1b_ab_apply v _ r c

/-! ## The two halves of the fused first layer -/

theorem slice_low (v : S768x256.Idx → α) (r : Fin 768) (c : Fin 128) :
    extractStridedSlice S768x128 ![0, 0] v slices_S768x256_o0_0_S768x128 (ix2 r c) = v (ix2 r ⟨c.val, by omega⟩) :=
  extractStridedSlice_apply _ v _ _ _ fun a => by
    match a with
    | ⟨0, _⟩ => show r.val = 0 + r.val; omega
    | ⟨1, _⟩ => show c.val = 0 + c.val; omega

theorem slice_high (v : S768x256.Idx → α) (r : Fin 768) (c : Fin 128) :
    extractStridedSlice S768x128 ![0, 128] v slices_S768x256_o0_128_S768x128 (ix2 r c) = v (ix2 r ⟨128 + c.val, by omega⟩) :=
  extractStridedSlice_apply _ v _ _ _ fun a => by
    match a with
    | ⟨0, _⟩ => show r.val = 0 + r.val; omega
    | ⟨1, _⟩ => show 128 + c.val = 128 + c.val; rfl

/-! ## The sum over senders -/

theorem sum_senders (v : FVec Ideal S24x32x32x128 .f32) (g : Fin 24) (i : Fin 32) (d : Fin 128) :
    multiReduction .add [1] S24x32x128 v 0x00000000#32 reduces_S24x32x32x128_S24x32x128 (.inl rfl) rfl (ix3 g i d)
      = ∑ j : Fin 32, v (ix4 g j i d) := by
  refine (Ideal.multiReduction_add_single v 0x00000000#32 reduces_S24x32x32x128_S24x32x128 (.inl rfl) rfl (ix3 g i d)).trans ?_
  refine Finset.sum_congr rfl fun j _ => congrArg v (funext fun a => Fin.ext ?_)
  rw [Shape.Reduces.lift_val]
  match a with
  | ⟨0, _⟩ => rfl
  | ⟨1, _⟩ => rfl
  | ⟨2, _⟩ => rfl
  | ⟨3, _⟩ => rfl

/-! ## Matrix products into a zero accumulator -/

theorem dot_first {φ₁ φ₂ : FTy} (l : FVec Ideal S768x128 φ₁) (w : FVec Ideal S128x256 φ₂) (r : Fin 768) (c : Fin 256) :
    matmul dot_S768x128_S128x256_S768x256_1_0_0_1_n_n none l w (constant S768x256 .f32 0x00000000#32) (ix2 r c)
      = ∑ k : Fin 128, l (ix2 r k) * w (ix2 k c) := by
  simp only [matmul]
  rw [Ideal.matmul_constant_zero_apply,
    ← Equiv.sum_comp (contrEquiv1 dot_S768x128_S128x256_S768x256_1_0_0_1_n_n 128 rfl rfl).symm]
  refine Finset.sum_congr rfl fun k _ => ?_
  congr 1
  · exact congrArg l (funext fun a => Fin.ext (by match a with | ⟨0, _⟩ => rfl | ⟨1, _⟩ => rfl))
  · exact congrArg w (funext fun a => Fin.ext (by match a with | ⟨0, _⟩ => rfl | ⟨1, _⟩ => rfl))

theorem dot_second {φ₁ φ₂ : FTy} (l : FVec Ideal S24576x128 φ₁) (w : FVec Ideal S128x128 φ₂) (r : Fin 24576) (c : Fin 128) :
    matmul dot_S24576x128_S128x128_S24576x128_1_0_0_1_n_n none l w (constant S24576x128 .f32 0x00000000#32) (ix2 r c)
      = ∑ k : Fin 128, l (ix2 r k) * w (ix2 k c) := by
  simp only [matmul]
  rw [Ideal.matmul_constant_zero_apply,
    ← Equiv.sum_comp (contrEquiv1 dot_S24576x128_S128x128_S24576x128_1_0_0_1_n_n 128 rfl rfl).symm]
  refine Finset.sum_congr rfl fun k _ => ?_
  congr 1
  · exact congrArg l (funext fun a => Fin.ext (by match a with | ⟨0, _⟩ => rfl | ⟨1, _⟩ => rfl))
  · exact congrArg w (funext fun a => Fin.ext (by match a with | ⟨0, _⟩ => rfl | ⟨1, _⟩ => rfl))

theorem dot_head {φ₁ φ₂ : FTy} (l : FVec Ideal S768x128 φ₁) (w : FVec Ideal S128x128 φ₂) (r : Fin 768) (c : Fin 128) :
    matmul dot_S768x128_S128x128_S768x128_1_0_0_1_n_n none l w (constant S768x128 .f32 0x00000000#32) (ix2 r c)
      = ∑ k : Fin 128, l (ix2 r k) * w (ix2 k c) := by
  simp only [matmul]
  rw [Ideal.matmul_constant_zero_apply,
    ← Equiv.sum_comp (contrEquiv1 dot_S768x128_S128x128_S768x128_1_0_0_1_n_n 128 rfl rfl).symm]
  refine Finset.sum_congr rfl fun k _ => ?_
  congr 1
  · exact congrArg l (funext fun a => Fin.ext (by match a with | ⟨0, _⟩ => rfl | ⟨1, _⟩ => rfl))
  · exact congrArg w (funext fun a => Fin.ext (by match a with | ⟨0, _⟩ => rfl | ⟨1, _⟩ => rfl))

end Cert.KernelIdeal.Layout

end
-- ==== Proof.Spec.lean ====
/-
  The graph network both programs compute, written once per graph over the extended reals.

  A graph has 32 nodes with 128 features each (`Feat`) and a 32 × 32 weight table `A` (`Adj`; `A j i` weighs what
  node `i` receives from node `j`).  One round sends, for every ordered pair (i, j), the message

      m i j = relu (relu (recv i + send j) · w2 + b2),   recv i = x i · wa + b1,   send j = x j · wb,

  and adds to node `i` the weighted sum over `j` of `m i j * A j i`.  Five rounds are followed by a two-layer head
  `relu (x · ow1 + ob1) · ow2` on every node.  All sums are finite sums of extended reals; nothing here needs the
  entries to be finite, because only commutativity and associativity of `+` and `*`, and `0 * a = 0`, are ever used
  to compare two arrangements of these sums.
-/
import Idealize.ShloMosaic.PureOps.Ideal

noncomputable section

namespace Gnn

/-- The layers' weights, each matrix laid out as (input feature, output feature). -/
structure Weights where
  wa : Fin 128 → Fin 128 → EReal
  wb : Fin 128 → Fin 128 → EReal
  b1 : Fin 128 → EReal
  w2 : Fin 128 → Fin 128 → EReal
  b2 : Fin 128 → EReal
  ow1 : Fin 128 → Fin 128 → EReal
  ob1 : Fin 128 → EReal
  ow2 : Fin 128 → Fin 128 → EReal

/-- One graph's node features. -/
abbrev Feat := Fin 32 → Fin 128 → EReal
/-- One graph's weight table. -/
abbrev Adj := Fin 32 → Fin 32 → EReal

variable (W : Weights)

/-- The receiving node's half of the first message layer, bias included. -/
def recv (x : Feat) (i : Fin 32) (c : Fin 128) : EReal := (∑ k : Fin 128, x i k * W.wa k c) + W.b1 c

/-- The sending node's half of the first message layer. -/
def send (x : Feat) (j : Fin 32) (c : Fin 128) : EReal := ∑ k : Fin 128, x j k * W.wb k c

/-- The hidden activation of the ordered pair (i, j). -/
def hid (x : Feat) (i j : Fin 32) (k : Fin 128) : EReal := max (recv W x i k + send W x j k) 0

/-- The message of the ordered pair (i, j). -/
def pairMsg (x : Feat) (i j : Fin 32) (d : Fin 128) : EReal :=
  max ((∑ k : Fin 128, hid W x i j k * W.w2 k d) + W.b2 d) 0

/-- One round: every node adds the weighted sum of the messages it receives. -/
def round (A : Adj) (x : Feat) : Feat := fun i d => x i d + ∑ j : Fin 32, pairMsg W x i j d * A j i

/-- The hidden layer of the head. -/
def headHid (x : Feat) (i : Fin 32) (k : Fin 128) : EReal := max ((∑ k' : Fin 128, x i k' * W.ow1 k' k) + W.ob1 k) 0

/-- The two-layer head on every node. -/
def head (x : Feat) : Feat := fun i d => ∑ k : Fin 128, headHid W x i k * W.ow2 k d

/-- Five rounds, then the head. -/
def out (A : Adj) (x : Feat) : Feat :=
  head W (round W A (round W A (round W A (round W A (round W A x)))))

end Gnn

end
-- ==== Proof.KBody.lean ====
/-
  The kernel's body, one round at a time, read at an index.

  A block of the kernel carries 24 graphs.  The definitions below are the body's operations, grouped by what they
  compute: the fused first message layer and its two halves (the receiver's half with the bias, the sender's half), the
  hidden activation of every ordered pair, the second message layer, and the weighted sum over senders.  Read at node i
  of graph g, one round is the specification's round on graph g alone, because every matrix product is row by row and
  every regrouping of rows stays inside a graph.
-/
import proofs.«173531_g2000002686688254_pallaspilot1_98_21_alg».proof.Proof.KLayout
import proofs.«173531_g2000002686688254_pallaspilot1_98_21_alg».proof.Proof.Spec

noncomputable section

namespace Cert.KernelIdeal.Body

open Idealize.ShloMosaic Idealize.ShloMosaic.ValueIdx Cert.KernelIdeal Cert.KernelIdeal.Layout
open Cert.KernelIdeal.Facts₀ Cert.KernelIdeal.Facts

/-! ## The operations of one round -/

/-- The fused first layer: node features times the [128, 256] weight. -/
def fused (x : FVec Ideal S768x128 .f32) (w1 : FVec Ideal S128x256 .bf16) : FVec Ideal S768x256 .f32 :=
  matmul dot_S768x128_S128x256_S768x256_1_0_0_1_n_n none (truncf .bf16 x bitsLt_bf16_f32) w1 (constant S768x256 .f32 0x00000000#32)

/-- The receiver's half, bias added. -/
def recvHalf (x : FVec Ideal S768x128 .f32) (w1 : FVec Ideal S128x256 .bf16) (b1f : FVec Ideal S768x128 .f32) : FVec Ideal S768x128 .bf16 :=
  truncf .bf16 (addf (extractStridedSlice S768x128 ![0, 0] (fused x w1) slices_S768x256_o0_0_S768x128) b1f) bitsLt_bf16_f32

/-- The sender's half. -/
def sendHalf (x : FVec Ideal S768x128 .f32) (w1 : FVec Ideal S128x256 .bf16) : FVec Ideal S768x128 .bf16 :=
  truncf .bf16 (extractStridedSlice S768x128 ![0, 128] (fused x w1) slices_S768x256_o0_128_S768x128) bitsLt_bf16_f32

/-- The hidden activation of every ordered pair, pair rows ordered (graph, sender, receiver). -/
def hidden (p q : FVec Ideal S768x128 .bf16) : FVec Ideal S24576x128 .bf16 :=
  shapeCast S24576x128
    (maximumf
      (addf (broadcastTo S768x32x128 (shapeCast S768x1x128 q shapeCasts_S768x128_S768x1x128) broadcasts_S768x1x128_S768x32x128)
        (shapeCast S768x32x128
          (broadcastTo S24x32x32x128
            (shapeCast S24x1x32x128 (shapeCast S24x1x32x128 p shapeCasts_S768x128_S24x1x32x128) shapeCasts_S24x1x32x128_S24x1x32x128)
            broadcasts_S24x1x32x128_S24x32x32x128)
          shapeCasts_S24x32x32x128_S768x32x128))
      (broadcast S768x32x128 (Scalar.ofBits .bf16 0x0000#16)))
    shapeCasts_S768x32x128_S24576x128

/-- The second message layer on every pair row. -/
def pairLayer (h : FVec Ideal S24576x128 .bf16) (w2 : FVec Ideal S128x128 .bf16) (b2f : FVec Ideal S24576x128 .f32) : FVec Ideal S24576x128 .f32 :=
  maximumf
    (addf (matmul dot_S24576x128_S128x128_S24576x128_1_0_0_1_n_n none h w2 (constant S24576x128 .f32 0x00000000#32)) b2f)
    (broadcast S24576x128 (Scalar.ofBits .f32 0x00000000#32))

/-- The weighted sum over senders. -/
def gather (m : FVec Ideal S24576x128 .f32) (ae : FVec Ideal S768x32x128 .f32) : FVec Ideal S768x128 .f32 :=
  shapeCast S768x128
    (multiReduction .add [1] S24x32x128
      (shapeCast S24x32x32x128 (mulf m (shapeCast S24576x128 ae shapeCasts_S768x32x128_S24576x128)) shapeCasts_S24576x128_S24x32x32x128)
      0x00000000#32 reduces_S24x32x32x128_S24x32x128 (.inl rfl) rfl)
    shapeCasts_S24x32x128_S768x128

/-- One round of the body. -/
def round (x : FVec Ideal S768x128 .f32) (w1 : FVec Ideal S128x256 .bf16) (w2 : FVec Ideal S128x128 .bf16)
    (b1f : FVec Ideal S768x128 .f32) (b2f : FVec Ideal S24576x128 .f32) (ae : FVec Ideal S768x32x128 .f32) : FVec Ideal S768x128 .f32 :=
  addf x (gather (pairLayer (hidden (recvHalf x w1 b1f) (sendHalf x w1)) w2 b2f) ae)

/-- The head of the body. -/
def head (x : FVec Ideal S768x128 .f32) (ow1 ow2 : FVec Ideal S128x128 .bf16) (ob1f : FVec Ideal S768x128 .f32) : FVec Ideal S768x128 .f32 :=
  matmul dot_S768x128_S128x128_S768x128_1_0_0_1_n_n none
    (truncf .bf16
      (maximumf
        (addf (matmul dot_S768x128_S128x128_S768x128_1_0_0_1_n_n none (truncf .bf16 x bitsLt_bf16_f32) ow1 (constant S768x128 .f32 0x00000000#32)) ob1f)
        (broadcast S768x128 (Scalar.ofBits .f32 0x00000000#32)))
      bitsLt_bf16_f32)
    ow2 (constant S768x128 .f32 0x00000000#32)

/-! ## Each operation at an index -/

theorem zero_bf16 : (Scalar.ofBits (F := Ideal) .bf16 0x0000#16 : EReal) = 0 := by
  show Ideal.ofBits .bf16 0x0000#16 = 0
  simp [Ideal.ofBits, Ideal.ieee]

theorem zero_f32 : (Scalar.ofBits (F := Ideal) .f32 0x00000000#32 : EReal) = 0 := Ideal.ofBits_zero_f32

theorem fused_apply (x : FVec Ideal S768x128 .f32) (w1 : FVec Ideal S128x256 .bf16) (r : Fin 768) (c : Fin 256) :
    fused x w1 (ix2 r c) = ∑ k : Fin 128, x (ix2 r k) * w1 (ix2 k c) := by
  unfold fused
  rw [dot_first]
  rfl

theorem recvHalf_apply (x : FVec Ideal S768x128 .f32) (w1 : FVec Ideal S128x256 .bf16) (b1f : FVec Ideal S768x128 .f32)
    (r : Fin 768) (c : Fin 128) :
    recvHalf x w1 b1f (ix2 r c) = (∑ k : Fin 128, x (ix2 r k) * w1 (ix2 k ⟨c.val, by omega⟩)) + b1f (ix2 r c) := by
  unfold recvHalf
  rw [truncf_apply, addf_apply, slice_low, fused_apply]

theorem sendHalf_apply (x : FVec Ideal S768x128 .f32) (w1 : FVec Ideal S128x256 .bf16) (r : Fin 768) (c : Fin 128) :
    sendHalf x w1 (ix2 r c) = ∑ k : Fin 128, x (ix2 r k) * w1 (ix2 k ⟨128 + c.val, by omega⟩) := by
  unfold sendHalf
  rw [truncf_apply, slice_high, fused_apply]

theorem hidden_apply (p q : FVec Ideal S768x128 .bf16) (g : Fin 24) (j i : Fin 32) (k : Fin 128) :
    hidden p q (ix2 (pairRow (nodeRow g j) i) k) = max (q (ix2 (nodeRow g j) k) + p (ix2 (nodeRow g i) k)) 0 := by
  unfold hidden
  rw [cast_rowPairs_flat, maximumf_apply, addf_apply, broadcast_apply, zero_bf16, bcast_over_receivers, cast_rows_unit,
    cast_graphPairs_to_rows, bcast_over_senders, shapeCast_self, cast_nodes_to_graphs]

theorem pairLayer_apply (h : FVec Ideal S24576x128 .bf16) (w2 : FVec Ideal S128x128 .bf16) (b2f : FVec Ideal S24576x128 .f32)
    (r : Fin 24576) (d : Fin 128) :
    pairLayer h w2 b2f (ix2 r d) = max ((∑ k : Fin 128, h (ix2 r k) * w2 (ix2 k d)) + b2f (ix2 r d)) 0 := by
  unfold pairLayer
  rw [maximumf_apply, addf_apply, broadcast_apply, zero_f32, dot_second]

theorem gather_apply (m : FVec Ideal S24576x128 .f32) (ae : FVec Ideal S768x32x128 .f32) (g : Fin 24) (i : Fin 32) (d : Fin 128) :
    gather m ae (ix2 (nodeRow g i) d)
      = ∑ j : Fin 32, m (ix2 (pairRow (nodeRow g j) i) d) * ae (ix3 (nodeRow g j) i d) := by
  unfold gather
  rw [cast_graphs_to_nodes, sum_senders]
  refine Finset.sum_congr rfl fun j _ => ?_
  rw [cast_flat_graphPairs, mulf_apply, cast_rowPairs_flat]

/-! ## One round is the specification's round on each graph -/

/-- Graph g's node features inside a block. -/
def graphFeat (x : FVec Ideal S768x128 .f32) (g : Fin 24) : Gnn.Feat := fun i k => x (ix2 (nodeRow g i) k)

theorem round_apply (W : Gnn.Weights) (A : Fin 24 → Gnn.Adj)
    (x : FVec Ideal S768x128 .f32) (w1 : FVec Ideal S128x256 .bf16) (w2 : FVec Ideal S128x128 .bf16)
    (b1f : FVec Ideal S768x128 .f32) (b2f : FVec Ideal S24576x128 .f32) (ae : FVec Ideal S768x32x128 .f32)
    (hwa : ∀ k c : Fin 128, w1 (ix2 k ⟨c.val, by omega⟩) = W.wa k c)
    (hwb : ∀ k c : Fin 128, w1 (ix2 k ⟨128 + c.val, by omega⟩) = W.wb k c)
    (hw2 : ∀ k d : Fin 128, w2 (ix2 k d) = W.w2 k d)
    (hb1 : ∀ (r : Fin 768) (c : Fin 128), b1f (ix2 r c) = W.b1 c)
    (hb2 : ∀ (r : Fin 24576) (d : Fin 128), b2f (ix2 r d) = W.b2 d)
    (hae : ∀ (g : Fin 24) (j i : Fin 32) (d : Fin 128), ae (ix3 (nodeRow g j) i d) = A g j i)
    (g : Fin 24) :
    graphFeat (round x w1 w2 b1f b2f ae) g = Gnn.round W (A g) (graphFeat x g) := by
  funext i d
  unfold graphFeat round Gnn.round
  rw [addf_apply, gather_apply]
  refine congrArg (x (ix2 (nodeRow g i) d) + ·) (Finset.sum_congr rfl fun j _ => ?_)
  rw [hae, pairLayer_apply, hb2]
  unfold Gnn.pairMsg
  refine congrArg (fun s => max (s + W.b2 d) 0 * A g j i) (Finset.sum_congr rfl fun k _ => ?_)
  rw [hidden_apply, hw2, sendHalf_apply, recvHalf_apply, hb1]
  unfold Gnn.hid Gnn.recv Gnn.send
  rw [add_comm]
  simp only [hwa, hwb]

theorem head_apply (W : Gnn.Weights) (x : FVec Ideal S768x128 .f32) (ow1 ow2 : FVec Ideal S128x128 .bf16) (ob1f : FVec Ideal S768x128 .f32)
    (how1 : ∀ k c : Fin 128, ow1 (ix2 k c) = W.ow1 k c) (how2 : ∀ k d : Fin 128, ow2 (ix2 k d) = W.ow2 k d)
    (hob1 : ∀ (r : Fin 768) (c : Fin 128), ob1f (ix2 r c) = W.ob1 c) (g : Fin 24) :
    graphFeat (head x ow1 ow2 ob1f) g = Gnn.head W (graphFeat x g) := by
  funext i d
  unfold graphFeat head Gnn.head
  rw [dot_head]
  refine Finset.sum_congr rfl fun k _ => ?_
  rw [truncf_apply, maximumf_apply, addf_apply, broadcast_apply, zero_f32, dot_head, hob1, how2]
  unfold Gnn.headHid
  simp only [truncf_apply, how1]

end Cert.KernelIdeal.Body

end
-- ==== Proof.KOut.lean ====
/-
  What the kernel's body leaves in its output block, read at a node of a graph.

  The block's stored value is the head applied to five rounds of the loaded node features, with the biases and the
  weight table broadcast once before the rounds.  Read at node i of graph g of the block it is the specification's
  five rounds and head on that graph alone.
-/
import proofs.«173531_g2000002686688254_pallaspilot1_98_21_alg».proof.Proof.KBody
import proofs.«173531_g2000002686688254_pallaspilot1_98_21_alg».proof.Proof.Gen.KernelIdeal.Frame

noncomputable section

namespace Cert.KernelIdeal.Body

open Idealize.ShloMosaic Idealize.ShloMosaic.ValueIdx Cert.KernelIdeal Cert.KernelIdeal.Layout Cert.KernelIdeal.Gen
open Cert.KernelIdeal.Facts₀ Cert.KernelIdeal.Facts

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block is the head of five rounds of the loaded blocks. -/
theorem out_eq (x0 : Vec Ideal S768x128 .f32) (x1 : Vec Ideal S24x32x32 .f32) (x2 : Vec Ideal S128x256 .bf16) (x3 : Vec Ideal S1x128 .f32)
    (x4 : Vec Ideal S128x128 .bf16) (x5 : Vec Ideal S1x128 .f32) (x6 : Vec Ideal S128x128 .bf16) (x7 : Vec Ideal S1x128 .f32)
    (x8 : Vec Ideal S128x128 .bf16) :
    Gen.out0_9 (F := Ideal) x0 x1 x2 x3 x4 x5 x6 x7 x8
      = head
          (round (round (round (round (round (k0_pay2 x0)
            (k0_pay3 x2) (k0_pay4 x4) (k0_pay7 x3) (k0_pay8 x5) (k0_pay10 x1))
            (k0_pay3 x2) (k0_pay4 x4) (k0_pay7 x3) (k0_pay8 x5) (k0_pay10 x1))
            (k0_pay3 x2) (k0_pay4 x4) (k0_pay7 x3) (k0_pay8 x5) (k0_pay10 x1))
            (k0_pay3 x2) (k0_pay4 x4) (k0_pay7 x3) (k0_pay8 x5) (k0_pay10 x1))
            (k0_pay3 x2) (k0_pay4 x4) (k0_pay7 x3) (k0_pay8 x5) (k0_pay10 x1))
          (k0_pay5 x6) (k0_pay6 x8) (k0_pay9 x7) := by
  unfold Gen.out0_9
  rw [View.canon_unit_zero hz2]
  simp only [View.ld_unit_zero (S := S768x128) hz2, View.ld_unit_zero (S := S128x256) hz2, View.ld_unit_zero (S := S128x128) hz2,
    View.ld_unit_zero (S := S1x128) hz2, View.ld_unit_zero (S := S24x32x32) hz3]
  rfl

/-! ## The loaded blocks as the rounds see them -/

theorem feat_block (x0 : Vec Ideal S768x128 .f32) : k0_pay2 (F := Ideal) x0 = x0 := shapeCast_self x0 _
theorem w1_block (x2 : Vec Ideal S128x256 .bf16) : k0_pay3 (F := Ideal) x2 = x2 := shapeCast_self x2 _
theorem w2_block (x4 : Vec Ideal S128x128 .bf16) : k0_pay4 (F := Ideal) x4 = x4 := shapeCast_self x4 _
theorem ow1_block (x6 : Vec Ideal S128x128 .bf16) : k0_pay5 (F := Ideal) x6 = x6 := shapeCast_self x6 _
theorem ow2_block (x8 : Vec Ideal S128x128 .bf16) : k0_pay6 (F := Ideal) x8 = x8 := shapeCast_self x8 _

theorem b1_block (x3 : Vec Ideal S1x128 .f32) (r : Fin 768) (c : Fin 128) : k0_pay7 (F := Ideal) x3 (ix2 r c) = x3 (ix2 (0 : Fin 1) c) := by
  unfold k0_pay7
  rw [bcast_bias_nodes, shapeCast_self, shapeCast_self]

theorem b2_block (x5 : Vec Ideal S1x128 .f32) (r : Fin 24576) (d : Fin 128) : k0_pay8 (F := Ideal) x5 (ix2 r d) = x5 (ix2 (0 : Fin 1) d) := by
  unfold k0_pay8
  rw [bcast_bias_pairs, shapeCast_self, shapeCast_self]

theorem ob1_block (x7 : Vec Ideal S1x128 .f32) (r : Fin 768) (c : Fin 128) : k0_pay9 (F := Ideal) x7 (ix2 r c) = x7 (ix2 (0 : Fin 1) c) := by
  unfold k0_pay9
  rw [bcast_bias_nodes, shapeCast_self, shapeCast_self]

theorem adj_block (x1 : Vec Ideal S24x32x32 .f32) (g : Fin 24) (j i : Fin 32) (d : Fin 128) :
    k0_pay10 (F := Ideal) x1 (ix3 (nodeRow g j) i d) = x1 (ix3 g j i) := by
  unfold k0_pay10
  rw [bcast_over_lanes, shapeCast_self, cast_adj_rows]

/-- The stored block at node i of graph g of the block: the specification on that graph. -/
theorem out_apply (W : Gnn.Weights) (A : Fin 24 → Gnn.Adj)
    (x0 : Vec Ideal S768x128 .f32) (x1 : Vec Ideal S24x32x32 .f32) (x2 : Vec Ideal S128x256 .bf16) (x3 : Vec Ideal S1x128 .f32)
    (x4 : Vec Ideal S128x128 .bf16) (x5 : Vec Ideal S1x128 .f32) (x6 : Vec Ideal S128x128 .bf16) (x7 : Vec Ideal S1x128 .f32)
    (x8 : Vec Ideal S128x128 .bf16)
    (h1 : ∀ (g : Fin 24) (j i : Fin 32), x1 (ix3 g j i) = A g j i)
    (h2a : ∀ k c : Fin 128, x2 (ix2 k ⟨c.val, by omega⟩) = W.wa k c)
    (h2b : ∀ k c : Fin 128, x2 (ix2 k ⟨128 + c.val, by omega⟩) = W.wb k c)
    (h3 : ∀ c : Fin 128, x3 (ix2 (0 : Fin 1) c) = W.b1 c) (h4 : ∀ k d : Fin 128, x4 (ix2 k d) = W.w2 k d)
    (h5 : ∀ d : Fin 128, x5 (ix2 (0 : Fin 1) d) = W.b2 d) (h6 : ∀ k c : Fin 128, x6 (ix2 k c) = W.ow1 k c)
    (h7 : ∀ c : Fin 128, x7 (ix2 (0 : Fin 1) c) = W.ob1 c) (h8 : ∀ k d : Fin 128, x8 (ix2 k d) = W.ow2 k d)
    (g : Fin 24) (i : Fin 32) (d : Fin 128) :
    Gen.out0_9 (F := Ideal) x0 x1 x2 x3 x4 x5 x6 x7 x8 (ix2 (nodeRow g i) d)
      = Gnn.out W (A g) (fun i k => x0 (ix2 (nodeRow g i) k)) i d := by
  have hr : ∀ x : FVec Ideal S768x128 .f32,
      graphFeat (round x (k0_pay3 x2) (k0_pay4 x4) (k0_pay7 x3) (k0_pay8 x5) (k0_pay10 x1)) g = Gnn.round W (A g) (graphFeat x g) :=
    fun x => round_apply W A x _ _ _ _ _ (by rw [w1_block]; exact h2a) (by rw [w1_block]; exact h2b) (by rw [w2_block]; exact h4)
      (fun r c => (b1_block x3 r c).trans (h3 c)) (fun r d => (b2_block x5 r d).trans (h5 d))
      (fun g j i d => (adj_block x1 g j i d).trans (h1 g j i)) g
  have hh : ∀ x : FVec Ideal S768x128 .f32,
      graphFeat (head x (k0_pay5 x6) (k0_pay6 x8) (k0_pay9 x7)) g = Gnn.head W (graphFeat x g) :=
    fun x => head_apply W x _ _ _ (by rw [ow1_block]; exact h6) (by rw [ow2_block]; exact h8)
      (fun r c => (ob1_block x7 r c).trans (h7 c)) g
  rw [out_eq]
  refine (congrFun (congrFun (hh _) i) d).trans ?_
  rw [hr, hr, hr, hr, hr, feat_block]
  rfl

end Cert.KernelIdeal.Body

end
-- ==== Proof.SpecArgs.lean ====
/-
  The network's weights as functions of the programs' argument arrays.

  The first message layer's weight arrives as one [128, 256] array whose entry (c, k) multiplies input feature k of the
  receiver (k < 128) or of the sender (k ≥ 128) into output feature c; the other layers' weights arrive as
  [output, input] arrays and the biases as vectors.  The last layer's weight is handed over already padded to 128
  output columns.
-/
import proofs.«173531_g2000002686688254_pallaspilot1_98_21_alg».proof.Proof.Spec
import Idealize.ShloMosaic.Lib.ValueIdx

noncomputable section

namespace Gnn

open Idealize.ShloMosaic Idealize.ShloMosaic.ValueIdx

/-- The layers' weights read off the argument arrays (`pad`: the padded last layer). -/
def ofArgs (a3 : (⟨2, ![128, 256]⟩ : Shape).Idx → EReal) (a4 : (⟨1, ![128]⟩ : Shape).Idx → EReal)
    (a5 : (⟨2, ![128, 128]⟩ : Shape).Idx → EReal) (a6 : (⟨1, ![128]⟩ : Shape).Idx → EReal)
    (a7 : (⟨2, ![128, 128]⟩ : Shape).Idx → EReal) (a8 : (⟨1, ![128]⟩ : Shape).Idx → EReal)
    (pad : (⟨2, ![128, 128]⟩ : Shape).Idx → EReal) : Weights where
  wa k c := a3 (ix2 c ⟨k.val, by omega⟩)
  wb k c := a3 (ix2 c ⟨128 + k.val, by omega⟩)
  b1 c := a4 (ix1 c)
  w2 k d := a5 (ix2 d k)
  b2 d := a6 (ix1 d)
  ow1 k c := a7 (ix2 c k)
  ob1 c := a8 (ix1 c)
  ow2 k d := pad (ix2 k d)

/-- Graph g's weight table out of the [6144, 32, 32] array: entry (j, i) weighs what node i receives from node j. -/
def adjOf (a1 : (⟨3, ![6144, 32, 32]⟩ : Shape).Idx → EReal) (g : Fin 6144) : Adj := fun j i => a1 (ix3 g j i)

/-- Graph g's node features out of the [196608, 128] array of all nodes. -/
def featOf (x0 : (⟨2, ![196608, 128]⟩ : Shape).Idx → EReal) (g : Fin 6144) : Feat :=
  fun i k => x0 (ix2 ⟨32 * g.val + i.val, by omega⟩ k)

/-- The graph a row of the [196608, 128] array belongs to. -/
def graphOf (y : (⟨2, ![196608, 128]⟩ : Shape).Idx) : Fin 6144 :=
  ⟨(y 0).val / 32, by have h : (y 0).val < 196608 := (y 0).isLt; omega⟩

/-- The whole [196608, 128] result: row 32·g + i is node i of graph g after five rounds and the head. -/
def whole (W : Weights) (a1 : (⟨3, ![6144, 32, 32]⟩ : Shape).Idx → EReal) (x0 : (⟨2, ![196608, 128]⟩ : Shape).Idx → EReal) :
    (⟨2, ![196608, 128]⟩ : Shape).Idx → EReal :=
  fun y => out W (adjOf a1 (graphOf y)) (featOf x0 (graphOf y)) ⟨(y 0).val % 32, Nat.mod_lt _ (by decide)⟩ (y 1)

/-! ## What both programs return from the [196608, 128] result -/

/-- The first ten output columns, regrouped by graph: the [6144, 32, 10] result. -/
def perNode (Y : (⟨2, ![196608, 128]⟩ : Shape).Idx → EReal)
    (hs : (⟨2, ![196608, 128]⟩ : Shape).Slices ![0, 0] ⟨2, ![196608, 10]⟩)
    (hc : (⟨2, ![196608, 10]⟩ : Shape).ShapeCasts ⟨3, ![6144, 32, 10]⟩) : (⟨3, ![6144, 32, 10]⟩ : Shape).Idx → EReal :=
  shapeCast ⟨3, ![6144, 32, 10]⟩ (extractStridedSlice ⟨2, ![196608, 10]⟩ ![0, 0] Y hs) hc

/-- Node 0 of every graph: the [6144, 10] result. -/
def perGraph (Z : (⟨3, ![6144, 32, 10]⟩ : Shape).Idx → EReal)
    (hs : (⟨3, ![6144, 32, 10]⟩ : Shape).Slices ![0, 0, 0] ⟨3, ![6144, 1, 10]⟩)
    (hc : (⟨3, ![6144, 1, 10]⟩ : Shape).ShapeCasts ⟨2, ![6144, 10]⟩) : (⟨2, ![6144, 10]⟩ : Shape).Idx → EReal :=
  shapeCast ⟨2, ![6144, 10]⟩ (extractStridedSlice ⟨3, ![6144, 1, 10]⟩ ![0, 0, 0] Z hs) hc

end Gnn

end
-- ==== Proof.KWhole.lean ====
/-
  From the kernel's blocks to its whole result.

  Grid point t of the kernel works on graphs 24·t … 24·t + 23: its node-feature block is rows 768·t … of the
  [196608, 128] array, its weight-table block is graphs 24·t … of the [6144, 32, 32] array, and the weights are read whole.
  What it writes back is rows 768·t … of the result, so the blocks tile the result and the result is, row by row, the
  specification on the row's graph.
-/
import proofs.«173531_g2000002686688254_pallaspilot1_98_21_alg».proof.Proof.KOut
import proofs.«173531_g2000002686688254_pallaspilot1_98_21_alg».proof.Proof.SpecArgs
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Layout
open Cert.KernelIdeal.Facts₀ Cert.KernelIdeal.Facts

variable (m : (ℓ : Loc nD τ sig) → Buf (Elt Ideal) ℓ) (ρ : Dev nD → PrngReg)

/-- The block index of every window at every grid point. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Where a block's entries sit in its array -/

theorem emb_feat (t : Fin cfg0.N) (r : Fin 768) (k : Fin 128) :
    ((cfg0.win 0).blk t).view.emb (ix2 r k) = ix2 (⟨768 * t.val + r.val, by have : t.val < 256 := t.isLt; omega⟩ : Fin 196608) k := by
  funext a; apply Fin.ext
  obtain ⟨e0, e1, -⟩ := idx_facts t
  match a with
  | ⟨0, _⟩ => show win0_0.index t (0 : Fin 2) * 768 + 1 * r.val = 768 * t.val + r.val; omega
  | ⟨1, _⟩ => show win0_0.index t (1 : Fin 2) * 128 + 1 * k.val = k.val; omega

theorem emb_out (t : Fin cfg0.N) (r : Fin 768) (k : Fin 128) :
    ((cfg0.win 9).blk t).view.emb (ix2 r k) = ix2 (⟨768 * t.val + r.val, by have : t.val < 256 := t.isLt; omega⟩ : Fin 196608) k := by
  funext a; apply Fin.ext
  obtain ⟨-, -, -, -, -, -, -, -, -, -, -, -, -, -, -, -, -, -, -, e0, e1⟩ := idx_facts t
  match a with
  | ⟨0, _⟩ => show win0_9.index t (0 : Fin 2) * 768 + 1 * r.val = 768 * t.val + r.val; omega
  | ⟨1, _⟩ => show win0_9.index t (1 : Fin 2) * 128 + 1 * k.val = k.val; omega

theorem emb_adj (t : Fin cfg0.N) (g : Fin 24) (j i : Fin 32) :
    ((cfg0.win 1).blk t).view.emb (ix3 g j i) = ix3 (⟨24 * t.val + g.val, by have : t.val < 256 := t.isLt; omega⟩ : Fin 6144) j i := by
  funext a; apply Fin.ext
  obtain ⟨-, -, e0, e1, e2, -⟩ := idx_facts t
  match a with
  | ⟨0, _⟩ => show win0_1.index t (0 : Fin 3) * 24 + 1 * g.val = 24 * t.val + g.val; omega
  | ⟨1, _⟩ => show win0_1.index t (1 : Fin 3) * 32 + 1 * j.val = j.val; omega
  | ⟨2, _⟩ => show win0_1.index t (2 : Fin 3) * 32 + 1 * i.val = i.val; omega

theorem emb_w1 (t : Fin cfg0.N) (k : Fin 128) (c : Fin 256) : ((cfg0.win 2).blk t).view.emb (ix2 k c) = ix2 k c := by
  funext a; apply Fin.ext
  obtain ⟨-, -, -, -, -, e0, e1, -⟩ := idx_facts t
  match a with
  | ⟨0, _⟩ => show win0_2.index t (0 : Fin 2) * 128 + 1 * k.val = k.val; omega
  | ⟨1, _⟩ => show win0_2.index t (1 : Fin 2) * 256 + 1 * c.val = c.val; omega

theorem emb_b1 (t : Fin cfg0.N) (u : Fin 1) (c : Fin 128) : ((cfg0.win 3).blk t).view.emb (ix2 u c) = ix2 u c := by
  funext a; apply Fin.ext
  obtain ⟨-, -, -, -, -, -, -, e0, e1, -⟩ := idx_facts t
  match a with
  | ⟨0, _⟩ => show win0_3.index t (0 : Fin 2) * 1 + 1 * u.val = u.val; omega
  | ⟨1, _⟩ => show win0_3.index t (1 : Fin 2) * 128 + 1 * c.val = c.val; omega

theorem emb_w2 (t : Fin cfg0.N) (k c : Fin 128) : ((cfg0.win 4).blk t).view.emb (ix2 k c) = ix2 k c := by
  funext a; apply Fin.ext
  obtain ⟨-, -, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * c.val = c.val; omega

theorem emb_b2 (t : Fin cfg0.N) (u : Fin 1) (c : Fin 128) : ((cfg0.win 5).blk t).view.emb (ix2 u c) = ix2 u c := by
  funext a; apply Fin.ext
  obtain ⟨-, -, -, -, -, -, -, -, -, -, -, e0, e1, -⟩ := idx_facts t
  match a with
  | ⟨0, _⟩ => show win0_5.index t (0 : Fin 2) * 1 + 1 * u.val = u.val; omega
  | ⟨1, _⟩ => show win0_5.index t (1 : Fin 2) * 128 + 1 * c.val = c.val; omega

theorem emb_ow1 (t : Fin cfg0.N) (k c : Fin 128) : ((cfg0.win 6).blk t).view.emb (ix2 k c) = ix2 k c := by
  funext a; apply Fin.ext
  obtain ⟨-, -, -, -, -, -, -, -, -, -, -, -, -, e0, e1, -⟩ := idx_facts t
  match a with
  | ⟨0, _⟩ => show win0_6.index t (0 : Fin 2) * 128 + 1 * k.val = k.val; omega
  | ⟨1, _⟩ => show win0_6.index t (1 : Fin 2) * 128 + 1 * c.val = c.val; omega

theorem emb_ob1 (t : Fin cfg0.N) (u : Fin 1) (c : Fin 128) : ((cfg0.win 7).blk t).view.emb (ix2 u c) = ix2 u c := by
  funext a; apply Fin.ext
  obtain ⟨-, -, -, -, -, -, -, -, -, -, -, -, -, -, -, e0, e1, -⟩ := idx_facts t
  match a with
  | ⟨0, _⟩ => show win0_7.index t (0 : Fin 2) * 1 + 1 * u.val = u.val; omega
  | ⟨1, _⟩ => show win0_7.index t (1 : Fin 2) * 128 + 1 * c.val = c.val; omega

theorem emb_ow2 (t : Fin cfg0.N) (k c : Fin 128) : ((cfg0.win 8).blk t).view.emb (ix2 k c) = ix2 k c := by
  funext a; apply Fin.ext
  obtain ⟨-, -, -, -, -, -, -, -, -, -, -, -, -, -, -, -, -, e0, e1, -⟩ := idx_facts t
  match a with
  | ⟨0, _⟩ => show win0_8.index t (0 : Fin 2) * 128 + 1 * k.val = k.val; omega
  | ⟨1, _⟩ => show win0_8.index t (1 : Fin 2) * 128 + 1 * c.val = c.val; omega

/-! ## What a grid point writes back -/

/-- The weight windows, as the region finds them, hold the weights `W`. -/
structure WindowsAre (c : Dev nD) (W : Gnn.Weights) : Prop where
  wa : ∀ k c' : Fin 128, (V m c main_v5 : S128x256.Idx → EReal) (ix2 k ⟨c'.val, by omega⟩) = W.wa k c'
  wb : ∀ k c' : Fin 128, (V m c main_v5 : S128x256.Idx → EReal) (ix2 k ⟨128 + c'.val, by omega⟩) = W.wb k c'
  b1 : ∀ c' : Fin 128, (V m c main_v15 : S1x128.Idx → EReal) (ix2 (0 : Fin 1) c') = W.b1 c'
  w2 : ∀ k d : Fin 128, (V m c main_v7 : S128x128.Idx → EReal) (ix2 k d) = W.w2 k d
  b2 : ∀ d : Fin 128, (V m c main_v16 : S1x128.Idx → EReal) (ix2 (0 : Fin 1) d) = W.b2 d
  ow1 : ∀ k c' : Fin 128, (V m c main_v9 : S128x128.Idx → EReal) (ix2 k c') = W.ow1 k c'
  ob1 : ∀ c' : Fin 128, (V m c main_v17 : S1x128.Idx → EReal) (ix2 (0 : Fin 1) c') = W.ob1 c'
  ow2 : ∀ k d : Fin 128, (V m c main_v14 : S128x128.Idx → EReal) (ix2 k d) = W.ow2 k d

/-! Each input block at point `t`, entry by entry. -/

theorem blk_adj (c : Dev nD) (t : Fin cfg0.N) (gl : Fin 24) (j i' : Fin 32) :
    iblk m c 1 t (ix3 gl j i')
      = Gnn.adjOf (m ((c : Thread nD τ).loc main_arg1)) ⟨24 * t.val + gl.val, by have : t.val < 256 := t.isLt; omega⟩ j i' := by
  show V m c main_arg1 (((cfg0.win 1).blk t).view.emb (ix3 gl j i')) = _
  rw [emb_adj, V_main_arg1]; rfl

theorem blk_feat (c : Dev nD) (t : Fin cfg0.N) (g : Fin 24) :
    (fun (i' : Fin 32) (k : Fin 128) => iblk m c 0 t (ix2 (nodeRow g i') k))
      = Gnn.featOf (V m c main_v19) ⟨24 * t.val + g.val, by have : t.val < 256 := t.isLt; omega⟩ := by
  funext i' k
  show V m c main_v19 (((cfg0.win 0).blk t).view.emb (ix2 (nodeRow g i') k)) = _
  rw [emb_feat]
  unfold Gnn.featOf
  exact congrArg (fun q : Fin 196608 => (V m c main_v19 : S196608x128.Idx → EReal) (ix2 q k))
    (Fin.ext (by show 768 * t.val + (32 * g.val + i'.val) = 32 * (24 * t.val + g.val) + i'.val; omega))

theorem blk_w1 (c : Dev nD) (t : Fin cfg0.N) (k : Fin 128) (c' : Fin 256) :
    iblk m c 2 t (ix2 k c') = (V m c main_v5 : S128x256.Idx → EReal) (ix2 k c') := by
  show V m c main_v5 (((cfg0.win 2).blk t).view.emb (ix2 k c')) = _
  rw [emb_w1]

theorem blk_b1 (c : Dev nD) (t : Fin cfg0.N) (c' : Fin 128) :
    iblk m c 3 t (ix2 (0 : Fin 1) c') = (V m c main_v15 : S1x128.Idx → EReal) (ix2 (0 : Fin 1) c') := by
  show V m c main_v15 (((cfg0.win 3).blk t).view.emb (ix2 (0 : Fin 1) c')) = _
  rw [emb_b1]

theorem blk_w2 (c : Dev nD) (t : Fin cfg0.N) (k d' : Fin 128) :
    iblk m c 4 t (ix2 k d') = (V m c main_v7 : S128x128.Idx → EReal) (ix2 k d') := by
  show V m c main_v7 (((cfg0.win 4).blk t).view.emb (ix2 k d')) = _
  rw [emb_w2]

theorem blk_b2 (c : Dev nD) (t : Fin cfg0.N) (d' : Fin 128) :
    iblk m c 5 t (ix2 (0 : Fin 1) d') = (V m c main_v16 : S1x128.Idx → EReal) (ix2 (0 : Fin 1) d') := by
  show V m c main_v16 (((cfg0.win 5).blk t).view.emb (ix2 (0 : Fin 1) d')) = _
  rw [emb_b2]

theorem blk_ow1 (c : Dev nD) (t : Fin cfg0.N) (k c' : Fin 128) :
    iblk m c 6 t (ix2 k c') = (V m c main_v9 : S128x128.Idx → EReal) (ix2 k c') := by
  show V m c main_v9 (((cfg0.win 6).blk t).view.emb (ix2 k c')) = _
  rw [emb_ow1]

theorem blk_ob1 (c : Dev nD) (t : Fin cfg0.N) (c' : Fin 128) :
    iblk m c 7 t (ix2 (0 : Fin 1) c') = (V m c main_v17 : S1x128.Idx → EReal) (ix2 (0 : Fin 1) c') := by
  show V m c main_v17 (((cfg0.win 7).blk t).view.emb (ix2 (0 : Fin 1) c')) = _
  rw [emb_ob1]

theorem blk_ow2 (c : Dev nD) (t : Fin cfg0.N) (k d' : Fin 128) :
    iblk m c 8 t (ix2 k d') = (V m c main_v14 : S128x128.Idx → EReal) (ix2 k d') := by
  show V m c main_v14 (((cfg0.win 8).blk t).view.emb (ix2 k d')) = _
  rw [emb_ow2]

/-- The specification's whole result read at row 768·t + 32·g + i: graph 24·t + g, node i. -/
theorem whole_at (W : Gnn.Weights) (a1 : S6144x32x32.Idx → EReal) (x0 : S196608x128.Idx → EReal)
    (t : Fin 256) (g : Fin 24) (i : Fin 32) (d : Fin 128) :
    Gnn.whole W a1 x0 (ix2 (⟨768 * t.val + (nodeRow g i).val, by have := (nodeRow g i).isLt; omega⟩ : Fin 196608) d)
      = Gnn.out W (Gnn.adjOf a1 ⟨24 * t.val + g.val, by omega⟩) (Gnn.featOf x0 ⟨24 * t.val + g.val, by omega⟩) i d := by
  unfold Gnn.whole
  have hg : Gnn.graphOf (ix2 (⟨768 * t.val + (nodeRow g i).val, by have := (nodeRow g i).isLt; omega⟩ : Fin 196608) d)
      = ⟨24 * t.val + g.val, by omega⟩ :=
    Fin.ext (by show (768 * t.val + (32 * g.val + i.val)) / 32 = 24 * t.val + g.val; omega)
  have hi : (⟨(768 * t.val + (32 * g.val + i.val)) % 32, Nat.mod_lt _ (by decide)⟩ : Fin 32) = i :=
    Fin.ext (by show (768 * t.val + (32 * g.val + i.val)) % 32 = i.val; omega)
  rw [hg]
  exact congrArg (fun q : Fin 32 => Gnn.out W _ _ q d) hi

/-- Point `t` writes back rows 768·t … of the specification's whole result. -/
theorem flushed_eq (c : Dev nD) (W : Gnn.Weights) (hW : WindowsAre m c W) (t : Fin cfg0.N) :
    (dats m 0 c).flushed 9 t = ((cfg0.win 9).blk t).view.read (Elt Ideal)
      (Gnn.whole W (m ((c : Thread nD τ).loc main_arg1)) (V m c main_v19)) := by
  show (cfg0.win 9).cut (grid0.coords t) ((dats m 0 c).after 9 t) = _
  rw [after0_9]
  funext y
  obtain ⟨r, d, rfl⟩ : ∃ (r : Fin 768) (d : Fin 128), y = ix2 r d := ⟨y 0, y 1, eq_ix2 y⟩
  obtain ⟨g, i, rfl⟩ : ∃ (g : Fin 24) (i : Fin 32), r = nodeRow g i :=
    ⟨⟨r.val / 32, by have := r.isLt; omega⟩, ⟨r.val % 32, Nat.mod_lt _ (by decide)⟩,
      Fin.ext (by show r.val = 32 * (r.val / 32) + r.val % 32; omega)⟩
  have ht : t.val < 256 := t.isLt
  refine (Body.out_apply W (fun gl => Gnn.adjOf (m ((c : Thread nD τ).loc main_arg1)) ⟨24 * t.val + gl.val, by have := gl.isLt; omega⟩)
    (iblk m c 0 t) (iblk m c 1 t) (iblk m c 2 t) (iblk m c 3 t) (iblk m c 4 t) (iblk m c 5 t) (iblk m c 6 t) (iblk m c 7 t) (iblk m c 8 t)
    (fun gl j i' => blk_adj m c t gl j i') (fun k c' => (blk_w1 m c t k _).trans (hW.wa k c')) (fun k c' => (blk_w1 m c t k _).trans (hW.wb k c'))
    (fun c' => (blk_b1 m c t c').trans (hW.b1 c')) (fun k d' => (blk_w2 m c t k d').trans (hW.w2 k d'))
    (fun d' => (blk_b2 m c t d').trans (hW.b2 d')) (fun k c' => (blk_ow1 m c t k c').trans (hW.ow1 k c'))
    (fun c' => (blk_ob1 m c t c').trans (hW.ob1 c')) (fun k d' => (blk_ow2 m c t k d').trans (hW.ow2 k d')) g i d).trans ?_
  show _ = Gnn.whole W (m ((c : Thread nD τ).loc main_arg1)) (V m c main_v19) (((cfg0.win 9).blk t).view.emb (ix2 (nodeRow g i) d))
  rw [emb_out, whole_at W _ _ ⟨t.val, ht⟩ g i d, blk_feat m c t g]

/-! ## The blocks tile the result -/

theorem mem_blk (t : Fin cfg0.N) (y : S196608x128.Idx) :
    y ∈ ((cfg0.win 9).blk t).view.set ↔ ∀ a : Fin 2, win0_9.index t a * S768x128.size a ≤ (y a).val
      ∧ (y a).val < win0_9.index t a * S768x128.size a + S768x128.size a := by
  show y ∈ ((View.whole main_v20).slice (win0_9.rect t)).set ↔ _
  rw [View.set_slice_whole, Rect.mem_set_unit]
  exact Iff.rfl

theorem cover (y : S196608x128.Idx) : ∃ t : Fin cfg0.N, (cfg0.win 9).flush t = true ∧ y ∈ ((cfg0.win 9).blk t).view.set := by
  have hy0 : (y 0).val < 196608 := (y 0).isLt
  have hy1 : (y 1).val < 128 := (y 1).isLt
  have hlt : (y 0).val / 768 < 256 := by omega
  refine ⟨⟨(y 0).val / 768, hlt⟩, flush0_9 _, ?_⟩
  rw [mem_blk]
  obtain ⟨-, -, -, -, -, -, -, -, -, -, -, -, -, -, -, -, -, -, -, e0, e1⟩ := idx_facts ⟨(y 0).val / 768, hlt⟩
  intro a
  match a with
  | ⟨0, _⟩ =>
    show win0_9.index ⟨(y 0).val / 768, hlt⟩ (0 : Fin 2) * 768 ≤ (y 0).val
      ∧ (y 0).val < win0_9.index ⟨(y 0).val / 768, hlt⟩ (0 : Fin 2) * 768 + 768
    rw [e0]; show (y 0).val / 768 * 768 ≤ (y 0).val ∧ (y 0).val < (y 0).val / 768 * 768 + 768; omega
  | ⟨1, _⟩ =>
    show win0_9.index ⟨(y 0).val / 768, hlt⟩ (1 : Fin 2) * 128 ≤ (y 1).val
      ∧ (y 1).val < win0_9.index ⟨(y 0).val / 768, hlt⟩ (1 : Fin 2) * 128 + 128
    rw [e1]; omega

/-- The result array after the region: the specification's whole result. -/
theorem final (c : Dev nD) (W : Gnn.Weights) (hW : WindowsAre m c W) :
    (dats m 0 c).arrAt 9 cfg0.N = Gnn.whole W (m ((c : Thread nD τ).loc main_arg1)) (V m c main_v19) :=
  (dats m 0 c).arrAt_eq_of_cover 9 _ (fun t _ => flushed_eq m c W hW t) cover

end Cert.KernelIdeal.Whole

end
-- ==== Proof.KRun.lean ====
/-
  The kernel's run, read: what its two results hold.

  After the region the program keeps the first ten columns of the [196608, 128] result, regroups them by graph, and
  returns that array together with its node-0 rows.  Both are functions of the region's whole result, which is the
  specification's.
-/
import proofs.«173531_g2000002686688254_pallaspilot1_98_21_alg».proof.Proof.KWhole

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Layout

variable (m : (ℓ : Loc nD τ sig) → Buf (Elt Ideal) ℓ) (ρ : Dev nD → PrngReg)

/-- The region's result array, as the lines after the region find it. -/
theorem region_result (c : Dev nD) (W : Gnn.Weights) (hW : WindowsAre m c W) :
    Pipeline.withArrays (cfgs 0).spec c (V0 m c) (fun w => (dats m 0 c).arrAt w (cfgs 0).N) (Proc.devRef .tc main_v20)
      = Gnn.whole W (m ((c : Thread nD τ).loc main_arg1)) (V m c main_v19) :=
  (Pipeline.withArrays_arr spec0 launch0.win.arr_inj c _ _ 9).trans (final m c W hW)

/-- The per-node result. -/
theorem tail_nodes (c : Dev nD) (W : Gnn.Weights) (hW : WindowsAre m c W) :
    Pipeline.afterTail₀ cfgs (dats m) 0 (V0 m) [hostOps1] c main_v22
      = Gnn.perNode (Gnn.whole W (m ((c : Thread nD τ).loc main_arg1)) (V m c main_v19))
          Facts₀.slices_S196608x128_S196608x10_0_0 Facts₀.shapeCasts_S196608x10_S6144x32x10 := by
  unfold Pipeline.afterTail₀
  show StableHlo.after hostOps1 _ (Proc.devRef .tc main_v22) = _
  after_results
  rw [region_result m c W hW]
  rfl

/-- The per-graph result. -/
theorem tail_graphs (c : Dev nD) (W : Gnn.Weights) (hW : WindowsAre m c W) :
    Pipeline.afterTail₀ cfgs (dats m) 0 (V0 m) [hostOps1] c main_v24
      = Gnn.perGraph (Gnn.perNode (Gnn.whole W (m ((c : Thread nD τ).loc main_arg1)) (V m c main_v19))
          Facts₀.slices_S196608x128_S196608x10_0_0 Facts₀.shapeCasts_S196608x10_S6144x32x10)
          Facts₀.slices_S6144x32x10_S6144x1x10_0_0_0 Facts₀.shapeCasts_S6144x1x10_S6144x10 := by
  unfold Pipeline.afterTail₀
  show StableHlo.after hostOps1 _ (Proc.devRef .tc main_v24) = _
  after_results
  rw [region_result m c W hW]
  rfl

/-- The run: both results at their functions of the specification's whole result, the arguments unchanged. -/
theorem run (W : Dev nD → Gnn.Weights) (hW : ∀ c, WindowsAre m c (W c)) :
    θ_run (defs (F := Ideal)) (onTc (τ := τ) (main (F := Ideal))) ⟨m, fun _ => 0, ρ⟩ (fun r => ∀ c : Dev nD,
      r.2.mem ((c.tc : Thread nD τ).loc main_v24)
        = Gnn.perGraph (Gnn.perNode (Gnn.whole (W c) (m ((c : Thread nD τ).loc main_arg1)) (V m c main_v19))
            Facts₀.slices_S196608x128_S196608x10_0_0 Facts₀.shapeCasts_S196608x10_S6144x32x10)
            Facts₀.slices_S6144x32x10_S6144x1x10_0_0_0 Facts₀.shapeCasts_S6144x1x10_S6144x10
      ∧ r.2.mem ((c.tc : Thread nD τ).loc main_v22)
        = Gnn.perNode (Gnn.whole (W c) (m ((c : Thread nD τ).loc main_arg1)) (V m c main_v19))
            Facts₀.slices_S196608x128_S196608x10_0_0 Facts₀.shapeCasts_S196608x10_S6144x32x10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v24 (Pipeline.mem_restRefs_of main_v24 (by decide) (by decide))).trans (tail_graphs m c (W c) (hW c)),
      ((h c).2 main_v22 (Pipeline.mem_restRefs_of main_v22 (by decide) (by decide))).trans (tail_nodes m c (W c) (hW c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Whole

end
-- ==== Proof.RefBody.lean ====
/-
  The reference program's kernel body, read at an index.

  The body works on one graph: a [32,128] block of node features, the [32,1024] matrix that scatters the 1024 ordered
  pairs (row 32·c + j of the pair array is the pair (receiver c, sender j)) back onto the 32 receivers, and the layers'
  weights. It runs five rounds and a two-layer head. Here one round and the head are written once, operation for
  operation, as terms over the same shape facts and contraction records the printed body uses; the payloads of the
  body's skeleton are shown to be compositions of those terms; each operation is read at an index (a matrix product
  as the sum over the contracted coordinate, a shape cast through the row-major position, a broadcast through the
  coordinates it keeps); and a round of the body is identified with `Gnn.round`, the head with `Gnn.head`.

  The one piece of algebra: with wa[i, 32·c + j] = [i = c] · A j i, the sum over the 1024 pairs of wa[i, κ] · m[κ, d]
  splits as a double sum over (c, j); every term with c ≠ i is 0 · _ = 0, and the c = i terms are A j i · m[(i, j), d].
-/
import proofs.«173531_g2000002686688254_pallaspilot1_98_21_alg».proof.ReferenceIdeal
import proofs.«173531_g2000002686688254_pallaspilot1_98_21_alg».proof.Proof.Gen.ReferenceIdeal.Frame
import proofs.«173531_g2000002686688254_pallaspilot1_98_21_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Body

open Idealize.ShloMosaic Idealize.ShloMosaic.ValueIdx
open Cert.ReferenceIdeal.Facts₀ Cert.ReferenceIdeal.Facts
open scoped BigOperators

/-! ## One round and the head, operation for operation -/

/-- A [1,128] bias row as the body spreads it over 32 rows. -/
def bias32 (b : Vec Ideal S1x128 .f32) : FVec Ideal S32x128 .f32 :=
  broadcastTo S32x128 (shapeCast S1x128 (shapeCast S1x128 b shapeCasts_S1x128_S1x128) shapeCasts_S1x128_S1x128) broadcasts_S1x128_S32x128

/-- A [1,128] bias row as the body spreads it over 1024 rows. -/
def bias1024 (b : Vec Ideal S1x128 .f32) : FVec Ideal S1024x128 .f32 :=
  broadcastTo S1024x128 (shapeCast S1x128 (shapeCast S1x128 b shapeCasts_S1x128_S1x128) shapeCasts_S1x128_S1x128) broadcasts_S1x128_S1024x128

/-- The pair layer before its activation: entry (i, j, k) is (x·w1a + b1)[i,k] + (x·w1b)[j,k]. -/
def rPre (x : FVec Ideal S32x128 .f32) (w1a w1b : FVec Ideal S128x128 .f32) (b1f : FVec Ideal S32x128 .f32) :
    FVec Ideal S32x32x128 .f32 :=
  addf
    (broadcastTo S32x32x128
      (shapeCast S32x1x128
        (addf (matmul dot_S32x128_S128x128_S32x128_1_0_0_1_n_n none x w1a (constant S32x128 .f32 0x00000000#32)) b1f)
        shapeCasts_S32x128_S32x1x128)
      broadcasts_S32x1x128_S32x32x128)
    (shapeCast S32x32x128
      (broadcastTo S1x32x32x128
        (shapeCast S1x1x32x128
          (shapeCast S1x1x32x128
            (matmul dot_S32x128_S128x128_S32x128_1_0_0_1_n_n none x w1b (constant S32x128 .f32 0x00000000#32))
            shapeCasts_S32x128_S1x1x32x128)
          shapeCasts_S1x1x32x128_S1x1x32x128)
        broadcasts_S1x1x32x128_S1x32x32x128)
      shapeCasts_S1x32x32x128_S32x32x128)

/-- The message layer before its activation, on the 1024 ordered pairs (row 32·i + j). -/
def rMid (h : FVec Ideal S32x32x128 .f32) (w2 : FVec Ideal S128x128 .f32) (b2f : FVec Ideal S1024x128 .f32) :
    FVec Ideal S1024x128 .f32 :=
  addf
    (matmul dot_S1024x128_S128x128_S1024x128_1_0_0_1_n_n none
      (shapeCast S1024x128 (maximumf h (broadcast S32x32x128 (Scalar.ofBits .f32 0x00000000#32))) shapeCasts_S32x32x128_S1024x128)
      w2 (constant S1024x128 .f32 0x00000000#32))
    b2f

/-- The weighted sum of the activated messages, added to the features. -/
def rPost (x : FVec Ideal S32x128 .f32) (wa : FVec Ideal S32x1024 .f32) (mpre : FVec Ideal S1024x128 .f32) :
    FVec Ideal S32x128 .f32 :=
  addf x
    (matmul dot_S32x1024_S1024x128_S32x128_1_0_0_1_n_n none wa
      (maximumf mpre (broadcast S1024x128 (Scalar.ofBits .f32 0x00000000#32))) (constant S32x128 .f32 0x00000000#32))

/-- One round of the body. -/
def rRound (x : FVec Ideal S32x128 .f32) (wa : FVec Ideal S32x1024 .f32) (w1a w1b w2 : FVec Ideal S128x128 .f32)
    (b1f : FVec Ideal S32x128 .f32) (b2f : FVec Ideal S1024x128 .f32) : FVec Ideal S32x128 .f32 :=
  rPost x wa (rMid (rPre x w1a w1b b1f) w2 b2f)

/-- The first layer of the head, before its activation. -/
def rHeadPre (x : FVec Ideal S32x128 .f32) (ow1 : FVec Ideal S128x128 .f32) (ob1f : FVec Ideal S32x128 .f32) :
    FVec Ideal S32x128 .f32 :=
  addf (matmul dot_S32x128_S128x128_S32x128_1_0_0_1_n_n none x ow1 (constant S32x128 .f32 0x00000000#32)) ob1f

/-- The second layer of the head on the activated first. -/
def rHeadPost (h : FVec Ideal S32x128 .f32) (ow2 : FVec Ideal S128x128 .f32) : FVec Ideal S32x128 .f32 :=
  matmul dot_S32x128_S128x128_S32x128_1_0_0_1_n_n none
    (maximumf h (broadcast S32x128 (Scalar.ofBits .f32 0x00000000#32))) ow2 (constant S32x128 .f32 0x00000000#32)

/-- The head of the body. -/
def rHead (x : FVec Ideal S32x128 .f32) (ow1 ow2 : FVec Ideal S128x128 .f32) (ob1f : FVec Ideal S32x128 .f32) :
    FVec Ideal S32x128 .f32 :=
  rHeadPost (rHeadPre x ow1 ob1f) ow2

/-! ## The payloads are rounds and the head -/

theorem pay12_eq (v0 : Vec Ideal S32x128 .f32) (v4 v6 : Vec Ideal S128x128 .f32) (v14 : Vec Ideal S1x128 .f32) :
    Gen.k0_pay12 (F := Ideal) v0 v4 v6 v14 = rPre (Gen.k0_pay2 v0) (Gen.k0_pay4 v4) (Gen.k0_pay5 v6) (Gen.k0_pay9 v14) := rfl

theorem pay13_eq (v1 : FVec Ideal S32x128 .f32) (v3 : FVec Ideal S32x1024 .f32) (v5 v7 v9 : FVec Ideal S128x128 .f32)
    (v17 : FVec Ideal S32x128 .f32) (v21 : FVec Ideal S1024x128 .f32) (v35 : FVec Ideal S32x32x128 .f32) :
    Gen.k0_pay13 (F := Ideal) v1 v3 v5 v7 v9 v17 v21 v35
      = rRound (rPost v1 v3 (rMid v35 v9 v21)) v3 v5 v7 v9 v17 v21 := rfl

theorem pay14_eq (v1 : FVec Ideal S32x128 .f32) (v3 : FVec Ideal S32x1024 .f32) (v5 v7 v9 : FVec Ideal S128x128 .f32)
    (v17 : FVec Ideal S32x128 .f32) (v21 : FVec Ideal S1024x128 .f32) (v35 : FVec Ideal S32x32x128 .f32) :
    Gen.k0_pay14 (F := Ideal) v1 v3 v5 v7 v9 v17 v21 v35
      = rMid (rPre (Gen.k0_pay13 v1 v3 v5 v7 v9 v17 v21 v35) v5 v7 v17) v9 v21 := rfl

theorem pay15_eq (v3 : FVec Ideal S32x1024 .f32) (v5 v7 v9 v11 : FVec Ideal S128x128 .f32)
    (v17 : FVec Ideal S32x128 .f32) (v21 : FVec Ideal S1024x128 .f32) (v25 v63 : FVec Ideal S32x128 .f32)
    (v78 : FVec Ideal S1024x128 .f32) :
    Gen.k0_pay15 (F := Ideal) v3 v5 v7 v9 v11 v17 v21 v25 v63 v78 (Scalar.ofBits .f32 0x00000000#32)
      = rHeadPre (rRound (rRound (rPost v63 v3 v78) v3 v5 v7 v9 v17 v21) v3 v5 v7 v9 v17 v21) v11 v25 := rfl

theorem pay1_eq (v13 : FVec Ideal S128x128 .f32) (v122 : FVec Ideal S32x128 .f32) :
    Gen.k0_pay1 (F := Ideal) v13 v122 = rHeadPost v122 v13 := rfl

theorem hz : (![0, 0] : Fin 2 → Nat) = fun _ => 0 := funext fun a => by fin_cases a <;> rfl

/-- What the body leaves in the output block is five rounds and the head of the input blocks. -/
theorem out_eq_rounds
    (x0 : Vec Ideal S32x128 .f32) (x1 : Vec Ideal S32x1024 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (x9 : Vec Ideal S128x128 .f32) :
    Cert.ReferenceIdeal.Gen.out0_10 (F := Ideal) x0 x1 x2 x3 x4 x5 x6 x7 x8 x9 =
      rHead
        (rRound (rRound (rRound (rRound (rRound x0 x1 x2 x3 x5 (bias32 x4) (bias1024 x6))
          x1 x2 x3 x5 (bias32 x4) (bias1024 x6)) x1 x2 x3 x5 (bias32 x4) (bias1024 x6))
          x1 x2 x3 x5 (bias32 x4) (bias1024 x6)) x1 x2 x3 x5 (bias32 x4) (bias1024 x6))
        x7 x9 (bias32 x8) := by
  unfold Cert.ReferenceIdeal.Gen.out0_10
  rw [View.canon_unit_zero hz]
  simp only [View.ld_unit_zero (S := S32x128) hz, View.ld_unit_zero (S := S32x1024) hz,
    View.ld_unit_zero (S := S128x128) hz, View.ld_unit_zero (S := S1x128) hz]
  rw [pay1_eq, pay15_eq, pay14_eq, pay13_eq, pay12_eq]
  simp only [Gen.k0_pay2, Gen.k0_pay3, Gen.k0_pay4, Gen.k0_pay5, Gen.k0_pay6, Gen.k0_pay7, Gen.k0_pay8, shapeCast_self]
  rfl

/-! ## Operations read at an index -/

/-- A plain matrix product into the zero splat, read at (a, b): the sum over the contracted coordinate. -/
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision) (X : FVec Ideal ⟨2, ![m, k]⟩ φ₁) (Y : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec X Y
        (constant ⟨2, ![m, n]⟩ .f32 0x00000000#32) (ix2 a b)
      = ∑ c : Fin k, X (ix2 a c) * Y (ix2 c b) := by
  refine (Ideal.matmul_constant_zero_apply _ prec X Y (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The zero word is the extended real zero. -/
theorem zero_word : (Scalar.ofBits .f32 0x00000000#32 : Ideal .f32) = (0 : EReal) := Ideal.ofBits_zero_f32

/-- A [32,128] array seen as [32,1,128] and spread over the middle axis reads, at (i, j, k), the array at (i, k). -/
theorem spread_rows_apply (P : FVec Ideal S32x128 .f32) (i j : Fin 32) (k : Fin 128) :
    broadcastTo S32x32x128 (shapeCast S32x1x128 P shapeCasts_S32x128_S32x1x128) broadcasts_S32x1x128_S32x32x128 (ix3 i j k)
      = P (ix2 i k) := by
  refine (broadcastTo_apply _ broadcasts_S32x1x128_S32x32x128 (ix3 i j k) (ix3 i (0 : Fin 1) k) fun ax => ?_).trans ?_
  · match ax with
    | ⟨0, _⟩ => rfl
    | ⟨1, _⟩ => rfl
    | ⟨2, _⟩ => rfl
  · refine shapeCast_apply P shapeCasts_S32x128_S32x1x128 _ (ix2 i k) ?_
    rw [Shape.rowMajor_val_three, Shape.rowMajor_val_two]
    show i.val * 128 + k.val = (i.val * 1 + 0) * 128 + k.val
    omega

/-- A [32,128] array seen as [1,1,32,128], spread over the second axis and read as [32,32,128] reads, at (i, j, k),
    the array at (j, k). -/
theorem spread_cols_apply (Q : FVec Ideal S32x128 .f32) (i j : Fin 32) (k : Fin 128) :
    shapeCast S32x32x128
        (broadcastTo S1x32x32x128
          (shapeCast S1x1x32x128 (shapeCast S1x1x32x128 Q shapeCasts_S32x128_S1x1x32x128) shapeCasts_S1x1x32x128_S1x1x32x128)
          broadcasts_S1x1x32x128_S1x32x32x128)
        shapeCasts_S1x32x32x128_S32x32x128 (ix3 i j k)
      = Q (ix2 j k) := by
  rw [shapeCast_self]
  refine (shapeCast_1abc_abc_apply _ shapeCasts_S1x32x32x128_S32x32x128 i j k).trans ?_
  refine (broadcastTo_apply _ broadcasts_S1x1x32x128_S1x32x32x128 (ix4 (0 : Fin 1) i j k)
    (ix4 (0 : Fin 1) (0 : Fin 1) j k) fun ax => ?_).trans ?_
  · match ax with
    | ⟨0, _⟩ => rfl
    | ⟨1, _⟩ => rfl
    | ⟨2, _⟩ => rfl
    | ⟨3, _⟩ => rfl
  · refine shapeCast_apply Q shapeCasts_S32x128_S1x1x32x128 _ (ix2 j k) ?_
    rw [Shape.rowMajor_val_four, Shape.rowMajor_val_two]
    show j.val * 128 + k.val = ((0 * 1 + 0) * 32 + j.val) * 128 + k.val
    omega

/-- The [32,32,128] array of pairs flattened to [1024,128] reads, at row 32·i + j, the pair (i, j). -/
theorem flatten_pairs_apply (H : FVec Ideal S32x32x128 .f32) (i j : Fin 32) (k : Fin 128) :
    shapeCast S1024x128 H shapeCasts_S32x32x128_S1024x128 (ix2 (⟨32 * i.val + j.val, by omega⟩ : Fin 1024) k) = H (ix3 i j k) := by
  refine shapeCast_apply H shapeCasts_S32x32x128_S1024x128 _ (ix3 i j k) ?_
  rw [Shape.rowMajor_val_three, Shape.rowMajor_val_two]
  show (i.val * 32 + j.val) * 128 + k.val = (32 * i.val + j.val) * 128 + k.val
  omega

/-- A bias row spread over 32 rows reads the row's entry. -/
theorem bias32_apply (b : Vec Ideal S1x128 .f32) (i : Fin 32) (c : Fin 128) : bias32 b (ix2 i c) = b (ix2 (0 : Fin 1) c) := by
  unfold bias32
  rw [shapeCast_self, shapeCast_self]
  exact broadcastTo_1b_ab_apply b broadcasts_S1x128_S32x128 i c

/-- A bias row spread over 1024 rows reads the row's entry. -/
theorem bias1024_apply (b : Vec Ideal S1x128 .f32) (r : Fin 1024) (c : Fin 128) : bias1024 b (ix2 r c) = b (ix2 (0 : Fin 1) c) := by
  unfold bias1024
  rw [shapeCast_self, shapeCast_self]
  exact broadcastTo_1b_ab_apply b broadcasts_S1x128_S1024x128 r c

/-- A sum over the 1024 ordered pairs is the double sum over (receiver, sender), the pair (c, j) at position 32·c + j. -/
theorem sum_pairs (f : Fin 1024 → EReal) :
    ∑ κ : Fin 1024, f κ = ∑ c : Fin 32, ∑ j : Fin 32, f ⟨32 * c.val + j.val, by omega⟩ := by
  rw [← Equiv.sum_comp (finProdFinEquiv (m := 32) (n := 32)) f, Fintype.sum_prod_type]
  refine Finset.sum_congr rfl fun c _ => Finset.sum_congr rfl fun j _ => congrArg f (Fin.ext ?_)
  show j.val + 32 * c.val = 32 * c.val + j.val
  omega

/-- The three matrix products of the body, read at an index. -/
theorem mm32_apply (X : FVec Ideal S32x128 .f32) (Y : FVec Ideal S128x128 .f32) (a : Fin 32) (b : Fin 128) :
    matmul dot_S32x128_S128x128_S32x128_1_0_0_1_n_n none X Y (constant S32x128 .f32 0x00000000#32) (ix2 a b)
      = ∑ c : Fin 128, X (ix2 a c) * Y (ix2 c b) :=
  matmul_plain_apply dot_S32x128_S128x128_S32x128_1_0_0_1_n_n_wf none X Y a b

theorem mm1024_apply (X : FVec Ideal S1024x128 .f32) (Y : FVec Ideal S128x128 .f32) (a : Fin 1024) (b : Fin 128) :
    matmul dot_S1024x128_S128x128_S1024x128_1_0_0_1_n_n none X Y (constant S1024x128 .f32 0x00000000#32) (ix2 a b)
      = ∑ c : Fin 128, X (ix2 a c) * Y (ix2 c b) :=
  matmul_plain_apply dot_S1024x128_S128x128_S1024x128_1_0_0_1_n_n_wf none X Y a b

theorem mmPairs_apply (X : FVec Ideal S32x1024 .f32) (Y : FVec Ideal S1024x128 .f32) (a : Fin 32) (b : Fin 128) :
    matmul dot_S32x1024_S1024x128_S32x128_1_0_0_1_n_n none X Y (constant S32x128 .f32 0x00000000#32) (ix2 a b)
      = ∑ c : Fin 1024, X (ix2 a c) * Y (ix2 c b) :=
  matmul_plain_apply dot_S32x1024_S1024x128_S32x128_1_0_0_1_n_n_wf none X Y a b

/-! ## A round and the head against the specification -/

/-- A feature block as one graph's node features. -/
abbrev feat (x : FVec Ideal S32x128 .f32) : Gnn.Feat := fun i k => x (ix2 i k)

section Spec
variable (W : Gnn.Weights) (A : Gnn.Adj)

/-- The pair layer before its activation is the receiver's half plus the sender's half. -/
theorem rPre_apply (x : FVec Ideal S32x128 .f32) (w1a w1b : FVec Ideal S128x128 .f32) (b1f : FVec Ideal S32x128 .f32)
    (h2 : ∀ k c : Fin 128, w1a (ix2 k c) = W.wa k c) (h3 : ∀ k c : Fin 128, w1b (ix2 k c) = W.wb k c)
    (hb1 : ∀ (i : Fin 32) (c : Fin 128), b1f (ix2 i c) = W.b1 c) (i j : Fin 32) (k : Fin 128) :
    rPre x w1a w1b b1f (ix3 i j k) = Gnn.recv W (feat x) i k + Gnn.send W (feat x) j k := by
  unfold rPre
  rw [addf_apply, spread_rows_apply, spread_cols_apply, addf_apply, mm32_apply, mm32_apply, hb1]
  unfold Gnn.recv Gnn.send
  simp only [h2, h3]

/-- The message layer before its activation, at the pair (c, j). -/
theorem rMid_apply (H : FVec Ideal S32x32x128 .f32) (w2 : FVec Ideal S128x128 .f32) (b2f : FVec Ideal S1024x128 .f32)
    (h5 : ∀ k d : Fin 128, w2 (ix2 k d) = W.w2 k d) (hb2 : ∀ (r : Fin 1024) (d : Fin 128), b2f (ix2 r d) = W.b2 d)
    (c j : Fin 32) (d : Fin 128) :
    rMid H w2 b2f (ix2 (⟨32 * c.val + j.val, by omega⟩ : Fin 1024) d)
      = (∑ k : Fin 128, max (H (ix3 c j k)) 0 * W.w2 k d) + W.b2 d := by
  unfold rMid
  rw [addf_apply, mm1024_apply, hb2]
  refine congrArg (· + W.b2 d) (Finset.sum_congr rfl fun k _ => ?_)
  rw [flatten_pairs_apply, maximumf_apply, broadcast_apply, zero_word, h5]

/-- One round of the body is one round of the network. -/
theorem rRound_apply (x : FVec Ideal S32x128 .f32) (wa : FVec Ideal S32x1024 .f32) (w1a w1b w2 : FVec Ideal S128x128 .f32)
    (b1f : FVec Ideal S32x128 .f32) (b2f : FVec Ideal S1024x128 .f32)
    (h1 : ∀ i c j : Fin 32, wa (ix2 i ⟨32 * c.val + j.val, by omega⟩) = (if i = c then (1 : EReal) else 0) * A j i)
    (h2 : ∀ k c : Fin 128, w1a (ix2 k c) = W.wa k c) (h3 : ∀ k c : Fin 128, w1b (ix2 k c) = W.wb k c)
    (h5 : ∀ k d : Fin 128, w2 (ix2 k d) = W.w2 k d)
    (hb1 : ∀ (i : Fin 32) (c : Fin 128), b1f (ix2 i c) = W.b1 c)
    (hb2 : ∀ (r : Fin 1024) (d : Fin 128), b2f (ix2 r d) = W.b2 d) (i : Fin 32) (d : Fin 128) :
    rRound x wa w1a w1b w2 b1f b2f (ix2 i d) = Gnn.round W A (feat x) i d := by
  unfold rRound rPost
  rw [addf_apply, mmPairs_apply, sum_pairs]
  unfold Gnn.round
  refine congrArg (x (ix2 i d) + ·) ?_
  have hterm : ∀ c j : Fin 32,
      wa (ix2 i ⟨32 * c.val + j.val, by omega⟩)
          * maximumf (rMid (rPre x w1a w1b b1f) w2 b2f) (broadcast S1024x128 (Scalar.ofBits .f32 0x00000000#32))
              (ix2 (⟨32 * c.val + j.val, by omega⟩ : Fin 1024) d)
        = (if i = c then (1 : EReal) else 0) * A j i * Gnn.pairMsg W (feat x) c j d := by
    intro c j
    rw [h1, maximumf_apply, broadcast_apply, zero_word, rMid_apply W _ w2 b2f h5 hb2]
    unfold Gnn.pairMsg Gnn.hid
    simp only [rPre_apply W x w1a w1b b1f h2 h3 hb1]
  simp only [hterm]
  rw [Finset.sum_eq_single i]
  · refine Finset.sum_congr rfl fun j _ => ?_
    rw [if_pos rfl, one_mul, mul_comm]
  · intro c _ hc
    refine Finset.sum_eq_zero fun j _ => ?_
    rw [if_neg (Ne.symm hc), zero_mul, zero_mul]
  · intro h
    exact absurd (Finset.mem_univ i) h

/-- The head of the body is the head of the network. -/
theorem rHead_apply (x : FVec Ideal S32x128 .f32) (ow1 ow2 : FVec Ideal S128x128 .f32) (ob1f : FVec Ideal S32x128 .f32)
    (h7 : ∀ k c : Fin 128, ow1 (ix2 k c) = W.ow1 k c) (h9 : ∀ k d : Fin 128, ow2 (ix2 k d) = W.ow2 k d)
    (hb : ∀ (i : Fin 32) (c : Fin 128), ob1f (ix2 i c) = W.ob1 c) (i : Fin 32) (d : Fin 128) :
    rHead x ow1 ow2 ob1f (ix2 i d) = Gnn.head W (feat x) i d := by
  unfold rHead rHeadPost rHeadPre
  rw [mm32_apply]
  unfold Gnn.head Gnn.headHid
  refine Finset.sum_congr rfl fun k _ => ?_
  rw [maximumf_apply, broadcast_apply, zero_word, addf_apply, mm32_apply, hb, h9]
  simp only [h7]

/-- What the body leaves in the output block, at node i and feature d, is the network on the input block. -/
theorem out_apply
    (x0 : Vec Ideal S32x128 .f32) (x1 : Vec Ideal S32x1024 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (x9 : Vec Ideal S128x128 .f32)
    (h1 : ∀ i c j : Fin 32, x1 (ix2 i ⟨32 * c.val + j.val, by omega⟩) = (if i = c then (1 : EReal) else 0) * A j i)
    (h2 : ∀ k c : Fin 128, x2 (ix2 k c) = W.wa k c) (h3 : ∀ k c : Fin 128, x3 (ix2 k c) = W.wb k c)
    (h4 : ∀ c : Fin 128, x4 (ix2 0 c) = W.b1 c)
    (h5 : ∀ k d : Fin 128, x5 (ix2 k d) = W.w2 k d) (h6 : ∀ d : Fin 128, x6 (ix2 0 d) = W.b2 d)
    (h7 : ∀ k c : Fin 128, x7 (ix2 k c) = W.ow1 k c)
    (h8 : ∀ c : Fin 128, x8 (ix2 0 c) = W.ob1 c) (h9 : ∀ k d : Fin 128, x9 (ix2 k d) = W.ow2 k d)
    (i : Fin 32) (d : Fin 128) :
    Cert.ReferenceIdeal.Gen.out0_10 (F := Ideal) x0 x1 x2 x3 x4 x5 x6 x7 x8 x9 (ix2 i d)
      = Gnn.out W A (fun i k => x0 (ix2 i k)) i d := by
  have hb1 : ∀ (i : Fin 32) (c : Fin 128), bias32 x4 (ix2 i c) = W.b1 c := fun i c => (bias32_apply x4 i c).trans (h4 c)
  have hb2 : ∀ (r : Fin 1024) (d : Fin 128), bias1024 x6 (ix2 r d) = W.b2 d := fun r d => (bias1024_apply x6 r d).trans (h6 d)
  have hb3 : ∀ (i : Fin 32) (c : Fin 128), bias32 x8 (ix2 i c) = W.ob1 c := fun i c => (bias32_apply x8 i c).trans (h8 c)
  have R : ∀ x : FVec Ideal S32x128 .f32,
      feat (rRound x x1 x2 x3 x5 (bias32 x4) (bias1024 x6)) = Gnn.round W A (feat x) := fun x =>
    funext fun i => funext fun d => rRound_apply W A x x1 x2 x3 x5 (bias32 x4) (bias1024 x6) h1 h2 h3 h5 hb1 hb2 i d
  rw [out_eq_rounds, rHead_apply W _ x7 x9 (bias32 x8) h7 h9 hb3, R, R, R, R, R]
  rfl

end Spec

end Cert.ReferenceIdeal.Body

end
-- ==== Proof.RefAdj.lean ====
/-
  The reference's scatter matrix, read at an index.

  Before its one region the reference computes, on the host, a matrix W_A of 196608 rows and 1024 columns from the
  weight tables A (6144 graphs, 32 × 32 each). Row r = 32 g + i stands for node i of graph g; column 32 c + j stands
  for the pair (block c, sender j). With A_t[32 g + i, j] = A[g, j, i] (each table with its two axes exchanged, one row
  per node) and sel[r, c] = 1 when r mod 32 = c and 0 otherwise,

      W_A[r, 32 c + j] = sel[r, c] * A_t[r, j].

  So row 32 g + i carries, on its own block c = i, the weights A[g, j, i] of what node i receives from each node j, and
  zeros on the 31 other blocks. This file states that as one equation on the array the region finds (`wA_apply`):

      W_A[32 g + i, 32 c + j] = (if i = c then 1 else 0) * A[g, j, i].

  The remainder r mod 32 is taken on 32-bit words by the signed remainder followed by a sign correction; for a row
  number below 196608 and the divisor 32 both words are non-negative, the signed remainder is the natural one, and the
  correction changes nothing. The remaining steps read broadcasts, a transpose and two reshapes at an index.
-/
import proofs.«173531_g2000002686688254_pallaspilot1_98_21_alg».proof.Proof.Gen.ReferenceIdeal.Frame
import Idealize.ShloMosaic.Lib.StableHlo.Run
import Idealize.ShloMosaic.Lib.Affine
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.Adj

open Idealize.ShloMosaic Idealize.ShloMosaic.TcCoe
open Idealize.ShloMosaic.StableHlo
open Cert.ReferenceIdeal Cert.ReferenceIdeal.Facts₀ Cert.ReferenceIdeal.Facts

/-! ## The host operations' term -/

/-- The divisor word as the remainder routine takes it: the literal 32, which it would replace by 1 were it 0. -/
def dvs : IVec S_ 32 :=
  select (cmpi .eq (id (constantI S_ 32 32#32)) (constantI S_ 32 0#32)) (constantI S_ 32 1#32) (id (constantI S_ 32 32#32))

/-- The signed remainder of the row number by the divisor, before the sign correction. -/
def rem0 : IVec S196608 32 :=
  Host.remsi (iotaInDim S196608 32 0) (broadcastInDim S196608 ![] bcast_S_S196608 dvs)

/-- The row's node number within its graph as the reference computes it: the remainder, moved up by the divisor where
    it is not zero and its sign differs from the divisor's. -/
def rLoc : IVec S196608 32 :=
  select
    (andi
      (cmpi .ne (cmpi .slt rem0 (broadcastInDim S196608 ![] bcast_S_S196608 (constantI S_ 32 0#32)))
        (broadcastInDim S196608 ![] bcast_S_S196608 (cmpi .slt dvs (constantI S_ 32 0#32))))
      (cmpi .ne rem0 (broadcastInDim S196608 ![] bcast_S_S196608 (constantI S_ 32 0#32))))
    (addi rem0 (broadcastInDim S196608 ![] bcast_S_S196608 dvs))
    rem0

/-- The block selector: entry (r, c) is one when row r's node number is c, and zero otherwise. -/
def blkSel : FVec Ideal S196608x32 .f32 :=
  uitofp .f32
    (cmpi .eq
      (broadcastInDim S196608x32 ![0, 1] bcast_S196608x1_S196608x32_0_1
        (broadcastInDim S196608x1 ![0] bcast_S196608_S196608x1_0 rLoc))
      (broadcastInDim S196608x32 ![0, 1] bcast_S1x32_S196608x32_0_1
        (broadcastInDim S1x32 ![1] bcast_S32_S1x32_1 (iotaInDim S32 32 0))))

/-- The weight tables with their last two axes exchanged, one row per node. -/
def aT (A : S6144x32x32.Idx → EReal) : S196608x32.Idx → EReal :=
  fun i => shapeCast S196608x32 (transpose S6144x32x32 [0, 2, 1] A transposes_S6144x32x32_S6144x32x32_0_2_1)
    shapeCasts_S6144x32x32_S196608x32 i

/-- The scatter matrix: the selector times the exchanged table, the two trailing axes flattened. -/
def wA (A : S6144x32x32.Idx → EReal) : S196608x1024.Idx → EReal :=
  fun i => shapeCast S196608x1024
    (mulf (F := Ideal) (φ := .f32)
      (broadcastInDim S196608x32x32 ![0, 1, 2] bcast_S196608x32x1_S196608x32x32_0_1_2
        (broadcastInDim S196608x32x1 ![0, 1] bcast_S196608x32_S196608x32x1_0_1 blkSel))
      (broadcastInDim S196608x32x32 ![0, 1, 2] bcast_S196608x1x32_S196608x32x32_0_1_2
        (broadcastInDim S196608x1x32 ![0, 2] bcast_S196608x32_S196608x1x32_0_2 (aT A))))
    shapeCasts_S196608x32x32_S196608x1024 i

open Idealize.ShloMosaic.ValueIdx

/-! ## The words

The reference takes the row number modulo 32 on 32-bit words: the signed remainder, then a correction that adds the
divisor back when the remainder is not zero and its sign differs from the divisor's. A row number is below 196608 and
the divisor is the literal 32, so both words are non-negative as signed numbers: the signed remainder is the natural
one, it is not negative, and the correction leaves it as it is. -/

/-- The signed remainder by 32 of a small natural number's word is the word of the natural remainder. -/
theorem remsi_ofNat (r : ℕ) (hr : r < 196608) :
    IntOp.remsi .host (BitVec.ofNat 32 r) 32#32 = BitVec.ofNat 32 (r % 32) := by
  have hx : (BitVec.ofNat 32 r).toNat = r := by rw [BitVec.toNat_ofNat]; omega
  apply BitVec.eq_of_toNat_eq
  rw [show (32#32 : BitVec 32) = BitVec.ofNat 32 32 from rfl,
    IntOp.toNat_remsi .host (x := BitVec.ofNat 32 r) (by rw [hx]; omega) 32 (by omega) (by omega), hx,
    BitVec.toNat_ofNat]
  omega

/-- A natural number below 32, as a word, is not negative when read signed. -/
theorem slt_zero_ofNat (k : ℕ) (hk : k < 32) : IntOp.cmpi .slt (BitVec.ofNat 32 k) 0#32 = 0#1 := by
  refine eq_zero_of_ne_one fun h => ?_
  rw [IntOp.cmpi_slt, BitVec.toInt_eq_toNat_of_lt (by rw [BitVec.toNat_ofNat]; omega), BitVec.toNat_ofNat] at h
  have h0 : (0#32 : BitVec 32).toInt = 0 := by decide
  rw [h0] at h
  omega

/-- The sign correction leaves a remainder below 32 as it is, whatever would have been added. -/
theorem fixup_ofNat (k : ℕ) (hk : k < 32) (d : BitVec 32) :
    Scalar.select
        (IntOp.andi (IntOp.cmpi .ne (IntOp.cmpi .slt (BitVec.ofNat 32 k) 0#32) (IntOp.cmpi .slt 32#32 0#32))
          (IntOp.cmpi .ne (BitVec.ofNat 32 k) 0#32))
        (IntOp.addi (BitVec.ofNat 32 k) d) (BitVec.ofNat 32 k) = BitVec.ofNat 32 k := by
  have h1 : IntOp.cmpi .slt (32#32 : BitVec 32) 0#32 = 0#1 := by decide
  have h2 : IntOp.cmpi .ne (0#1 : BitVec 1) 0#1 = 0#1 := by decide
  have h3 : ∀ b : BitVec 1, IntOp.andi 0#1 b = 0#1 := by decide
  rw [slt_zero_ofNat k hk, h1, h2, h3, select_zero]

/-- Two natural numbers below 32 have the same word exactly when they are equal. -/
theorem ofNat_eq_iff (a b : ℕ) (ha : a < 32) (hb : b < 32) : BitVec.ofNat 32 a = BitVec.ofNat 32 b ↔ a = b := by
  constructor
  · intro h
    have := congrArg BitVec.toNat h
    rw [BitVec.toNat_ofNat, BitVec.toNat_ofNat] at this
    omega
  · rintro rfl; rfl

/-- The comparison of two such words, converted to a float, is the indicator of equality. -/
theorem uitofp_eq_ofNat (a b : ℕ) (ha : a < 32) (hb : b < 32) :
    (FloatOps.uitofp (F := Ideal) .f32 (IntOp.cmpi .eq (BitVec.ofNat 32 a) (BitVec.ofNat 32 b)) : EReal)
      = if a = b then 1 else 0 := by
  by_cases h : a = b
  · rw [if_pos h, IntOp.cmpi_eq.mpr ((ofNat_eq_iff a b ha hb).mpr h)]
    show (((1#1 : BitVec 1).toNat : ℝ) : EReal) = 1
    rw [show (1#1 : BitVec 1).toNat = 1 from rfl, Nat.cast_one, EReal.coe_one]
  · rw [if_neg h, eq_zero_of_ne_one (fun e => h ((ofNat_eq_iff a b ha hb).mp (IntOp.cmpi_eq.mp e)))]
    show (((0#1 : BitVec 1).toNat : ℝ) : EReal) = 0
    rw [show (0#1 : BitVec 1).toNat = 0 from rfl, Nat.cast_zero, EReal.coe_zero]

/-! ## The arrays read at an index -/

/-- The divisor the remainder routine ends up with is 32. -/
theorem dvs_apply : dvs ix0 = 32#32 := rfl

/-- The remainder of row `r`'s number, before the correction: the word of `r % 32`. -/
theorem rem0_apply (r : Fin 196608) : rem0 (ix1 r) = BitVec.ofNat 32 (r.val % 32) := by
  show IntOp.remsi .host (BitVec.ofNat 32 r.val) (broadcastInDim S196608 ![] bcast_S_S196608 dvs (ix1 r)) = _
  rw [broadcastInDim_scalar_apply, dvs_apply, remsi_ofNat r.val r.isLt]

/-- Row `r`'s node number within its graph is the word of `r % 32`. -/
theorem rLoc_apply (r : Fin 196608) : rLoc (ix1 r) = BitVec.ofNat 32 (r.val % 32) := by
  show Scalar.select
      (IntOp.andi
        (IntOp.cmpi .ne
          (IntOp.cmpi .slt (rem0 (ix1 r)) (broadcastInDim S196608 ![] bcast_S_S196608 (constantI S_ 32 0#32) (ix1 r)))
          (broadcastInDim S196608 ![] bcast_S_S196608 (cmpi .slt dvs (constantI S_ 32 0#32)) (ix1 r)))
        (IntOp.cmpi .ne (rem0 (ix1 r)) (broadcastInDim S196608 ![] bcast_S_S196608 (constantI S_ 32 0#32) (ix1 r))))
      (IntOp.addi (rem0 (ix1 r)) (broadcastInDim S196608 ![] bcast_S_S196608 dvs (ix1 r)))
      (rem0 (ix1 r)) = _
  rw [rem0_apply]
  simp only [broadcastInDim_scalar_apply]
  exact fixup_ofNat _ (Nat.mod_lt _ (by omega)) _

/-- The block selector at (r, c): one when `r % 32 = c`, zero otherwise. -/
theorem blkSel_apply (r : Fin 196608) (c' : Fin 32) :
    blkSel (ix2 r c') = if r.val % 32 = c'.val then (1 : EReal) else 0 := by
  have e1 : broadcastInDim S196608x32 ![0, 1] bcast_S196608x1_S196608x32_0_1
      (broadcastInDim S196608x1 ![0] bcast_S196608_S196608x1_0 rLoc) (ix2 r c') = rLoc (ix1 r) := by
    refine (broadcastInDim_apply _ _ _ _ (ix2 r (0 : Fin 1)) ?_).trans (broadcastInDim_apply _ _ _ _ (ix1 r) ?_)
    · intro a; match a with | ⟨0, _⟩ => rfl | ⟨1, _⟩ => rfl
    · intro a; match a with | ⟨0, _⟩ => rfl
  have e2 : broadcastInDim S196608x32 ![0, 1] bcast_S1x32_S196608x32_0_1
      (broadcastInDim S1x32 ![1] bcast_S32_S1x32_1 (iotaInDim S32 32 0)) (ix2 r c') = BitVec.ofNat 32 c'.val := by
    refine (broadcastInDim_apply _ _ _ _ (ix2 (0 : Fin 1) c') ?_).trans
      ((broadcastInDim_apply _ _ _ _ (ix1 c') ?_).trans rfl)
    · intro a; match a with | ⟨0, _⟩ => rfl | ⟨1, _⟩ => rfl
    · intro a; match a with | ⟨0, _⟩ => rfl
  show FloatOps.uitofp (F := Ideal) .f32 (IntOp.cmpi .eq (_ : BitVec 32) (_ : BitVec 32)) = _
  rw [e1, e2, rLoc_apply, uitofp_eq_ofNat _ _ (Nat.mod_lt _ (by omega)) c'.isLt]

/-- The exchanged table at row `32 g + i`, column `j`: what node `i` of graph `g` receives from node `j`. -/
theorem aT_apply (A : S6144x32x32.Idx → EReal) (g : Fin 6144) (i j : Fin 32) :
    aT A (ix2 ⟨32 * g.val + i.val, by omega⟩ j) = A (ix3 g j i) := by
  refine (shapeCast_apply _ _ _ (ix3 g i j) ?_).trans (transpose_ix3_021_apply _ _ g i j)
  rw [Shape.rowMajor_val_three, Shape.rowMajor_val_two]
  show (g.val * 32 + i.val) * 32 + j.val = (32 * g.val + i.val) * 32 + j.val
  omega

/-- The scatter matrix at row `32 g + i`, column `32 c + j`: the table's entry for the pair (j, i) of graph `g` on the
    block `c = i`, zero on the other blocks. -/
theorem wA_at (A : S6144x32x32.Idx → EReal) (g : Fin 6144) (i c' j : Fin 32) :
    wA A (ix2 ⟨32 * g.val + i.val, by omega⟩ ⟨32 * c'.val + j.val, by omega⟩)
      = (if i = c' then (1 : EReal) else 0) * A (ix3 g j i) := by
  have e1 : broadcastInDim S196608x32x32 ![0, 1, 2] bcast_S196608x32x1_S196608x32x32_0_1_2
      (broadcastInDim S196608x32x1 ![0, 1] bcast_S196608x32_S196608x32x1_0_1 blkSel)
      (ix3 (⟨32 * g.val + i.val, by omega⟩ : Fin 196608) c' j)
        = blkSel (ix2 ⟨32 * g.val + i.val, by omega⟩ c') := by
    refine (broadcastInDim_apply _ _ _ _ (ix3 (⟨32 * g.val + i.val, by omega⟩ : Fin 196608) c' (0 : Fin 1)) ?_).trans
      (broadcastInDim_apply _ _ _ _ (ix2 (⟨32 * g.val + i.val, by omega⟩ : Fin 196608) c') ?_)
    · intro a; match a with | ⟨0, _⟩ => rfl | ⟨1, _⟩ => rfl | ⟨2, _⟩ => rfl
    · intro a; match a with | ⟨0, _⟩ => rfl | ⟨1, _⟩ => rfl
  have e2 : broadcastInDim S196608x32x32 ![0, 1, 2] bcast_S196608x1x32_S196608x32x32_0_1_2
      (broadcastInDim S196608x1x32 ![0, 2] bcast_S196608x32_S196608x1x32_0_2 (aT A))
      (ix3 (⟨32 * g.val + i.val, by omega⟩ : Fin 196608) c' j)
        = aT A (ix2 ⟨32 * g.val + i.val, by omega⟩ j) := by
    refine (broadcastInDim_apply _ _ _ _ (ix3 (⟨32 * g.val + i.val, by omega⟩ : Fin 196608) (0 : Fin 1) j) ?_).trans
      (broadcastInDim_apply _ _ _ _ (ix2 (⟨32 * g.val + i.val, by omega⟩ : Fin 196608) j) ?_)
    · intro a; match a with | ⟨0, _⟩ => rfl | ⟨1, _⟩ => rfl | ⟨2, _⟩ => rfl
    · intro a; match a with | ⟨0, _⟩ => rfl | ⟨1, _⟩ => rfl
  refine (shapeCast_apply _ _ _ (ix3 (⟨32 * g.val + i.val, by omega⟩ : Fin 196608) c' j) ?_).trans ?_
  · rw [Shape.rowMajor_val_three, Shape.rowMajor_val_two]
    show ((32 * g.val + i.val) * 32 + c'.val) * 32 + j.val = (32 * g.val + i.val) * 1024 + (32 * c'.val + j.val)
    omega
  · show (_ : EReal) * (_ : EReal) = _
    rw [e1, e2, blkSel_apply, aT_apply]
    have hc : ((32 * g.val + i.val) % 32 = c'.val) = (i = c') :=
      propext ⟨fun h => Fin.ext (by omega), fun h => by subst h; omega⟩
    simp only [hc]

/-! ## The array the region finds -/

section Region

variable (m : (ℓ : Loc nD τ sig) → Buf (Elt Ideal) ℓ) (c : Dev nD)

/-- What the region finds in the scatter matrix's buffer is the host operations' term of the launched weight tables:
    every operation's result read at its own buffer, every other buffer left as it was. -/
theorem V_main_v18 : (Gen.V (F := Ideal) m c main_v18 : S196608x1024.Idx → EReal)
    = wA (m ((c : Thread nD τ).loc main_arg1) : S6144x32x32.Idx → EReal) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

end Region

/-- THE SCATTER MATRIX AT AN INDEX: row `32 g + i`, column `32 c' + j` of the array the region finds holds the weight
    `A[g, j, i]` of what node `i` of graph `g` receives from node `j` when `c' = i`, and zero on every other block. -/
theorem wA_apply (m : (ℓ : Loc Cert.ReferenceIdeal.nD Cert.ReferenceIdeal.τ Cert.ReferenceIdeal.sig) → Buf (Elt Ideal) ℓ)
    (c : Dev Cert.ReferenceIdeal.nD) (g : Fin 6144) (i c' j : Fin 32) :
    (Cert.ReferenceIdeal.Gen.V (F := Ideal) m c Cert.ReferenceIdeal.main_v18 : S196608x1024.Idx → EReal)
        (ix2 ⟨32 * g.val + i.val, by omega⟩ ⟨32 * c'.val + j.val, by omega⟩)
      = (if i = c' then (1 : EReal) else 0)
        * (m ((c : Thread Cert.ReferenceIdeal.nD Cert.ReferenceIdeal.τ).loc Cert.ReferenceIdeal.main_arg1) :
            S6144x32x32.Idx → EReal) (ix3 g j i) := by
  rw [V_main_v18]
  exact wA_at _ g i c' j

end Cert.ReferenceIdeal.Adj
-- ==== Proof.RefWhole.lean ====
/-
  From blocks to the whole array, the lines after the region, and the run, for the reference program.

  The reference's region visits one grid point per graph. At point t it reads block t of the node features (rows
  32·t … 32·t + 31 of the [196608, 128] array), block t of the scatter matrix, the weight windows whole, and writes
  block t of the result. A block's coordinate is always index × size + the coordinate inside the block, so each
  block read is the array read at row 32·t + i; the body's result at that point is then graph t's network on graph t's
  features and weight table, which is row 32·t + i of `Gnn.whole`. The result's blocks cover its array (row r lies in
  the block of point r / 32), so after the region the array is `Gnn.whole`. The lines after the region slice and
  regroup that array into the two returned results; the arguments are never written.
-/
import proofs.«173531_g2000002686688254_pallaspilot1_98_21_alg».proof.Proof.RefBody
import proofs.«173531_g2000002686688254_pallaspilot1_98_21_alg».proof.Proof.RefAdj
import proofs.«173531_g2000002686688254_pallaspilot1_98_21_alg».proof.Proof.SpecArgs
import proofs.«173531_g2000002686688254_pallaspilot1_98_21_alg».proof.Proof.Gen.ReferenceIdeal.Frame
import Idealize.ShloMosaic.Lib.Pipeline.Value
import Idealize.ShloMosaic.Lib.StableHlo.Run
import Idealize.ShloMosaic.Lib.ValueIdx

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)
open Idealize.ShloMosaic.ValueIdx
open Cert.ReferenceIdeal.Facts₀ Cert.ReferenceIdeal.Facts

variable (m : (ℓ : Loc nD τ sig) → Buf (Elt Ideal) ℓ) (ρ : Dev nD → PrngReg)

/-! ## The whole result at a row 32·g + i -/

/-- Row 32·g + i of the whole result is node i of graph g. -/
theorem whole_at (W : Gnn.Weights) (a1 : S6144x32x32.Idx → EReal) (x0 : S196608x128.Idx → EReal)
    (g : Fin 6144) (i : Fin 32) (d : Fin 128) :
    Gnn.whole W a1 x0 (ix2 (⟨32 * g.val + i.val, by omega⟩ : Fin 196608) d)
      = Gnn.out W (Gnn.adjOf a1 g) (Gnn.featOf x0 g) i d := by
  unfold Gnn.whole
  have hg : Gnn.graphOf (ix2 (⟨32 * g.val + i.val, by omega⟩ : Fin 196608) d) = g :=
    Fin.ext (by show (32 * g.val + i.val) / 32 = g.val; omega)
  have hi : (⟨((ix2 (⟨32 * g.val + i.val, by omega⟩ : Fin 196608) d : S196608x128.Idx) 0).val % 32,
      Nat.mod_lt _ (by decide)⟩ : Fin 32) = i :=
    Fin.ext (by show (32 * g.val + i.val) % 32 = i.val; omega)
  rw [hg, hi]

/-! ## The windows' blocks at a grid point -/

/-- The grid has one point per graph. -/
theorem N_eq : cfg0.N = 6144 := N_0

/-- The graph of grid point t. -/
abbrev graphAt (t : Fin cfg0.N) : Fin 6144 := ⟨t.val, lt_of_lt_of_eq t.isLt N_eq⟩

/-- The printed index maps, decided over the grid: the features', the scatter matrix's and the result's blocks are
    block t along the rows. -/
theorem row_index : ∀ t : Fin cfg0.N, win0_0.index t (0 : Fin 2) = t.val ∧ win0_1.index t (0 : Fin 2) = t.val
    ∧ win0_10.index t (0 : Fin 2) = t.val :=
  (by decide +kernel : ∀ t : Fin grid0.N, _)

/-- A block's coordinate is index × size + 1 × the coordinate inside the block: the result's block at point t. -/
theorem emb_out (t : Fin cfg0.N) (i : Fin 32) (d : Fin 128) :
    ((cfg0.win 10).blk t).view.emb (ix2 i d : S32x128.Idx)
      = (ix2 (⟨32 * (graphAt t).val + i.val, by have := (graphAt t).isLt; omega⟩ : Fin 196608) d : S196608x128.Idx) := by
  obtain ⟨-, -, e10⟩ := row_index t
  funext a; apply Fin.ext
  match a with
  | ⟨0, _⟩ => show win0_10.index t (0 : Fin 2) * 32 + 1 * i.val = 32 * t.val + i.val; omega
  | ⟨1, _⟩ => show 0 * 128 + 1 * d.val = d.val; omega

/-- The features' block at point t. -/
theorem emb_feat (t : Fin cfg0.N) (i : Fin 32) (k : Fin 128) :
    ((cfg0.win 0).blk t).view.emb (ix2 i k : S32x128.Idx)
      = (ix2 (⟨32 * (graphAt t).val + i.val, by have := (graphAt t).isLt; omega⟩ : Fin 196608) k : S196608x128.Idx) := by
  obtain ⟨e0, -, -⟩ := row_index t
  funext a; apply Fin.ext
  match a with
  | ⟨0, _⟩ => show win0_0.index t (0 : Fin 2) * 32 + 1 * i.val = 32 * t.val + i.val; omega
  | ⟨1, _⟩ => show 0 * 128 + 1 * k.val = k.val; omega

/-- The scatter matrix's block at point t. -/
theorem emb_scatter (t : Fin cfg0.N) (i : Fin 32) (κ : Fin 1024) :
    ((cfg0.win 1).blk t).view.emb (ix2 i κ : S32x1024.Idx)
      = (ix2 (⟨32 * (graphAt t).val + i.val, by have := (graphAt t).isLt; omega⟩ : Fin 196608) κ : S196608x1024.Idx) := by
  obtain ⟨-, e1, -⟩ := row_index t
  funext a; apply Fin.ext
  match a with
  | ⟨0, _⟩ => show win0_1.index t (0 : Fin 2) * 32 + 1 * i.val = 32 * t.val + i.val; omega
  | ⟨1, _⟩ => show 0 * 1024 + 1 * κ.val = κ.val; omega

/-- A window that is its whole array has one block, at index (0, 0): reading the block is reading the array. -/
theorem blk2 (c : Dev nD) (t : Fin cfg0.N) (k c' : Fin 128) :
    iblk m c 2 t (ix2 k c' : S128x128.Idx) = (V m c main_v20 : S128x128.Idx → EReal) (ix2 k c') := by
  show (V m c main_v20 : S128x128.Idx → EReal) (((cfg0.win 2).blk t).view.emb (ix2 k c' : S128x128.Idx)) = _
  refine congrArg (V m c main_v20 : S128x128.Idx → EReal) (funext fun a => Fin.ext ?_)
  match a with
  | ⟨0, _⟩ => show 0 * 128 + 1 * k.val = k.val; omega
  | ⟨1, _⟩ => show 0 * 128 + 1 * c'.val = c'.val; omega
theorem blk3 (c : Dev nD) (t : Fin cfg0.N) (k c' : Fin 128) :
    iblk m c 3 t (ix2 k c' : S128x128.Idx) = (V m c main_v22 : S128x128.Idx → EReal) (ix2 k c') := by
  show (V m c main_v22 : S128x128.Idx → EReal) (((cfg0.win 3).blk t).view.emb (ix2 k c' : S128x128.Idx)) = _
  refine congrArg (V m c main_v22 : S128x128.Idx → EReal) (funext fun a => Fin.ext ?_)
  match a with
  | ⟨0, _⟩ => show 0 * 128 + 1 * k.val = k.val; omega
  | ⟨1, _⟩ => show 0 * 128 + 1 * c'.val = c'.val; omega
theorem blk5 (c : Dev nD) (t : Fin cfg0.N) (k c' : Fin 128) :
    iblk m c 5 t (ix2 k c' : S128x128.Idx) = (V m c main_v24 : S128x128.Idx → EReal) (ix2 k c') := by
  show (V m c main_v24 : S128x128.Idx → EReal) (((cfg0.win 5).blk t).view.emb (ix2 k c' : S128x128.Idx)) = _
  refine congrArg (V m c main_v24 : S128x128.Idx → EReal) (funext fun a => Fin.ext ?_)
  match a with
  | ⟨0, _⟩ => show 0 * 128 + 1 * k.val = k.val; omega
  | ⟨1, _⟩ => show 0 * 128 + 1 * c'.val = c'.val; omega
theorem blk7 (c : Dev nD) (t : Fin cfg0.N) (k c' : Fin 128) :
    iblk m c 7 t (ix2 k c' : S128x128.Idx) = (V m c main_v26 : S128x128.Idx → EReal) (ix2 k c') := by
  show (V m c main_v26 : S128x128.Idx → EReal) (((cfg0.win 7).blk t).view.emb (ix2 k c' : S128x128.Idx)) = _
  refine congrArg (V m c main_v26 : S128x128.Idx → EReal) (funext fun a => Fin.ext ?_)
  match a with
  | ⟨0, _⟩ => show 0 * 128 + 1 * k.val = k.val; omega
  | ⟨1, _⟩ => show 0 * 128 + 1 * c'.val = c'.val; omega
theorem blk9 (c : Dev nD) (t : Fin cfg0.N) (k c' : Fin 128) :
    iblk m c 9 t (ix2 k c' : S128x128.Idx) = (V m c main_v31 : S128x128.Idx → EReal) (ix2 k c') := by
  show (V m c main_v31 : S128x128.Idx → EReal) (((cfg0.win 9).blk t).view.emb (ix2 k c' : S128x128.Idx)) = _
  refine congrArg (V m c main_v31 : S128x128.Idx → EReal) (funext fun a => Fin.ext ?_)
  match a with
  | ⟨0, _⟩ => show 0 * 128 + 1 * k.val = k.val; omega
  | ⟨1, _⟩ => show 0 * 128 + 1 * c'.val = c'.val; omega
theorem blk4 (c : Dev nD) (t : Fin cfg0.N) (c' : Fin 128) :
    iblk m c 4 t (ix2 (0 : Fin 1) c' : S1x128.Idx) = (V m c main_v23 : S1x128.Idx → EReal) (ix2 (0 : Fin 1) c') := by
  show (V m c main_v23 : S1x128.Idx → EReal) (((cfg0.win 4).blk t).view.emb (ix2 (0 : Fin 1) c' : S1x128.Idx)) = _
  refine congrArg (V m c main_v23 : S1x128.Idx → EReal) (funext fun a => Fin.ext ?_)
  match a with
  | ⟨0, _⟩ => show 0 * 1 + 1 * 0 = 0; omega
  | ⟨1, _⟩ => show 0 * 128 + 1 * c'.val = c'.val; omega
theorem blk6 (c : Dev nD) (t : Fin cfg0.N) (c' : Fin 128) :
    iblk m c 6 t (ix2 (0 : Fin 1) c' : S1x128.Idx) = (V m c main_v25 : S1x128.Idx → EReal) (ix2 (0 : Fin 1) c') := by
  show (V m c main_v25 : S1x128.Idx → EReal) (((cfg0.win 6).blk t).view.emb (ix2 (0 : Fin 1) c' : S1x128.Idx)) = _
  refine congrArg (V m c main_v25 : S1x128.Idx → EReal) (funext fun a => Fin.ext ?_)
  match a with
  | ⟨0, _⟩ => show 0 * 1 + 1 * 0 = 0; omega
  | ⟨1, _⟩ => show 0 * 128 + 1 * c'.val = c'.val; omega
theorem blk8 (c : Dev nD) (t : Fin cfg0.N) (c' : Fin 128) :
    iblk m c 8 t (ix2 (0 : Fin 1) c' : S1x128.Idx) = (V m c main_v27 : S1x128.Idx → EReal) (ix2 (0 : Fin 1) c') := by
  show (V m c main_v27 : S1x128.Idx → EReal) (((cfg0.win 8).blk t).view.emb (ix2 (0 : Fin 1) c' : S1x128.Idx)) = _
  refine congrArg (V m c main_v27 : S1x128.Idx → EReal) (funext fun a => Fin.ext ?_)
  match a with
  | ⟨0, _⟩ => show 0 * 1 + 1 * 0 = 0; omega
  | ⟨1, _⟩ => show 0 * 128 + 1 * c'.val = c'.val; omega

/-- The features' block at point t is graph t's features. -/
theorem blk0 (c : Dev nD) (t : Fin cfg0.N) (i : Fin 32) (k : Fin 128) :
    iblk m c 0 t (ix2 i k : S32x128.Idx)
      = Gnn.featOf (V m c main_v1 : S196608x128.Idx → EReal) (graphAt t) i k := by
  show (V m c main_v1 : S196608x128.Idx → EReal) (((cfg0.win 0).blk t).view.emb (ix2 i k : S32x128.Idx)) = _
  rw [emb_feat t i k]
  rfl

/-- The scatter matrix's block at point t spreads graph t's weight table: entry (i, 32·c' + j) is [i = c'] · A j i. -/
theorem blk1 (c : Dev nD) (t : Fin cfg0.N) (i c' j : Fin 32) :
    iblk m c 1 t (ix2 i (⟨32 * c'.val + j.val, by omega⟩ : Fin 1024) : S32x1024.Idx)
      = (if i = c' then (1 : EReal) else 0)
        * Gnn.adjOf (m ((c : Thread nD τ).loc main_arg1) : S6144x32x32.Idx → EReal) (graphAt t) j i := by
  show (V m c main_v18 : S196608x1024.Idx → EReal)
    (((cfg0.win 1).blk t).view.emb (ix2 i (⟨32 * c'.val + j.val, by omega⟩ : Fin 1024) : S32x1024.Idx)) = _
  rw [emb_scatter t i _]
  exact Adj.wA_apply m c (graphAt t) i c' j

/-! ## The weights the windows hold -/

/-- The weight windows hold the network's weights, each matrix as (input feature, output feature). -/
structure WindowsAre (m : (ℓ : Loc nD τ sig) → Buf (Elt Ideal) ℓ) (c : Dev nD) (W : Gnn.Weights) : Prop where
  wa : ∀ k c' : Fin 128, (V m c main_v20 : S128x128.Idx → EReal) (ix2 k c') = W.wa k c'
  wb : ∀ k c' : Fin 128, (V m c main_v22 : S128x128.Idx → EReal) (ix2 k c') = W.wb k c'
  b1 : ∀ c' : Fin 128, (V m c main_v23 : S1x128.Idx → EReal) (ix2 (0 : Fin 1) c') = W.b1 c'
  w2 : ∀ k d : Fin 128, (V m c main_v24 : S128x128.Idx → EReal) (ix2 k d) = W.w2 k d
  b2 : ∀ d : Fin 128, (V m c main_v25 : S1x128.Idx → EReal) (ix2 (0 : Fin 1) d) = W.b2 d
  ow1 : ∀ k c' : Fin 128, (V m c main_v26 : S128x128.Idx → EReal) (ix2 k c') = W.ow1 k c'
  ob1 : ∀ c' : Fin 128, (V m c main_v27 : S1x128.Idx → EReal) (ix2 (0 : Fin 1) c') = W.ob1 c'
  ow2 : ∀ k d : Fin 128, (V m c main_v31 : S128x128.Idx → EReal) (ix2 k d) = W.ow2 k d

/-! ## What a point writes back, the cover, and the whole array -/

/-- WHAT POINT t WRITES BACK is block t of the whole result: graph t's network on graph t's features and weight table. -/
theorem flushed_eq (c : Dev nD) (W : Gnn.Weights) (hW : WindowsAre m c W) (t : Fin cfg0.N) :
    (dats m 0 c).flushed 10 t = ((cfg0.win 10).blk t).view.read (Elt Ideal)
      (Gnn.whole W (m ((c : Thread nD τ).loc main_arg1) : S6144x32x32.Idx → EReal) (V m c main_v1 : S196608x128.Idx → EReal)) := by
  show (cfg0.win 10).cut (grid0.coords t) ((dats m 0 c).after 10 t) = _
  rw [after0_10]
  funext y
  obtain ⟨i, d, rfl⟩ : ∃ (i : Fin 32) (d : Fin 128), y = (ix2 i d : S32x128.Idx) := ⟨y 0, y 1, eq_ix2 y⟩
  show out0_10 (iblk m c 0 t) (iblk m c 1 t) (iblk m c 2 t) (iblk m c 3 t) (iblk m c 4 t) (iblk m c 5 t) (iblk m c 6 t)
      (iblk m c 7 t) (iblk m c 8 t) (iblk m c 9 t) (ix2 i d : S32x128.Idx)
    = Gnn.whole W (m ((c : Thread nD τ).loc main_arg1) : S6144x32x32.Idx → EReal) (V m c main_v1 : S196608x128.Idx → EReal)
        (((cfg0.win 10).blk t).view.emb (ix2 i d : S32x128.Idx))
  rw [emb_out t i d, whole_at]
  refine (Body.out_apply W (Gnn.adjOf (m ((c : Thread nD τ).loc main_arg1) : S6144x32x32.Idx → EReal) (graphAt t))
    (iblk m c 0 t) (iblk m c 1 t) (iblk m c 2 t) (iblk m c 3 t) (iblk m c 4 t) (iblk m c 5 t) (iblk m c 6 t)
    (iblk m c 7 t) (iblk m c 8 t) (iblk m c 9 t)
    (fun i c' j => blk1 m c t i c' j)
    (fun k c' => (blk2 m c t k c').trans (hW.wa k c'))
    (fun k c' => (blk3 m c t k c').trans (hW.wb k c'))
    (fun c' => (blk4 m c t c').trans (hW.b1 c'))
    (fun k d => (blk5 m c t k d).trans (hW.w2 k d))
    (fun d => (blk6 m c t d).trans (hW.b2 d))
    (fun k c' => (blk7 m c t k c').trans (hW.ow1 k c'))
    (fun c' => (blk8 m c t c').trans (hW.ob1 c'))
    (fun k d => (blk9 m c t k d).trans (hW.ow2 k d)) i d).trans ?_
  refine congrArg (fun x : Gnn.Feat => Gnn.out W _ x i d) ?_
  funext i' k
  exact blk0 m c t i' k

/-- An index of the array is in point t's block iff each coordinate is in the block's range on its axis. -/
theorem mem_blk (t : Fin cfg0.N) (i : S196608x128.Idx) :
    i ∈ ((cfg0.win 10).blk t).view.set ↔ ∀ a : Fin 2, win0_10.index t a * S32x128.size a ≤ (i a).val
      ∧ (i a).val < win0_10.index t a * S32x128.size a + S32x128.size a := by
  show i ∈ ((View.whole main_v32).slice (win0_10.rect t)).set ↔ _
  rw [View.set_slice_whole, Rect.mem_set_unit]
  exact Iff.rfl

/-- Every row of the result is in some point's block: row r in the block of point r / 32. -/
theorem cover (i : S196608x128.Idx) :
    ∃ t : Fin cfg0.N, (cfg0.win 10).flush t = true ∧ i ∈ ((cfg0.win 10).blk t).view.set := by
  have hi0 : (i 0).val < 196608 := (i 0).isLt
  have hi1 : (i 1).val < 128 := (i 1).isLt
  have ht : (i 0).val / 32 < cfg0.N := by rw [N_eq]; omega
  obtain ⟨-, -, e10⟩ := row_index ⟨(i 0).val / 32, ht⟩
  have e10' : win0_10.index ⟨(i 0).val / 32, ht⟩ (0 : Fin 2) = (i 0).val / 32 := e10
  refine ⟨⟨(i 0).val / 32, ht⟩, flush0_10 _, ?_⟩
  rw [mem_blk]
  intro a
  match a with
  | ⟨0, _⟩ =>
    show win0_10.index ⟨(i 0).val / 32, ht⟩ (0 : Fin 2) * 32 ≤ (i 0).val
      ∧ (i 0).val < win0_10.index ⟨(i 0).val / 32, ht⟩ (0 : Fin 2) * 32 + 32
    omega
  | ⟨1, _⟩ => show 0 * 128 ≤ (i 1).val ∧ (i 1).val < 0 * 128 + 128; omega

/-- THE RESULT ARRAY after the region: the whole network result of the weight tables and the node features. -/
theorem final (c : Dev nD) (W : Gnn.Weights) (hW : WindowsAre m c W) :
    (dats m 0 c).arrAt 10 cfg0.N
      = Gnn.whole W (m ((c : Thread nD τ).loc main_arg1) : S6144x32x32.Idx → EReal) (V m c main_v1 : S196608x128.Idx → EReal) :=
  (dats m 0 c).arrAt_eq_of_cover 10 _ (fun t _ => flushed_eq m c W hW t) cover

/-! ## The lines after the region -/

/-- The [6144, 32, 10] result the lines after the region leave: the first ten columns of the result array, by graph. -/
theorem tail_perNode (c : Dev nD) :
    Pipeline.afterTail₀ cfgs (dats m) 0 (V0 m) [hostOps1] c main_v34
      = Gnn.perNode ((dats m 0 c).arrAt 10 cfg0.N) Facts₀.slices_S196608x128_S196608x10_0_0 Facts₀.shapeCasts_S196608x10_S6144x32x10 := by
  unfold Pipeline.afterTail₀
  show StableHlo.after hostOps1 _ (Proc.devRef .tc main_v34) = _
  after_results
  rw [Pipeline.withArrays_arr spec0 launch0.win.arr_inj c _ _ 10]
  rfl

/-- The [6144, 10] result they leave: node 0 of every graph of that. -/
theorem tail_perGraph (c : Dev nD) :
    Pipeline.afterTail₀ cfgs (dats m) 0 (V0 m) [hostOps1] c main_v36
      = Gnn.perGraph (Gnn.perNode ((dats m 0 c).arrAt 10 cfg0.N) Facts₀.slices_S196608x128_S196608x10_0_0 Facts₀.shapeCasts_S196608x10_S6144x32x10)
          Facts₀.slices_S6144x32x10_S6144x1x10_0_0_0 Facts₀.shapeCasts_S6144x1x10_S6144x10 := by
  unfold Pipeline.afterTail₀
  show StableHlo.after hostOps1 _ (Proc.devRef .tc main_v36) = _
  after_results
  rw [Pipeline.withArrays_arr spec0 launch0.win.arr_inj c _ _ 10]
  rfl

/-! ## The run, read -/

/-- The reference program runs, returns the two results as functions of the whole network result, and leaves its
    arguments as launched. -/
theorem run (W : Dev nD → Gnn.Weights) (hW : ∀ c, WindowsAre m c (W c)) :
    θ_run (defs (F := Ideal)) (onTc (τ := τ) (main (F := Ideal))) ⟨m, fun _ => 0, ρ⟩ (fun r => ∀ c : Dev nD,
      r.2.mem ((c.tc : Thread nD τ).loc main_v36)
        = Gnn.perGraph (Gnn.perNode (Gnn.whole (W c) (m ((c.tc : Thread nD τ).loc main_arg1) : S6144x32x32.Idx → EReal)
              (V m c main_v1 : S196608x128.Idx → EReal)) Facts₀.slices_S196608x128_S196608x10_0_0 Facts₀.shapeCasts_S196608x10_S6144x32x10)
            Facts₀.slices_S6144x32x10_S6144x1x10_0_0_0 Facts₀.shapeCasts_S6144x1x10_S6144x10
      ∧ r.2.mem ((c.tc : Thread nD τ).loc main_v34)
        = Gnn.perNode (Gnn.whole (W c) (m ((c.tc : Thread nD τ).loc main_arg1) : S6144x32x32.Idx → EReal)
              (V m c main_v1 : S196608x128.Idx → EReal)) Facts₀.slices_S196608x128_S196608x10_0_0 Facts₀.shapeCasts_S196608x10_S6144x32x10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v36 (Pipeline.mem_restRefs_of main_v36 (by decide) (by decide))).trans
        ((tail_perGraph m c).trans (by rw [final m c (W c) (hW c)])),
      ((h c).2 main_v34 (Pipeline.mem_restRefs_of main_v34 (by decide) (by decide))).trans
        ((tail_perNode m c).trans (by rw [final m c (W c) (hW c)])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.ReferenceIdeal.Whole

end
-- ==== Proof.HostWeights.lean ====
/-
  The weight windows of both programs, read off their argument arrays.

  Before their one region both programs prepare the layers' weights on the host. Every weight matrix arrives as an
  [output, input] array and is transposed; the first message layer's [128, 256] weight is cut into its receiver half
  (columns 0 to 127) and its sender half (columns 128 to 255), which the kernel puts side by side again after
  transposing each and the reference keeps apart; the biases become one-row matrices; and the last layer's [10, 128]
  weight is transposed and written into the first 10 columns of a [128, 128] array of zeros (`pad`), by the same
  operation in both programs. The kernel then narrows its matrices to a 16-bit format, which over the extended reals
  changes nothing.

  Each theorem below reads one window at an index: the entry the region finds there is the stated entry of the
  launched argument array (or, for the padded weight, the whole window is `pad` of the launched array). The right-hand
  sides are the fields of `Gnn.ofArgs`.
-/
import proofs.«173531_g2000002686688254_pallaspilot1_98_21_alg».proof.Proof.Gen.KernelIdeal.Frame
import proofs.«173531_g2000002686688254_pallaspilot1_98_21_alg».proof.Proof.Gen.ReferenceIdeal.Frame
import proofs.«173531_g2000002686688254_pallaspilot1_98_21_alg».proof.Proof.SpecArgs
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.HostWeights

open Idealize.ShloMosaic Idealize.ShloMosaic.TcCoe
open Idealize.ShloMosaic.StableHlo
open Idealize.ShloMosaic.ValueIdx

/-- The last layer's weight as both programs pad it: the [10, 128] array transposed to [128, 10] and written into
    columns 0 to 9 of a [128, 128] array of zeros. -/
def pad (a9 : Cert.KernelIdeal.S10x128.Idx → EReal) : Cert.KernelIdeal.S128x128.Idx → EReal :=
  Host.scatter Cert.KernelIdeal.scatter_S128x128_S1_S128x10_01_n_1_0 (fun _ b => b)
    (broadcastInDim Cert.KernelIdeal.S128x128 ![] Cert.KernelIdeal.Facts₀.bcast_S_S128x128
      (constant (F := Ideal) Cert.KernelIdeal.S_ .f32 0x00000000#32))
    (broadcastInDim Cert.KernelIdeal.S1 ![] Cert.KernelIdeal.Facts₀.bcast_S_S1 (constantI Cert.KernelIdeal.S_ 32 0#32))
    (transpose Cert.KernelIdeal.S128x10 [1, 0] a9 Cert.KernelIdeal.Facts₀.transposes_S10x128_S128x10_1_0)

/-! ## The kernel's weight windows -/

section Kernel

open Cert.KernelIdeal Cert.KernelIdeal.Facts₀ Cert.KernelIdeal.Facts

variable (mK : (ℓ : Loc nD τ sig) → Buf (Elt Ideal) ℓ) (c : Dev nD)

/-- Rewrites the contents the kernel's region finds at a buffer into the host operations' term: each operation's result
    read at its own buffer, every other buffer left as it was. -/
local macro "kernel_window" : tactic =>
  `(tactic| (dsimp only [Cert.KernelIdeal.Gen.V, Cert.KernelIdeal.Gen.V0]
             simp only [Cert.KernelIdeal.Gen.hostOps0, Cert.KernelIdeal.Gen.hostOps0_1, List.flatten_cons,
               List.flatten_nil, List.append_nil, List.cons_append, List.nil_append]
             after_results_simp
             all_goals rfl))

/-- The fused first layer: the receiver half and the sender half of the [128, 256] weight, each cut out and transposed,
    side by side. -/
theorem k_w1_term : (Gen.V (F := Ideal) mK c main_v5 : S128x256.Idx → EReal)
    = concatenate S128x256 1
        [⟨S128x128, transpose S128x128 [1, 0]
            (extractStridedSlice S128x128 ![0, 0] (mK ((c : Thread nD τ).loc main_arg3) : S128x256.Idx → EReal)
              slices_S128x256_S128x128_0_0) transposes_S128x128_S128x128_1_0⟩,
         ⟨S128x128, transpose S128x128 [1, 0]
            (extractStridedSlice S128x128 ![0, 128] (mK ((c : Thread nD τ).loc main_arg3) : S128x256.Idx → EReal)
              slices_S128x256_S128x128_0_128) transposes_S128x128_S128x128_1_0⟩]
        concatenates_S128x128_S128x128_S128x256_d1 := by
  kernel_window

/-- Column `c` of the fused first layer, on the receiver half, holds row `c` of the weight's first 128 columns. -/
theorem k_w1a (k c' : Fin 128) :
    (Gen.V (F := Ideal) mK c main_v5 : S128x256.Idx → EReal) (ix2 k ⟨c'.val, by omega⟩)
      = (mK ((c : Thread nD τ).loc main_arg3) : S128x256.Idx → EReal) (ix2 c' ⟨k.val, by omega⟩) := by
  rw [k_w1_term]
  refine Eq.trans (concatenate_pair_apply_left (t := S128x256) (s₁ := S128x128) (s₂ := S128x128) _ _ _ _ _ rfl (ix2 k c') ?_) ?_
  · intro b; match b with | ⟨0, _⟩ => rfl | ⟨1, _⟩ => rfl
  · exact (transpose_ix2_apply _ _ k c').trans (slice2_axis1_apply 0 _ _ c' k _ (Nat.zero_add _).symm)

/-- On the sender half it holds row `c` of the weight's last 128 columns. -/
theorem k_w1b (k c' : Fin 128) :
    (Gen.V (F := Ideal) mK c main_v5 : S128x256.Idx → EReal) (ix2 k ⟨128 + c'.val, by omega⟩)
      = (mK ((c : Thread nD τ).loc main_arg3) : S128x256.Idx → EReal) (ix2 c' ⟨128 + k.val, by omega⟩) := by
  rw [k_w1_term]
  refine Eq.trans (concatenate_pair_apply_right (t := S128x256) (s₁ := S128x128) (s₂ := S128x128) _ _ _ _ _ rfl rfl (ix2 k c') ?_ ?_) ?_
  · intro b hb; match b, hb with | ⟨0, _⟩, _ => rfl | ⟨1, _⟩, hb => exact absurd rfl hb
  · show c'.val + 128 = 128 + c'.val
    omega
  · exact (transpose_ix2_apply _ _ k c').trans (slice2_axis1_eq 128 _ _ c' k)

/-- The second message layer's weight, transposed. -/
theorem k_w2 (k d : Fin 128) :
    (Gen.V (F := Ideal) mK c main_v7 : S128x128.Idx → EReal) (ix2 k d)
      = (mK ((c : Thread nD τ).loc main_arg5) : S128x128.Idx → EReal) (ix2 d k) := by
  have e : (Gen.V (F := Ideal) mK c main_v7 : S128x128.Idx → EReal)
      = transpose S128x128 [1, 0] (mK ((c : Thread nD τ).loc main_arg5) : S128x128.Idx → EReal)
          transposes_S128x128_S128x128_1_0 := by kernel_window
  rw [e]; exact transpose_ix2_apply _ _ k d

/-- The head's first weight, transposed. -/
theorem k_ow1 (k c' : Fin 128) :
    (Gen.V (F := Ideal) mK c main_v9 : S128x128.Idx → EReal) (ix2 k c')
      = (mK ((c : Thread nD τ).loc main_arg7) : S128x128.Idx → EReal) (ix2 c' k) := by
  have e : (Gen.V (F := Ideal) mK c main_v9 : S128x128.Idx → EReal)
      = transpose S128x128 [1, 0] (mK ((c : Thread nD τ).loc main_arg7) : S128x128.Idx → EReal)
          transposes_S128x128_S128x128_1_0 := by kernel_window
  rw [e]; exact transpose_ix2_apply _ _ k c'

/-- The head's second weight, padded. -/
theorem k_ow2 : (Gen.V (F := Ideal) mK c main_v14 : S128x128.Idx → EReal)
    = pad (mK ((c : Thread nD τ).loc main_arg9) : S10x128.Idx → EReal) := by
  kernel_window

/-- The first message layer's bias as a one-row matrix. -/
theorem k_b1 (c' : Fin 128) :
    (Gen.V (F := Ideal) mK c main_v15 : S1x128.Idx → EReal) (ix2 (0 : Fin 1) c')
      = (mK ((c : Thread nD τ).loc main_arg4) : S128.Idx → EReal) (ix1 c') := by
  have e : (Gen.V (F := Ideal) mK c main_v15 : S1x128.Idx → EReal)
      = shapeCast S1x128 (mK ((c : Thread nD τ).loc main_arg4) : S128.Idx → EReal) shapeCasts_S128_S1x128 := by
    kernel_window
  rw [e]; exact shapeCast_a_1a_apply _ _ 0 c'

/-- The second message layer's bias as a one-row matrix. -/
theorem k_b2 (c' : Fin 128) :
    (Gen.V (F := Ideal) mK c main_v16 : S1x128.Idx → EReal) (ix2 (0 : Fin 1) c')
      = (mK ((c : Thread nD τ).loc main_arg6) : S128.Idx → EReal) (ix1 c') := by
  have e : (Gen.V (F := Ideal) mK c main_v16 : S1x128.Idx → EReal)
      = shapeCast S1x128 (mK ((c : Thread nD τ).loc main_arg6) : S128.Idx → EReal) shapeCasts_S128_S1x128 := by
    kernel_window
  rw [e]; exact shapeCast_a_1a_apply _ _ 0 c'

/-- The head's bias as a one-row matrix. -/
theorem k_ob1 (c' : Fin 128) :
    (Gen.V (F := Ideal) mK c main_v17 : S1x128.Idx → EReal) (ix2 (0 : Fin 1) c')
      = (mK ((c : Thread nD τ).loc main_arg8) : S128.Idx → EReal) (ix1 c') := by
  have e : (Gen.V (F := Ideal) mK c main_v17 : S1x128.Idx → EReal)
      = shapeCast S1x128 (mK ((c : Thread nD τ).loc main_arg8) : S128.Idx → EReal) shapeCasts_S128_S1x128 := by
    kernel_window
  rw [e]; exact shapeCast_a_1a_apply _ _ 0 c'

end Kernel

/-! ## The reference's weight windows -/

section Reference

open Cert.ReferenceIdeal Cert.ReferenceIdeal.Facts₀ Cert.ReferenceIdeal.Facts

variable (mR : (ℓ : Loc nD τ sig) → Buf (Elt Ideal) ℓ) (c : Dev nD)

/-- Rewrites the contents the reference's region finds at a buffer into the host operations' term: each operation's
    result read at its own buffer, every other buffer left as it was. -/
local macro "reference_window" : tactic =>
  `(tactic| (dsimp only [Cert.ReferenceIdeal.Gen.V, Cert.ReferenceIdeal.Gen.V0]
             simp only [Cert.ReferenceIdeal.Gen.hostOps0, Cert.ReferenceIdeal.Gen.hostOps0_1,
               Cert.ReferenceIdeal.Gen.hostOps0_2, Cert.ReferenceIdeal.Gen.hostOps0_3, List.flatten_cons,
               List.flatten_nil, List.append_nil, List.cons_append, List.nil_append]
             after_results_simp
             all_goals rfl))

/-- The receiver half of the first layer: the weight's first 128 columns, transposed. -/
theorem r_w1a (k c' : Fin 128) :
    (Gen.V (F := Ideal) mR c main_v20 : S128x128.Idx → EReal) (ix2 k c')
      = (mR ((c : Thread nD τ).loc main_arg3) : S128x256.Idx → EReal) (ix2 c' ⟨k.val, by omega⟩) := by
  have e : (Gen.V (F := Ideal) mR c main_v20 : S128x128.Idx → EReal)
      = transpose S128x128 [1, 0]
          (extractStridedSlice S128x128 ![0, 0] (mR ((c : Thread nD τ).loc main_arg3) : S128x256.Idx → EReal)
            slices_S128x256_S128x128_0_0) transposes_S128x128_S128x128_1_0 := by reference_window
  rw [e]
  exact (transpose_ix2_apply _ _ k c').trans (slice2_axis1_apply 0 _ _ c' k _ (Nat.zero_add _).symm)

/-- The sender half of the first layer: the weight's last 128 columns, transposed. -/
theorem r_w1b (k c' : Fin 128) :
    (Gen.V (F := Ideal) mR c main_v22 : S128x128.Idx → EReal) (ix2 k c')
      = (mR ((c : Thread nD τ).loc main_arg3) : S128x256.Idx → EReal) (ix2 c' ⟨128 + k.val, by omega⟩) := by
  have e : (Gen.V (F := Ideal) mR c main_v22 : S128x128.Idx → EReal)
      = transpose S128x128 [1, 0]
          (extractStridedSlice S128x128 ![0, 128] (mR ((c : Thread nD τ).loc main_arg3) : S128x256.Idx → EReal)
            slices_S128x256_S128x128_0_128) transposes_S128x128_S128x128_1_0 := by reference_window
  rw [e]
  exact (transpose_ix2_apply _ _ k c').trans (slice2_axis1_eq 128 _ _ c' k)

/-- The first message layer's bias as a one-row matrix. -/
theorem r_b1 (c' : Fin 128) :
    (Gen.V (F := Ideal) mR c main_v23 : S1x128.Idx → EReal) (ix2 (0 : Fin 1) c')
      = (mR ((c : Thread nD τ).loc main_arg4) : S128.Idx → EReal) (ix1 c') := by
  have e : (Gen.V (F := Ideal) mR c main_v23 : S1x128.Idx → EReal)
      = shapeCast S1x128 (mR ((c : Thread nD τ).loc main_arg4) : S128.Idx → EReal) shapeCasts_S128_S1x128 := by
    reference_window
  rw [e]; exact shapeCast_a_1a_apply _ _ 0 c'

/-- The second message layer's weight, transposed. -/
theorem r_w2 (k d : Fin 128) :
    (Gen.V (F := Ideal) mR c main_v24 : S128x128.Idx → EReal) (ix2 k d)
      = (mR ((c : Thread nD τ).loc main_arg5) : S128x128.Idx → EReal) (ix2 d k) := by
  have e : (Gen.V (F := Ideal) mR c main_v24 : S128x128.Idx → EReal)
      = transpose S128x128 [1, 0] (mR ((c : Thread nD τ).loc main_arg5) : S128x128.Idx → EReal)
          transposes_S128x128_S128x128_1_0 := by reference_window
  rw [e]; exact transpose_ix2_apply _ _ k d

/-- The second message layer's bias as a one-row matrix. -/
theorem r_b2 (c' : Fin 128) :
    (Gen.V (F := Ideal) mR c main_v25 : S1x128.Idx → EReal) (ix2 (0 : Fin 1) c')
      = (mR ((c : Thread nD τ).loc main_arg6) : S128.Idx → EReal) (ix1 c') := by
  have e : (Gen.V (F := Ideal) mR c main_v25 : S1x128.Idx → EReal)
      = shapeCast S1x128 (mR ((c : Thread nD τ).loc main_arg6) : S128.Idx → EReal) shapeCasts_S128_S1x128 := by
    reference_window
  rw [e]; exact shapeCast_a_1a_apply _ _ 0 c'

/-- The head's first weight, transposed. -/
theorem r_ow1 (k c' : Fin 128) :
    (Gen.V (F := Ideal) mR c main_v26 : S128x128.Idx → EReal) (ix2 k c')
      = (mR ((c : Thread nD τ).loc main_arg7) : S128x128.Idx → EReal) (ix2 c' k) := by
  have e : (Gen.V (F := Ideal) mR c main_v26 : S128x128.Idx → EReal)
      = transpose S128x128 [1, 0] (mR ((c : Thread nD τ).loc main_arg7) : S128x128.Idx → EReal)
          transposes_S128x128_S128x128_1_0 := by reference_window
  rw [e]; exact transpose_ix2_apply _ _ k c'

/-- The head's bias as a one-row matrix. -/
theorem r_ob1 (c' : Fin 128) :
    (Gen.V (F := Ideal) mR c main_v27 : S1x128.Idx → EReal) (ix2 (0 : Fin 1) c')
      = (mR ((c : Thread nD τ).loc main_arg8) : S128.Idx → EReal) (ix1 c') := by
  have e : (Gen.V (F := Ideal) mR c main_v27 : S1x128.Idx → EReal)
      = shapeCast S1x128 (mR ((c : Thread nD τ).loc main_arg8) : S128.Idx → EReal) shapeCasts_S128_S1x128 := by
    reference_window
  rw [e]; exact shapeCast_a_1a_apply _ _ 0 c'

/-- The head's second weight, padded: the same padding as the kernel's. -/
theorem r_ow2 : (Gen.V (F := Ideal) mR c main_v31 : S128x128.Idx → EReal)
    = pad (mR ((c : Thread nD τ).loc main_arg9) : S10x128.Idx → EReal) := by
  reference_window

end Reference

end Cert.HostWeights
-- ==== Proof.Embed.lean ====
/-
  THE EMBEDDING LOOKUP, as one function of the token array and the embedding table.

  Both programs start by looking every node's token up in a table of 14 rows of 128 features. One does it on the
  token array flattened to 196608 words, the other on the array of 6144 graphs by 32 nodes and flattens the result; row
  `r = 32 g + i` of the result is node `i` of graph `g` either way. Word by word the two are the same: with `t` the token
  read as a signed 32-bit word and `w = if t < 0 then t + 14 else t`, the row of the result is row `w` of the table (read
  signed and clamped into `[0, 13]`, as a gather clamps its start indices) when `0 ≤ w ≤ 13`, and the value of the bit
  pattern `0x7FC00000` in every feature otherwise.

  `X0 tok emb` is that array, `X0_apply` reads it at row `32 g + i`; `kernel_x0` and `reference_x0` say each program's
  array of embedded node features, as the region finds it, is `X0` of the launched token array and table. The road: each
  program's operations composed into one term (`embK`, `embR`), each operation read at an index (the two gathers, the
  reduction by `and` over the start indices' unit axis, the broadcasts, the two reshapes), and the word functions that
  come out (`wrap`, `inRange`, `pick`) are literally the same on both sides.
-/
import proofs.«173531_g2000002686688254_pallaspilot1_98_21_alg».proof.Proof.Gen.KernelIdeal.Frame
import proofs.«173531_g2000002686688254_pallaspilot1_98_21_alg».proof.Proof.Gen.ReferenceIdeal.Frame
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Reduce

noncomputable section

namespace Cert.Embed

open Idealize.ShloMosaic Idealize.ShloMosaic.TcCoe Idealize.ShloMosaic.ValueIdx

variable {α : Type}

/-! ## The two gathers read at an index -/

/-- The flat gather at row `r`, feature `k`: the table's row named by the start index at `(r, 0)`, read signed and
    clamped into `[0, 13]`, at feature `k`. -/
theorem gatherK_apply (x : KernelIdeal.S14x128.Idx → α) (idx : IVec KernelIdeal.S196608x1 32) (r : Fin 196608) (k : Fin 128) :
    Host.gather KernelIdeal.gather_S14x128_S196608x1_S196608x128_1_0_n_n_0_1_1128 x idx (ix2 r k)
      = x (ix2 ⟨min (idx (ix2 r (0 : Fin 1))).toInt.toNat 13, by omega⟩ k) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ KernelIdeal.gather_S14x128_S196608x1_S196608x128_1_0_n_n_0_1_1128.startIndexMap from List.mem_singleton.mpr rfl)]
    have hsi : KernelIdeal.gather_S14x128_S196608x1_S196608x128_1_0_n_n_0_1_1128.siIdx (ix2 r k)
        ⟨List.idxOf (0 : Fin 2) KernelIdeal.gather_S14x128_S196608x1_S196608x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ KernelIdeal.gather_S14x128_S196608x1_S196608x128_1_0_n_n_0_1_1128.startIndexMap by decide)]
    unfold GatherDims.offCoord
    rw [dif_pos (show (1 : Fin 2) ∈ KernelIdeal.gather_S14x128_S196608x1_S196608x128_1_0_n_n_0_1_1128.sKept by decide)]
    simp only [Nat.zero_add]
    have e : ∀ (z : Fin 2), z = 1 → ((ix2 r k : KernelIdeal.S196608x128.Idx) z).val = k.val := by
      intro z hz; subst hz; rfl
    exact e _ (by decide)

/-- The per-graph gather at graph `g`, node `i`, feature `k`: the table's row named by the start index at `(g, i, 0)`,
    read signed and clamped into `[0, 13]`, at feature `k`. -/
theorem gatherR_apply (x : ReferenceIdeal.S14x128.Idx → α) (idx : IVec ReferenceIdeal.S6144x32x1 32) (g : Fin 6144) (i : Fin 32) (k : Fin 128) :
    Host.gather ReferenceIdeal.gather_S14x128_S6144x32x1_S6144x32x128_2_0_n_n_0_2_1128 x idx (ix3 g i k)
      = x (ix2 ⟨min (idx (ix3 g i (0 : Fin 1))).toInt.toNat 13, by omega⟩ k) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ReferenceIdeal.gather_S14x128_S6144x32x1_S6144x32x128_2_0_n_n_0_2_1128.startIndexMap from List.mem_singleton.mpr rfl)]
    have hsi : ReferenceIdeal.gather_S14x128_S6144x32x1_S6144x32x128_2_0_n_n_0_2_1128.siIdx (ix3 g i k)
        ⟨List.idxOf (0 : Fin 2) ReferenceIdeal.gather_S14x128_S6144x32x1_S6144x32x128_2_0_n_n_0_2_1128.startIndexMap,
          List.idxOf_lt_length_iff.2 (List.mem_singleton.mpr rfl)⟩ = ix3 g i (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ ReferenceIdeal.gather_S14x128_S6144x32x1_S6144x32x128_2_0_n_n_0_2_1128.startIndexMap by decide)]
    unfold GatherDims.offCoord
    rw [dif_pos (show (1 : Fin 2) ∈ ReferenceIdeal.gather_S14x128_S6144x32x1_S6144x32x128_2_0_n_n_0_2_1128.sKept by decide)]
    simp only [Nat.zero_add]
    have e : ∀ (z : Fin 3), z = 2 → ((ix3 g i k : ReferenceIdeal.S6144x32x128.Idx) z).val = k.val := by
      intro z hz; subst hz; rfl
    exact e _ (by decide)

/-! ## Broadcasts along new trailing axes, read at an index -/

theorem bcast_col_apply (x : (⟨1, ![196608]⟩ : Shape).Idx → α)
    (h : (⟨1, ![196608]⟩ : Shape).BroadcastsInDim ⟨2, ![196608, 1]⟩ ![0]) (r : Fin 196608) (u : Fin 1) :
    broadcastInDim ⟨2, ![196608, 1]⟩ ![0] h x (ix2 r u) = x (ix1 r) :=
  broadcastInDim_apply _ h x _ _ fun a => match a with
    | ⟨0, _⟩ => (if_neg (show ¬ ((196608 : ℕ) = 1) by decide)).symm

theorem bcast_rows_apply (x : (⟨1, ![196608]⟩ : Shape).Idx → α)
    (h : (⟨1, ![196608]⟩ : Shape).BroadcastsInDim ⟨2, ![196608, 128]⟩ ![0]) (r : Fin 196608) (k : Fin 128) :
    broadcastInDim ⟨2, ![196608, 128]⟩ ![0] h x (ix2 r k) = x (ix1 r) :=
  broadcastInDim_apply _ h x _ _ fun a => match a with
    | ⟨0, _⟩ => (if_neg (show ¬ ((196608 : ℕ) = 1) by decide)).symm

theorem bcast3_col_apply (x : (⟨2, ![6144, 32]⟩ : Shape).Idx → α)
    (h : (⟨2, ![6144, 32]⟩ : Shape).BroadcastsInDim ⟨3, ![6144, 32, 1]⟩ ![0, 1]) (g : Fin 6144) (i : Fin 32) (u : Fin 1) :
    broadcastInDim ⟨3, ![6144, 32, 1]⟩ ![0, 1] h x (ix3 g i u) = x (ix2 g i) :=
  broadcastInDim_apply _ h x _ _ fun a => match a with
    | ⟨0, _⟩ => (if_neg (show ¬ ((6144 : ℕ) = 1) by decide)).symm
    | ⟨1, _⟩ => (if_neg (show ¬ ((32 : ℕ) = 1) by decide)).symm

theorem bcast3_feat_apply (x : (⟨2, ![6144, 32]⟩ : Shape).Idx → α)
    (h : (⟨2, ![6144, 32]⟩ : Shape).BroadcastsInDim ⟨3, ![6144, 32, 128]⟩ ![0, 1]) (g : Fin 6144) (i : Fin 32) (k : Fin 128) :
    broadcastInDim ⟨3, ![6144, 32, 128]⟩ ![0, 1] h x (ix3 g i k) = x (ix2 g i) :=
  broadcastInDim_apply _ h x _ _ fun a => match a with
    | ⟨0, _⟩ => (if_neg (show ¬ ((6144 : ℕ) = 1) by decide)).symm
    | ⟨1, _⟩ => (if_neg (show ¬ ((32 : ℕ) = 1) by decide)).symm

/-! ## A reduction by `and` over a trailing unit axis -/

/-- A fold over the one coordinate of a unit axis is one application of the operation. -/
theorem fold_fin_one {β : Type} (op : β → β → β) [Std.Commutative op] [Std.Associative op] (b : β) {n : ℕ} (hn : n = 1)
    (f : Fin n → β) : (Finset.univ : Finset (Fin n)).fold op b f = op (f ⟨0, by omega⟩) b := by
  subst hn
  rw [Finset.univ_unique, Finset.fold_singleton]
  rfl

theorem reduceK_apply (x : IVec ⟨2, ![196608, 1]⟩ 1) (init : (⟨0, ![]⟩ : Shape).Idx → BitVec 1)
    (h' : (⟨2, ![196608, 1]⟩ : Shape).ReducesTo [1] ⟨1, ![196608]⟩) (hu : 0 < (⟨0, ![]⟩ : Shape).numel) (r : Fin 196608) :
    Host.reduce IntOp.andi x init h' hu (ix1 r) = IntOp.andi (x (ix2 r (0 : Fin 1))) (init (Shape.Idx.first hu)) := by
  have h : (⟨2, ![196608, 1]⟩ : Shape).Reduces [1] ⟨1, ![196608]⟩ := by decide
  rw [Host.reduce_eq_fold_single IntOp.andi x init h' h hu (ix1 r)]
  refine (fold_fin_one IntOp.andi _ (rfl : (⟨2, ![196608, 1]⟩ : Shape).size 1 = 1) _).trans ?_
  have e : h.lift (ix1 r) ⟨0, by decide⟩ = ix2 r (0 : Fin 1) := by
    funext c
    apply Fin.ext
    rw [h.lift_val]
    match c with
    | ⟨0, _⟩ => simp [Shape.Reduces.liftVal]
    | ⟨1, _⟩ => simp [Shape.Reduces.liftVal]
  show IntOp.andi (x (h.lift (ix1 r) ⟨0, _⟩)) _ = _
  rw [e]

theorem reduceR_apply (x : IVec ⟨3, ![6144, 32, 1]⟩ 1) (init : (⟨0, ![]⟩ : Shape).Idx → BitVec 1)
    (h' : (⟨3, ![6144, 32, 1]⟩ : Shape).ReducesTo [2] ⟨2, ![6144, 32]⟩) (hu : 0 < (⟨0, ![]⟩ : Shape).numel) (g : Fin 6144) (i : Fin 32) :
    Host.reduce IntOp.andi x init h' hu (ix2 g i) = IntOp.andi (x (ix3 g i (0 : Fin 1))) (init (Shape.Idx.first hu)) := by
  have h : (⟨3, ![6144, 32, 1]⟩ : Shape).Reduces [2] ⟨2, ![6144, 32]⟩ := by decide
  rw [Host.reduce_eq_fold_single IntOp.andi x init h' h hu (ix2 g i)]
  refine (fold_fin_one IntOp.andi _ (rfl : (⟨3, ![6144, 32, 1]⟩ : Shape).size 2 = 1) _).trans ?_
  have e : h.lift (ix2 g i) ⟨0, by decide⟩ = ix3 g i (0 : Fin 1) := by
    funext c
    apply Fin.ext
    rw [h.lift_val]
    match c with
    | ⟨0, _⟩ => simp [Shape.Reduces.liftVal]
    | ⟨1, _⟩ => simp [Shape.Reduces.liftVal]
    | ⟨2, _⟩ => simp [Shape.Reduces.liftVal]
  show IntOp.andi (x (h.lift (ix2 g i) ⟨0, _⟩)) _ = _
  rw [e]

/-! ## The two reshapes -/

theorem castTok_apply (x : (⟨2, ![6144, 32]⟩ : Shape).Idx → α) (h : (⟨2, ![6144, 32]⟩ : Shape).ShapeCasts ⟨1, ![196608]⟩)
    (g : Fin 6144) (i : Fin 32) (r : Fin 196608) (hr : r.val = 32 * g.val + i.val) :
    shapeCast ⟨1, ![196608]⟩ x h (ix1 r) = x (ix2 g i) :=
  shapeCast_apply x h _ _ (by
    rw [Shape.rowMajor_val_two, Shape.rowMajor_val_one]
    show g.val * 32 + i.val = r.val
    omega)

theorem castFeat_apply (x : (⟨3, ![6144, 32, 128]⟩ : Shape).Idx → α) (h : (⟨3, ![6144, 32, 128]⟩ : Shape).ShapeCasts ⟨2, ![196608, 128]⟩)
    (g : Fin 6144) (i : Fin 32) (k : Fin 128) (r : Fin 196608) (hr : r.val = 32 * g.val + i.val) :
    shapeCast ⟨2, ![196608, 128]⟩ x h (ix2 r k) = x (ix3 g i k) :=
  shapeCast_apply x h _ _ (by
    rw [Shape.rowMajor_val_three, Shape.rowMajor_val_two]
    show (g.val * 32 + i.val) * 128 + k.val = r.val * 128 + k.val
    rw [hr]; omega)

/-! ## The lookup, one token word at a time -/

/-- A negative token word wrapped around the table's 14 rows. -/
def wrap (t : BitVec 32) : BitVec 32 := Scalar.select (IntOp.cmpi .slt t 0#32) (IntOp.addi t 14#32) t

/-- Whether a wrapped word names a row of the table, `0 ≤ w ≤ 13` signed, as one bit. -/
def inRange (w : BitVec 32) : BitVec 1 :=
  IntOp.andi (IntOp.andi (IntOp.cmpi .sge w 0#32) (IntOp.cmpi .sle w 13#32)) 1#1

/-- Feature `k` of the table's row named by a wrapped word `w` (read signed and clamped into `[0, 13]`) when `w` is in
    range, the value of the bit pattern `0x7FC00000` otherwise. -/
def pick (emb : KernelIdeal.S14x128.Idx → EReal) (w : BitVec 32) (k : Fin 128) : EReal :=
  Scalar.select (inRange w) (emb (ix2 ⟨min w.toInt.toNat 13, by omega⟩ k)) (Ideal.ofBits .f32 0x7FC00000#32)

/-- Feature `k` of the embedding of token word `t`. -/
def lookup (emb : KernelIdeal.S14x128.Idx → EReal) (t : BitVec 32) (k : Fin 128) : EReal := pick emb (wrap t) k

/-- THE EMBEDDED NODE FEATURES: row `r = 32 g + i` is the embedding of the token of node `i` of graph `g`. -/
def X0 (tok : KernelIdeal.S6144x32.Idx → BitVec 32) (emb : KernelIdeal.S14x128.Idx → EReal) : KernelIdeal.S196608x128.Idx → EReal :=
  fun y => lookup emb (tok (ix2 ⟨(y 0).val / 32, by have := idx2_lt0 y; omega⟩ ⟨(y 0).val % 32, Nat.mod_lt _ (by decide)⟩)) (y 1)

theorem X0_apply (tok : KernelIdeal.S6144x32.Idx → BitVec 32) (emb : KernelIdeal.S14x128.Idx → EReal) (g : Fin 6144) (i : Fin 32)
    (r : Fin 196608) (hr : r.val = 32 * g.val + i.val) (k : Fin 128) :
    X0 tok emb (ix2 r k) = lookup emb (tok (ix2 g i)) k := by
  have hg : (⟨r.val / 32, by omega⟩ : Fin 6144) = g := Fin.ext (by show r.val / 32 = g.val; omega)
  have hi : (⟨r.val % 32, Nat.mod_lt _ (by decide)⟩ : Fin 32) = i := Fin.ext (by show r.val % 32 = i.val; omega)
  show lookup emb (tok (ix2 ⟨r.val / 32, _⟩ ⟨r.val % 32, _⟩)) k = _
  rw [hg, hi]

/-! ## The flat lookup -/

/-- The flat program's start indices: the token words, flattened, wrapped, as a column. -/
def idxK (tok : IVec KernelIdeal.S6144x32 32) : IVec KernelIdeal.S196608x1 32 :=
  broadcastInDim KernelIdeal.S196608x1 ![0] KernelIdeal.Gen.bcast_S196608_S196608x1_0
    (select
      (cmpi .slt (shapeCast KernelIdeal.S196608 tok KernelIdeal.Gen.shapeCasts_S6144x32_S196608)
        (broadcastInDim KernelIdeal.S196608 ![] KernelIdeal.Gen.bcast_S_S196608 (constantI KernelIdeal.S_ 32 0#32)))
      (addi (shapeCast KernelIdeal.S196608 tok KernelIdeal.Gen.shapeCasts_S6144x32_S196608)
        (broadcastInDim KernelIdeal.S196608 ![] KernelIdeal.Gen.bcast_S_S196608 (constantI KernelIdeal.S_ 32 14#32)))
      (shapeCast KernelIdeal.S196608 tok KernelIdeal.Gen.shapeCasts_S6144x32_S196608))

/-- The flat program's lookup, operation by operation. -/
def embK (tok : IVec KernelIdeal.S6144x32 32) (emb : FVec Ideal KernelIdeal.S14x128 .f32) : FVec Ideal KernelIdeal.S196608x128 .f32 :=
  select
    (broadcastInDim KernelIdeal.S196608x128 ![0] KernelIdeal.Gen.bcast_S196608_S196608x128_0
      (Host.reduce IntOp.andi
        (andi
          (cmpi .sge (idxK tok) (broadcastInDim KernelIdeal.S196608x1 ![] KernelIdeal.Gen.bcast_S_S196608x1 (constantI KernelIdeal.S_ 32 0#32)))
          (cmpi .sle (idxK tok) (broadcastInDim KernelIdeal.S196608x1 ![0, 1] KernelIdeal.Gen.bcast_S1x1_S196608x1_0_1
            (broadcastInDim KernelIdeal.S1x1 ![1] KernelIdeal.Gen.bcast_S1_S1x1_1 (constantI KernelIdeal.S1 32 13#32)))))
        (constantI KernelIdeal.S_ 1 1#1) KernelIdeal.Gen.reducesTo_S196608x1_S196608_d1 KernelIdeal.Gen.h_S_))
    (Host.gather KernelIdeal.gather_S14x128_S196608x1_S196608x128_1_0_n_n_0_1_1128 emb (idxK tok))
    (broadcastInDim KernelIdeal.S196608x128 ![] KernelIdeal.Gen.bcast_S_S196608x128 (constant KernelIdeal.S_ .f32 0x7FC00000#32))

theorem idxK_apply (tok : IVec KernelIdeal.S6144x32 32) (g : Fin 6144) (i : Fin 32) (r : Fin 196608)
    (hr : r.val = 32 * g.val + i.val) (u : Fin 1) : idxK tok (ix2 r u) = wrap (tok (ix2 g i)) := by
  unfold idxK
  rw [bcast_col_apply, select_apply]
  show Scalar.select (IntOp.cmpi .slt (shapeCast _ tok _ (ix1 r)) 0#32) (IntOp.addi (shapeCast _ tok _ (ix1 r)) 14#32)
    (shapeCast _ tok _ (ix1 r)) = _
  rw [castTok_apply tok _ g i r hr]
  rfl

theorem embK_eq (tok : IVec KernelIdeal.S6144x32 32) (emb : FVec Ideal KernelIdeal.S14x128 .f32) : embK tok emb = X0 tok emb := by
  funext y
  obtain ⟨r, k, rfl⟩ : ∃ r k, y = ix2 r k := ⟨y 0, y 1, eq_ix2 y⟩
  have hr : r.val = 32 * (⟨r.val / 32, by omega⟩ : Fin 6144).val + (⟨r.val % 32, Nat.mod_lt _ (by decide)⟩ : Fin 32).val := by
    show r.val = 32 * (r.val / 32) + r.val % 32
    omega
  rw [X0_apply tok emb _ _ r hr k]
  unfold embK
  rw [select_apply, bcast_rows_apply, reduceK_apply, gatherK_apply]
  show pick emb (idxK tok (ix2 r 0)) k = _
  rw [idxK_apply tok _ _ r hr 0]
  rfl

/-! ## The per-graph lookup -/

/-- The per-graph program's start indices: the token words, wrapped, with a trailing unit axis. -/
def idxR (tok : IVec ReferenceIdeal.S6144x32 32) : IVec ReferenceIdeal.S6144x32x1 32 :=
  broadcastInDim ReferenceIdeal.S6144x32x1 ![0, 1] ReferenceIdeal.Gen.bcast_S6144x32_S6144x32x1_0_1
    (select
      (cmpi .slt tok (broadcastInDim ReferenceIdeal.S6144x32 ![] ReferenceIdeal.Gen.bcast_S_S6144x32 (constantI ReferenceIdeal.S_ 32 0#32)))
      (addi tok (broadcastInDim ReferenceIdeal.S6144x32 ![] ReferenceIdeal.Gen.bcast_S_S6144x32 (constantI ReferenceIdeal.S_ 32 14#32)))
      tok)

/-- The per-graph program's lookup, operation by operation, reshaped to rows. -/
def embR (tok : IVec ReferenceIdeal.S6144x32 32) (emb : FVec Ideal ReferenceIdeal.S14x128 .f32) : FVec Ideal ReferenceIdeal.S196608x128 .f32 :=
  shapeCast ReferenceIdeal.S196608x128
    (select
      (broadcastInDim ReferenceIdeal.S6144x32x128 ![0, 1] ReferenceIdeal.Gen.bcast_S6144x32_S6144x32x128_0_1
        (Host.reduce IntOp.andi
          (andi
            (cmpi .sge (idxR tok) (broadcastInDim ReferenceIdeal.S6144x32x1 ![] ReferenceIdeal.Gen.bcast_S_S6144x32x1 (constantI ReferenceIdeal.S_ 32 0#32)))
            (cmpi .sle (idxR tok) (broadcastInDim ReferenceIdeal.S6144x32x1 ![0, 1, 2] ReferenceIdeal.Gen.bcast_S1x1x1_S6144x32x1_0_1_2
              (broadcastInDim ReferenceIdeal.S1x1x1 ![2] ReferenceIdeal.Gen.bcast_S1_S1x1x1_2 (constantI ReferenceIdeal.S1 32 13#32)))))
          (constantI ReferenceIdeal.S_ 1 1#1) ReferenceIdeal.Gen.reducesTo_S6144x32x1_S6144x32_d2 ReferenceIdeal.Gen.h_S_))
      (Host.gather ReferenceIdeal.gather_S14x128_S6144x32x1_S6144x32x128_2_0_n_n_0_2_1128 emb (idxR tok))
      (broadcastInDim ReferenceIdeal.S6144x32x128 ![] ReferenceIdeal.Gen.bcast_S_S6144x32x128 (constant ReferenceIdeal.S_ .f32 0x7FC00000#32)))
    ReferenceIdeal.Gen.shapeCasts_S6144x32x128_S196608x128

theorem idxR_apply (tok : IVec ReferenceIdeal.S6144x32 32) (g : Fin 6144) (i : Fin 32) (u : Fin 1) :
    idxR tok (ix3 g i u) = wrap (tok (ix2 g i)) := by
  unfold idxR
  rw [bcast3_col_apply, select_apply]
  rfl

theorem embR_eq (tok : IVec ReferenceIdeal.S6144x32 32) (emb : FVec Ideal ReferenceIdeal.S14x128 .f32) : embR tok emb = X0 tok emb := by
  funext y
  obtain ⟨r, k, rfl⟩ : ∃ r k, y = ix2 r k := ⟨y 0, y 1, eq_ix2 y⟩
  have hr : r.val = 32 * (⟨r.val / 32, by omega⟩ : Fin 6144).val + (⟨r.val % 32, Nat.mod_lt _ (by decide)⟩ : Fin 32).val := by
    show r.val = 32 * (r.val / 32) + r.val % 32
    omega
  rw [X0_apply tok emb _ _ r hr k]
  unfold embR
  rw [castFeat_apply _ _ _ _ k r hr, select_apply, bcast3_feat_apply, reduceR_apply, gatherR_apply]
  show pick emb (idxR tok (ix3 _ _ 0)) k = _
  rw [idxR_apply tok _ _ 0]
  rfl

/-! ## The two programs' embedded features are `X0` of the launched tokens and table -/

set_option maxHeartbeats 1000000 in
set_option maxRecDepth 16384 in
theorem kernel_x0 (m : (ℓ : Loc Cert.KernelIdeal.nD Cert.KernelIdeal.τ Cert.KernelIdeal.sig) → Buf (Elt Ideal) ℓ) (c : Dev Cert.KernelIdeal.nD) :
    (Cert.KernelIdeal.Gen.V (F := Ideal) m c Cert.KernelIdeal.main_v19 : KernelIdeal.S196608x128.Idx → EReal)
      = X0 (m ((c : Thread Cert.KernelIdeal.nD Cert.KernelIdeal.τ).loc Cert.KernelIdeal.main_arg0)) (m ((c : Thread Cert.KernelIdeal.nD Cert.KernelIdeal.τ).loc Cert.KernelIdeal.main_arg2)) := by
  rw [← embK_eq]
  dsimp only [Cert.KernelIdeal.Gen.V, Cert.KernelIdeal.Gen.V0]
  simp only [Cert.KernelIdeal.Gen.hostOps0, Cert.KernelIdeal.Gen.hostOps0_1, List.flatten_cons, List.flatten_nil, List.append_nil, List.cons_append, List.nil_append]
  after_results_simp
  simp only [StableHlo.TRef.ofBuf, StableHlo.TRef.toBuf, cast_eq]
  rfl

set_option maxHeartbeats 4000000 in
set_option maxRecDepth 16384 in
theorem reference_x0 (m' : (ℓ : Loc Cert.ReferenceIdeal.nD Cert.ReferenceIdeal.τ Cert.ReferenceIdeal.sig) → Buf (Elt Ideal) ℓ) (c : Dev Cert.ReferenceIdeal.nD) :
    (Cert.ReferenceIdeal.Gen.V (F := Ideal) m' c Cert.ReferenceIdeal.main_v1 : ReferenceIdeal.S196608x128.Idx → EReal)
      = X0 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) := by
  rw [← embR_eq]
  dsimp only [Cert.ReferenceIdeal.Gen.V, Cert.ReferenceIdeal.Gen.V0]
  simp only [Cert.ReferenceIdeal.Gen.hostOps0, Cert.ReferenceIdeal.Gen.hostOps0_1, Cert.ReferenceIdeal.Gen.hostOps0_2, Cert.ReferenceIdeal.Gen.hostOps0_3, List.flatten_cons, List.flatten_nil, List.append_nil, List.cons_append, List.nil_append]
  after_results_simp
  simp only [StableHlo.TRef.ofBuf, StableHlo.TRef.toBuf, cast_eq]
  rfl

end Cert.Embed

end
-- ==== Proof.lean ====
/-
  The kernel and its reference compute the same graph network.

  Both programs embed 6144 × 32 tokens, run five rounds of message passing on each graph of 32 nodes and finish with
  a two-layer head on every node; they return the first ten output columns for every node and, again, for node 0 of
  every graph.  The kernel works on 24 graphs per grid point, orders the ordered pairs of a graph by (sender, receiver),
  fuses the two halves of the first message layer into one matrix product, and sums the weighted messages over the
  senders with a plain sum over an axis.  The reference works on one graph per grid point, orders the pairs by
  (receiver, sender), keeps the two halves apart, and sums the weighted messages by a matrix product with a
  [32, 1024] matrix that holds node i's weights in column block i and zeros elsewhere.

  Over the extended reals both are one function of the arguments (`Gnn.whole`, Proof/SpecArgs.lean over Proof/Spec.lean):
  the matrix products are row by row, the regroupings of rows stay inside a graph, the sum over 1024 pairs with the zero
  blocks collapses to the 32 pairs of the receiving node (0 · a = 0 for every extended real a), and addition and
  multiplication commute.  No cancellation or distributivity is used, so the finiteness of the inputs is never needed.

  The kernel's side: Proof/KLayout.lean (the body's regroupings and matrix products at an index), Proof/KBody.lean (one
  round and the head on each graph), Proof/KOut.lean (the stored block), Proof/KWhole.lean (the blocks tile the result),
  Proof/KRun.lean (the lines after the region, and the run).  The reference's side: Proof/RefBody.lean,
  Proof/RefAdj.lean (the [196608, 1024] matrix at an index), Proof/RefWhole.lean.  Shared: Proof/HostWeights.lean (the weight
  windows of both programs off the argument arrays), Proof/Embed.lean (the embedding lookup of both programs is one function).
-/
import proofs.«173531_g2000002686688254_pallaspilot1_98_21_alg».proof.Defs
import proofs.«173531_g2000002686688254_pallaspilot1_98_21_alg».proof.Proof.Gen.Kernel
import proofs.«173531_g2000002686688254_pallaspilot1_98_21_alg».proof.Proof.Gen.Kernel.Skeleton
import proofs.«173531_g2000002686688254_pallaspilot1_98_21_alg».proof.Proof.Gen.Kernel.Launch
import proofs.«173531_g2000002686688254_pallaspilot1_98_21_alg».proof.Proof.Gen.Kernel.Points
import proofs.«173531_g2000002686688254_pallaspilot1_98_21_alg».proof.Proof.Gen.Kernel.Frame
import proofs.«173531_g2000002686688254_pallaspilot1_98_21_alg».proof.Proof.Gen.KernelIdeal
import proofs.«173531_g2000002686688254_pallaspilot1_98_21_alg».proof.Proof.Gen.KernelIdeal.Skeleton
import proofs.«173531_g2000002686688254_pallaspilot1_98_21_alg».proof.Proof.Gen.KernelIdeal.Launch
import proofs.«173531_g2000002686688254_pallaspilot1_98_21_alg».proof.Proof.Gen.KernelIdeal.Points
import proofs.«173531_g2000002686688254_pallaspilot1_98_21_alg».proof.Proof.Gen.KernelIdeal.Frame
import proofs.«173531_g2000002686688254_pallaspilot1_98_21_alg».proof.Proof.Gen.ReferenceIdeal
import proofs.«173531_g2000002686688254_pallaspilot1_98_21_alg».proof.Proof.Gen.ReferenceIdeal.Skeleton
import proofs.«173531_g2000002686688254_pallaspilot1_98_21_alg».proof.Proof.Gen.ReferenceIdeal.Launch
import proofs.«173531_g2000002686688254_pallaspilot1_98_21_alg».proof.Proof.Gen.ReferenceIdeal.Points
import proofs.«173531_g2000002686688254_pallaspilot1_98_21_alg».proof.Proof.Gen.ReferenceIdeal.Frame
import proofs.«173531_g2000002686688254_pallaspilot1_98_21_alg».proof.Proof.Gen.Pre_finite_inputs
import proofs.«173531_g2000002686688254_pallaspilot1_98_21_alg».proof.Proof.KRun
import proofs.«173531_g2000002686688254_pallaspilot1_98_21_alg».proof.Proof.RefWhole
import proofs.«173531_g2000002686688254_pallaspilot1_98_21_alg».proof.Proof.HostWeights
import proofs.«173531_g2000002686688254_pallaspilot1_98_21_alg».proof.Proof.Embed
import Idealize.ShloMosaic.Adequacy
import Idealize.ShloMosaic.Init

set_option maxRecDepth 16384

noncomputable section

namespace Cert.Proof

open Idealize.ShloMosaic Idealize.ShloMosaic.ValueIdx Idealize.SL.Sem

/-! ## The weights both programs' windows hold -/

/-- The weights read off the kernel's argument arrays. -/
def weightsK (m : (ℓ : Loc Cert.KernelIdeal.nD Cert.KernelIdeal.τ Cert.KernelIdeal.sig) → Buf (Elt Ideal) ℓ)
    (c : Dev Cert.KernelIdeal.nD) : Gnn.Weights :=
  Gnn.ofArgs (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (Cert.HostWeights.pad (m ((c.tc : Thread Cert.KernelIdeal.nD Cert.KernelIdeal.τ).loc Cert.KernelIdeal.main_arg9)))

set_option maxHeartbeats 2000000 in
theorem windowsK (m : (ℓ : Loc Cert.KernelIdeal.nD Cert.KernelIdeal.τ Cert.KernelIdeal.sig) → Buf (Elt Ideal) ℓ)
    (c : Dev Cert.KernelIdeal.nD) : Cert.KernelIdeal.Whole.WindowsAre m c (weightsK m c) where
  wa := Cert.HostWeights.k_w1a m c
  wb := Cert.HostWeights.k_w1b m c
  b1 := Cert.HostWeights.k_b1 m c
  w2 := Cert.HostWeights.k_w2 m c
  b2 := Cert.HostWeights.k_b2 m c
  ow1 := Cert.HostWeights.k_ow1 m c
  ob1 := Cert.HostWeights.k_ob1 m c
  ow2 := fun k d => congrFun (Cert.HostWeights.k_ow2 m c) (ix2 k d)

/-- The weights read off the reference's argument arrays. -/
def weightsR (m' : (ℓ : Loc Cert.ReferenceIdeal.nD Cert.ReferenceIdeal.τ Cert.ReferenceIdeal.sig) → Buf (Elt Ideal) ℓ)
    (c : Dev Cert.ReferenceIdeal.nD) : Gnn.Weights :=
  Gnn.ofArgs (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (Cert.HostWeights.pad (m' ((c.tc : Thread Cert.ReferenceIdeal.nD Cert.ReferenceIdeal.τ).loc Cert.ReferenceIdeal.main_arg9)))

set_option maxHeartbeats 2000000 in
theorem windowsR (m' : (ℓ : Loc Cert.ReferenceIdeal.nD Cert.ReferenceIdeal.τ Cert.ReferenceIdeal.sig) → Buf (Elt Ideal) ℓ)
    (c : Dev Cert.ReferenceIdeal.nD) : Cert.ReferenceIdeal.Whole.WindowsAre m' c (weightsR m' c) where
  wa := Cert.HostWeights.r_w1a m' c
  wb := Cert.HostWeights.r_w1b m' c
  b1 := Cert.HostWeights.r_b1 m' c
  w2 := Cert.HostWeights.r_w2 m' c
  b2 := Cert.HostWeights.r_b2 m' c
  ow1 := Cert.HostWeights.r_ow1 m' c
  ob1 := Cert.HostWeights.r_ob1 m' c
  ow2 := fun k d => congrFun (Cert.HostWeights.r_ow2 m' c) (ix2 k d)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

set_option maxHeartbeats 2000000 in
/-- From arguments that agree, both programs' whole results are the specification's at the same weights, weight tables
    and embedded tokens, and both return the same two functions of it. -/
theorem algebraic : Cert.algebraic_KernelIdeal_ReferenceIdeal := by
  intro m ρ m' ρ' _ hagree
  refine ⟨_, _, Cert.KernelIdeal.Whole.run m ρ (weightsK m) (windowsK m), ?_⟩
  refine (θ_run Cert.ReferenceIdeal.defs _ _).mono (fun r h c => ?_)
    (Cert.ReferenceIdeal.Whole.run m' ρ' (weightsR m') (windowsR m'))
  obtain ⟨e0, e1, e2, e3, e4, e5, e6, e7, e8, e9⟩ := hagree c
  have hx : (Cert.ReferenceIdeal.Gen.V (F := Ideal) m' c Cert.ReferenceIdeal.main_v1 : Cert.ReferenceIdeal.S196608x128.Idx → EReal)
      = (Cert.KernelIdeal.Gen.V (F := Ideal) m c Cert.KernelIdeal.main_v19 : Cert.KernelIdeal.S196608x128.Idx → EReal) := by
    rw [Cert.Embed.reference_x0, Cert.Embed.kernel_x0, e0, e2]
  have hw : weightsR m' c = weightsK m c := by
    unfold weightsR weightsK
    rw [e3, e4, e5, e6, e7, e8, e9]
  refine ⟨(h c).1.trans ?_, (h c).2.1.trans ?_, (h c).2.2⟩
  · rw [hw, hx, e1]
  · rw [hw, hx, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
